-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S8192x1 : Shape := ⟨2, ![8192, 1]⟩
abbrev S512x512 : Shape := ⟨2, ![512, 512]⟩
abbrev S1024x512 : Shape := ⟨2, ![1024, 512]⟩
abbrev S512x1 : Shape := ⟨2, ![512, 1]⟩
abbrev S512x1024 : Shape := ⟨2, ![512, 1024]⟩
abbrev S512 : Shape := ⟨1, ![512]⟩
abbrev S8192 : Shape := ⟨1, ![8192]⟩

abbrev nBuf : Space → Nat
  | .hbm => 38
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S8192x512, .bf16⟩
  | .hbm, ⟨24, _⟩ => ⟨S8192x1, .f32⟩
  | .hbm, ⟨25, _⟩ => ⟨S8192, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  iota_S512x1024_d0_w32 : S512x1024.Iotas .tc 32 [0]
  iota_S512x1024_d1_w32 : S512x1024.Iotas .tc 32 [1]
  reduces_S512x1024_S512 : S512x1024.Reduces [1] S512
  shapeCasts_S512_S512x1 : S512.ShapeCasts S512x1
  broadcasts_S512x1_S512x1024 : S512x1.Broadcasts S512x1024
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v11) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S8192 : Shape := ⟨1, ![8192]⟩
abbrev S8192x1 : Shape := ⟨2, ![8192, 1]⟩
abbrev S8192x2 : Shape := ⟨2, ![8192, 2]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S512x8192, .f32⟩
  | .hbm, ⟨24, _⟩ => ⟨S8192x8192, .f32⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S8192, .i32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1, .f32⟩
  | .hbm, ⟨57, _⟩ => ⟨S8192x8192, .f32⟩
  | .hbm, ⟨58, _⟩ => ⟨S8192x8192, .f32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192x1, .i32⟩
  | .hbm, ⟨76, _⟩ => ⟨S8192x2, .i32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_call2_v0 : Ref sig .tc := ⟨.hbm, 32, rfl⟩
abbrev main_call2_v1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call3_cst : Ref sig .tc := ⟨.hbm, 44, rfl⟩
abbrev main_call3_v0 : Ref sig .tc := ⟨.hbm, 45, rfl⟩
abbrev main_call3_cst_0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_cst_1 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_v26 : Ref sig .tc := ⟨.hbm, 58, rfl⟩
abbrev main_v27 : Ref sig .tc := ⟨.hbm, 59, rfl⟩
abbrev main_c_4 : Ref sig .tc := ⟨.hbm, 60, rfl⟩
abbrev main_v28 : Ref sig .tc := ⟨.hbm, 61, rfl⟩
abbrev main_v29 : Ref sig .tc := ⟨.hbm, 62, rfl⟩
abbrev main_c_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_6 : Ref sig .tc := ⟨.hbm, 67, rfl⟩
abbrev main_v33 : Ref sig .tc := ⟨.hbm, 68, rfl⟩
abbrev main_v34 : Ref sig .tc := ⟨.hbm, 69, rfl⟩
abbrev main_c_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_8 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_v44 : Ref sig .tc := ⟨.hbm, 82, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S8192x512_S512x8192_S8192x8192_1_0_0_1_n_n_wf : DotDims.WF S8192x512 S512x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.FrameRuns.lean ====
/-
  What the per-case runs of the kernel body and the frame share.

  @main is four stretches of host operations (the two row normalisations, the stacking and the conversion), the region, and
  thirteen host operations after it. `V` is what the region finds in each buffer: the launch contents after the four
  stretches. The grid is 16 row tiles by 8 column tiles, point `t` at row tile `t / 8` and column tile `t % 8`. The body
  resets its two running vectors exactly at column tile 0 (`cond0_0`, points ≡ 0 mod 8) and stores the output block
  exactly at column tile 7 (`cond0_1`, points ≡ 7 mod 8): elsewhere the output window is idle and is not written back.
  Both input windows read the same array; window 0's block moves with the row tile, window 1's with the column tile.
-/
import proofs.«106151_j12463995093382_1_alg».proof.Proof.Gen.KernelIdeal.Launch
import proofs.«106151_j12463995093382_1_alg».proof.Proof.Gen.KernelIdeal.Skeleton
import proofs.«106151_j12463995093382_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pre : List (List (HloOp τ sig (Elt F))) := [hostOps0, hostOps0_1, hostOps0_2, hostOps0_3]

/-- Core `c`'s buffer contents when the region is entered: after the four stretches. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem pre_sub : (pre (F := F)).Forall fun ops => ops.Forall fun op => op.bufs ⊆ StableHlo.tcRefs τ sig :=
  ⟨hostOps0_sub, hostOps0_1_sub, hostOps0_2_sub, hostOps0_3_sub⟩

theorem pre_fresh : (pre (F := F)).Forall fun ops => ops.Forall fun op => op.fresh = ∅ := by
  simp only [pre, List.Forall]; repeat' constructor

theorem hostOps1_fresh : (hostOps1 : List (HloOp τ sig (Elt F))).Forall fun op => op.fresh = ∅ := by
  simp only [List.Forall]; repeat' constructor

/-- @main reduces to the region continued by the thirteen later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The later operations touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array the region's windows stage: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile window's staging buffer holds its block at every point, fetched there or not: between fetches the
    block index does not move and the body leaves the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile window's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column tile": the reset's condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile": the output store's condition. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column tile it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S512x1 .f32 := (Memref.whole cc0_stg2_0 : Memref sig .tc .vmem S512x1 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The running maximum's and the running sum's scratch buffers. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Lse

end
-- ==== Proof.FrameRunA.lean ====
/-
  The body at a point of the FIRST column tile: the two running vectors are reset (−∞ and 0) before anything reads them, the
  tile is absorbed, nothing is stored into the output block. What each buffer the body stores into ends with is found by
  running the body: the pieces written, last first.
-/
import proofs.«106151_j12463995093382_1_alg».proof.Proof.FrameRuns

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- On whole memrefs — the two input blocks at their contents, the output block at contents handed back untouched, the two
    running vectors at anything — the body runs to the continuation holding the inputs and the output block as they were
    and each running vector with its pieces written. -/
noncomputable def kernelRun0_A (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .bf16) (x1 : Vec F S1024x512 .bf16) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Lse

end
-- ==== Proof.FrameRunB.lean ====
/-
  The body at a point of a MIDDLE column tile (neither the first nor the last): the running vectors are read at what the
  point before left, the tile is absorbed, nothing is stored into the output block.
-/
import proofs.«106151_j12463995093382_1_alg».proof.Proof.FrameRunA

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- On whole memrefs — the two input blocks at their contents, the output block at contents handed back untouched, the two
    running vectors at what the point before left — the body runs to the continuation holding the inputs and the output
    block as they were and each running vector with its pieces written. -/
noncomputable def kernelRun0_B (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .bf16) (x1 : Vec F S1024x512 .bf16) (xs0 : Vec F S512x1 .f32) (xs1 : Vec F S512x1 .f32) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Lse

end
-- ==== Proof.FrameRunC.lean ====
/-
  The body at a point of the LAST column tile: the running vectors are read at what the point before left, the tile is
  absorbed, and the row tile's result — the maximum plus the logarithm of the sum — is stored over the whole output block.
-/
import proofs.«106151_j12463995093382_1_alg».proof.Proof.FrameRunB

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- On whole memrefs — the two input blocks at their contents, the output block at anything, the two running vectors at
    what the point before left — the body runs to the continuation holding the inputs as they were and the output block
    and each running vector with its pieces written. -/
noncomputable def kernelRun0_C (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .bf16) (x1 : Vec F S1024x512 .bf16) (xs0 : Vec F S512x1 .f32) (xs1 : Vec F S512x1 .f32) :
    Σ' (L2 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Lse

end
-- ==== Proof.LibSharedInputs.lean ====
/-
  Launching a one-region TensorCore program whose kernel is handed ONE array through SEVERAL input windows,
  with host operations before and after the region.

  The frame run of the library for an @main that continues after its region (the theorem
  Pipeline.θ_run_frame_around_track) asks the windows' arrays to be pairwise distinct buffers, each held at the
  full share. Here the arrays may coincide: the full share of a buffer that several input windows read is dealt
  among those windows (hypothesis hdeal, an equivalence between the distinct buffers at the full share and the
  windows' arrays at their shares), the region runs on the windows' shares, and at the region's exit the shares
  are joined again so that the host operations after the region run on whole buffers. The post is the library's
  FramePost, read at the contents after those operations from an exit valuation the caller names (VN): every
  window's array at what the proof data computes, every other unscoped buffer at what the later operations
  compute from the exit contents.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

namespace Pipeline

open Idealize.ShloMosaic.Rounds

/-! ## The operations after the region, the arrays possibly shared -/

section SharedTail

variable {Λ₀ : SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

omit [Fintype P] [DecidableEq P] in
/-- The buffers an operation after the region may touch, held at Wv, are the DISTINCT buffers behind the windows'
    arrays and the bypassing buffers, each whole at the full share at Wv — whether or not two windows have one
    array (the set of the arrays' buffers is an image: a buffer two windows share is counted once). -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

omit [Fintype P] [DecidableEq P] in
set_option backward.isDefEq.respectTransparency.types false in
/-- THE OPERATIONS AFTER THE REGION, the arrays possibly shared: from the region's exit — the boundary, the distinct
    buffers behind the arrays whole at the exit contents VN, the bypassing buffers at the entry contents V, which
    VN agrees with off the arrays — the operations run within those buffers, writing no array, and hand back the
    arrays' buffers at VN and the bypassing buffers at what the operations compute from VN. -/
theorem tail_seqs_shared [Preorder Lvl] {gr : Nat} {W : Nat} (pre : Prefetch sig) (win : Fin W → WinSpec sig gr)
    (c : Dev nD) (V VN : Valuation τ sig Val)
    (hVN' : ∀ b : Ref sig .tc, (∀ w, arrRef win w ≠ b) → VN (Proc.devRef .tc b) = V (Proc.devRef .tc b))
    (opss : List (List (HloOp τ sig Val)))
    (hsub : ∀ ops ∈ opss, ∀ op ∈ ops, op.bufs ⊆ tailRefs sig pre win)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(arrBufs win c (fun b => VN (Proc.devRef .tc b))
              ∗ unscopedRestP pre win c (fun b => StableHlo.after opss.flatten VN (Proc.devRef .tc b))) -∗ Q' ⟨⟩)
        ∗ boundary (c.tc : Thread nD τ) ∗ arrBufs win c (fun b => VN (Proc.devRef .tc b))
        ∗ unscopedRestP pre win c (fun b => V (Proc.devRef .tc b)))
      ⊢ wp frame (wpE 𝔻 𝕍 (c.tc : Thread nD τ) none) Set.univ (chain (opss.map StableHlo.seq)) Q' := by
  classical
  have hW : (StableHlo.held (c.tc : Thread nD τ) (tailRefs sig pre win) VN : sProp 𝕄)
      = iprop(arrBufs win c (fun b => VN (Proc.devRef .tc b)) ∗ unscopedRestP pre win c (fun b => V (Proc.devRef .tc b))) := by
    rw [held_tailRefs_shared pre win c VN]
    congr 1
    unfold unscopedRestP
    exact bigSep_congr fun b hb => by
      beta_reduce
      rw [hVN' b fun w e => (Finset.mem_sdiff.mp (Finset.mem_sdiff.mp hb).1).2 (Finset.mem_image.mpr ⟨w, Finset.mem_univ _, e⟩)]
  have hW' : (StableHlo.held (c.tc : Thread nD τ) (tailRefs sig pre win) (StableHlo.after opss.flatten VN) : sProp 𝕄)
      = iprop(arrBufs win c (fun b => VN (Proc.devRef .tc b))
          ∗ unscopedRestP pre win c (fun b => StableHlo.after opss.flatten VN (Proc.devRef .tc b))) := by
    rw [held_tailRefs_shared pre win c]
    congr 1
    unfold arrBufs
    exact bigSep_congr fun b hb => by
      obtain ⟨w, -, rfl⟩ := Finset.mem_image.mp hb
      beta_reduce
      rw [StableHlo.after_of_forall_not_mem _ _ fun op hop => ?_]
      obtain ⟨ops, hops, hop'⟩ := List.mem_flatten.mp hop
      exact hkeep ops hops op hop' w
  rw [← List.append_nil (opss.map StableHlo.seq), ← hW]
  iintro ⟨Hk, Hb⟩
  iapply (wp_seqs_then pcs defs₀ 𝒱₀ c (tailRefs sig pre win) [] opss hsub hfresh VN) $$ Hb
  iintro Hb
  rw [chain_nil, wp_pure, hW']
  imodintro
  iapply Hk
  icases Hb with ⟨-, H⟩
  iexact H

end SharedTail

/-! ## The frame run around the region, input windows sharing arrays -/

section SharedFrame

variable {Λ₀ : SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- The pipeline's arrays at contents that are a function Vb of the array's buffer (hF) are each window's array,
    a whole buffer (harr), at the window's share at Vb. -/
theorem arrays_eq_deal (cfgs : P → Cfg sig Λ₀) (dats : (p : P) → (c : Dev nD) → Dat τ Val Unit ℕ (UR sig nD τ) ℕ (cfgs p) c) (p : P)
    (c : Dev nD) (harr : ∀ w, ((cfgs p).spec w).arr.IsWhole)
    (Vb : (b : Ref sig .tc) → Buf Val ((c.tc : Thread nD τ).loc b))
    (F : (w : Fin (cfgs p).W) → Buf Val (((cfgs p).spec w).arr.view.loc (c.tc : Thread nD τ)))
    (hF : ∀ w, F w = Vb (arrRef (cfgs p).spec w)) :
    ((dats p c).arrays F : sProp 𝕄)
      = bigSep Finset.univ fun w => (((c.tc : Thread nD τ).loc (arrRef (cfgs p).spec w)) ↦{(dats p c).share w} Vb (arrRef (cfgs p).spec w) : sProp 𝕄) := by
  unfold Dat.arrays
  exact bigSep_congr fun w _ => by rw [(harr w).set_eq_univ, hF]

/-- THE FRAME RUN with a TRACKING invariant for an @main that continues after the region with the host operations
    opss, of a pipeline that prefetches nothing and whose windows MAY SHARE ARRAYS (hw: the layout facts but for the
    arrays' distinctness). As Pipeline.θ_run_frame_around_track, with two changes. The shares: instead of every
    array held at the full share, hdeal says that the distinct buffers behind the arrays, each whole at the full
    share, are the windows' arrays each at its window's share — for every contents Vb of the buffers, in both
    directions (dealt at the region's entry, joined again at its exit). The exit contents: VN names what every
    buffer holds at the region's exit — each window's array what the proof data computes (hVN), every buffer that is
    no window's array its entry contents (hVN') — and the post is FramePost at the contents the operations compute
    from VN. -/
theorem θ_run_frame_around_track_shared
    (cfgs : P → Cfg sig Λ₀) (dats : (p : P) → (c : Dev nD) → Dat τ Val Unit ℕ (UR sig nD τ) ℕ (cfgs p) c) (p : P)
    (hcell : Function.Injective (cellOf (nD := nD) (τ := τ) cfgs)) (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (hdeal : ∀ (c : Dev nD) (Vb : (b : Ref sig .tc) → Buf Val ((c.tc : Thread nD τ).loc b)),
      (arrBufs (cfgs p).spec c Vb : sProp 𝕄)
        ⊣⊢ bigSep Finset.univ fun w => (((c.tc : Thread nD τ).loc (arrRef (cfgs p).spec w)) ↦{(dats p c).share w} Vb (arrRef (cfgs p).spec w) : sProp 𝕄))
    (V₀ VN : Dev nD → Valuation τ sig Val)
    (hVN : ∀ c w, (dats p c).arrAt w (cfgs p).N = VN c (Proc.devRef .tc (arrRef (cfgs p).spec w)))
    (hVN' : ∀ c (b : Ref sig .tc), (∀ w, arrRef (cfgs p).spec w ≠ b) → VN c (Proc.devRef .tc b) = V₀ c (Proc.devRef .tc b))
    (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (dats p c).A w = V₀ c (Proc.devRef .tc (arrRef (cfgs p).spec w)))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (VN c) (Proc.devRef .tc b))) := by
  classical
  -- the arrays at the region's exit, window by window at its share, at the exit contents
  have hE : ∀ c, ((dats p c).arrays (fun w => (dats p c).arrAt w (cfgs p).N) : sProp 𝕄)
      = bigSep Finset.univ fun w => (((c.tc : Thread nD τ).loc (arrRef (cfgs p).spec w))
          ↦{(dats p c).share w} VN c (Proc.devRef .tc (arrRef (cfgs p).spec w)) : sProp 𝕄) := fun c =>
    arrays_eq_deal cfgs dats p c harr (fun b => VN c (Proc.devRef .tc b)) _ (fun w => hVN c w)
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => ((hdeal c (fun b => V₀ c (Proc.devRef .tc b))).1).trans (Entails.of_eq
      (arrays_eq_deal cfgs dats p c harr (fun b => V₀ c (Proc.devRef .tc b)) (fun w => (dats p c).arrAt w 0) (fun w => hA c w)).symm))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfgs p).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      show iprop((iprop((dats p c).arrays (fun w => (dats p c).arrAt w (cfgs p).N)
                ∗ unscopedRestP Prefetch.none (cfgs p).spec c (fun b => StableHlo.after opss.flatten (VN c) (Proc.devRef .tc b))) -∗ Q' ⟨⟩)
            ∗ boundary (c.tc : Thread nD τ) ∗ (dats p c).arrays (fun w => (dats p c).arrAt w (cfgs p).N)
            ∗ unscopedRestP Prefetch.none (cfgs p).spec c (fun b => V₀ c (Proc.devRef .tc b))) ⊢ _
      rw [hE c]
      iintro ⟨Hk, Hb, Ha, HZ⟩
      ihave Ha' := (hdeal c (fun b => VN c (Proc.devRef .tc b))).2 $$ Ha
      iapply (tail_seqs_shared (fun q => (cfgs q).toPCfg (Val := Val)) defs₀ 𝒱₀ Prefetch.none (cfgs p).spec c (V₀ c) (VN c) (hVN' c)
        opss hsub hfresh hkeep Q')
      isplitl [Hk]
      · iintro ⟨Ha2, Hu⟩
        iapply Hk
        isplitl [Ha2]
        · iapply (hdeal c (fun b => VN c (Proc.devRef .tc b))).1; iexact Ha2
        · iexact Hu
      · isplitl [Hb]; · iexact Hb
        isplitl [Ha']; · iexact Ha'
        iexact HZ)
    (QY := fun c s => ∀ b ∈ restRefsP sig Prefetch.none (cfgs p).spec,
      s.mem ((c.tc : Thread nD τ).loc b) = StableHlo.after opss.flatten (VN c) (Proc.devRef .tc b))
    (hY := fun c s' => by
      iintro ⟨-, HU, HSI⟩
      unfold unscopedRestP
      imodintro
      iapply (pointsTo_read_all (restRefsP sig Prefetch.none (cfgs p).spec) (fun b => (c.tc : Thread nD τ).loc b)
        (fun b => StableHlo.after opss.flatten (VN c) (Proc.devRef .tc b)) s')
      isplitl [HU] <;> iassumption)
    (hQ := fun s h c => ⟨(h c).1, rest_of_restP Prefetch.none (cfgs p).spec (fun k => k.elim0) c
      (fun b => StableHlo.after opss.flatten (VN c) (Proc.devRef .tc b)) s (fun k => k.elim0) (h c).2.1 (h c).2.2⟩)

end SharedFrame

/-! ## The exit contents computed by the library's withArrays -/

section SharedExit

variable {Λ₀ : SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- A valuation read at equal references, across the equation. -/
theorem valuation_cast (V : Valuation τ sig Val) {b' b : DevRef τ sig} (e : b' = b) :
    cast (congrArg (fun x : DevRef τ sig => x.ty.Contents Val) e) (V b') = V b := by
  subst e; rfl

omit [Fintype P] [DecidableEq P] [∀ e, Nonempty (Val e)] in
/-- Pipeline.withArrays read at a window's array when windows may share arrays: withArrays picks SOME window on the
    buffer, and every window on it computes the same contents — when every window is an input window, whose array is
    never written and holds its entry contents (hA: those of the valuation), or is alone on its array (hio). -/
theorem withArrays_arr_shared (cfgs : P → Cfg sig Λ₀) (dats : (p : P) → (c : Dev nD) → Dat τ Val Unit ℕ (UR sig nD τ) ℕ (cfgs p) c) (p : P)
    (c : Dev nD) (V₀ : Valuation τ sig Val)
    (hA : ∀ w, (dats p c).A w = V₀ (Proc.devRef .tc (arrRef (cfgs p).spec w)))
    (hio : ∀ w, ((cfgs p).win w).isOut = false ∨ ∀ w', arrRef (cfgs p).spec w' = arrRef (cfgs p).spec w → w' = w)
    (n : Nat) (w : Fin (cfgs p).W) :
    withArrays (cfgs p).spec c V₀ (fun w => (dats p c).arrAt w n) (Proc.devRef .tc (arrRef (cfgs p).spec w)) = (dats p c).arrAt w n := by
  unfold withArrays
  have h : ∃ w', Proc.devRef .tc (arrRef (cfgs p).spec w') = Proc.devRef (τ := τ) .tc (arrRef (cfgs p).spec w) := ⟨w, rfl⟩
  rw [dif_pos h]
  suffices ∀ (w' : Fin (cfgs p).W) (e : Proc.devRef .tc (arrRef (cfgs p).spec w') = Proc.devRef (τ := τ) .tc (arrRef (cfgs p).spec w)),
      cast (congrArg (fun b' : DevRef τ sig => b'.ty.Contents Val) e) ((dats p c).arrAt w' n) = (dats p c).arrAt w n from this _ h.choose_spec
  intro w' e
  have e' : arrRef (cfgs p).spec w' = arrRef (cfgs p).spec w := Proc.devRef_injective _ e
  rcases hio w with hin | huniq
  · rcases hio w' with hin' | huniq'
    · rw [(dats p c).arrAt_in w' hin' n, (dats p c).arrAt_in w hin n, hA w', hA w]
      exact valuation_cast V₀ e
    · obtain rfl : w = w' := huniq' w e'.symm
      rfl
  · obtain rfl : w' = w := huniq w' e'
    rfl

/-- Pipeline.θ_run_frame_around_track_shared with the exit contents the library computes (Pipeline.withArrays: the
    arrays at what the proof data computes, every other buffer at its entry contents), for windows each of which is an
    input window or alone on its array (hio): the post is the library's, FramePost at Pipeline.afterTail₀. -/
theorem θ_run_frame_around_track_shared_in
    (cfgs : P → Cfg sig Λ₀) (dats : (p : P) → (c : Dev nD) → Dat τ Val Unit ℕ (UR sig nD τ) ℕ (cfgs p) c) (p : P)
    (hcell : Function.Injective (cellOf (nD := nD) (τ := τ) cfgs)) (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (hio : ∀ w, ((cfgs p).win w).isOut = false ∨ ∀ w', arrRef (cfgs p).spec w' = arrRef (cfgs p).spec w → w' = w)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (hdeal : ∀ (c : Dev nD) (Vb : (b : Ref sig .tc) → Buf Val ((c.tc : Thread nD τ).loc b)),
      (arrBufs (cfgs p).spec c Vb : sProp 𝕄)
        ⊣⊢ bigSep Finset.univ fun w => (((c.tc : Thread nD τ).loc (arrRef (cfgs p).spec w)) ↦{(dats p c).share w} Vb (arrRef (cfgs p).spec w) : sProp 𝕄))
    (V₀ : Dev nD → Valuation τ sig Val)
    (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (dats p c).A w = V₀ c (Proc.devRef .tc (arrRef (cfgs p).spec w)))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (afterTail₀ cfgs dats p V₀ opss)) :=
  θ_run_frame_around_track_shared cfgs dats p hcell hw hne harr hstage defs₀ 𝒱₀ m g main hbody howed hdeal V₀
    (fun c => withArrays (cfgs p).spec c (V₀ c) fun w => (dats p c).arrAt w (cfgs p).N)
    (fun c w => (withArrays_arr_shared cfgs dats p c (V₀ c) (hA c) hio (cfgs p).N w).symm)
    (fun c b hb => withArrays_of_ne (cfgs p).spec c (V₀ c) _ b hb)
    opss hsub hfresh hkeep hmain hA hin hout

end SharedExit

end Pipeline

end Idealize.ShloMosaic

end
-- ==== Proof.SharedDeal0.lean ====
/-
  The share assignment of custom_call 0's three windows and its share-dealing equivalence.

  Windows 0 and 1 are input windows on one array (the buffer main_v11); window 2 is the output window, alone on its
  array (the buffer main_v12). The full share of main_v11 is dealt in its two halves, the left half to window 0 and
  the right half to window 1; main_v12 is held at the full share. The equivalence deal0 is the hypothesis hdeal of
  Pipeline.θ_run_frame_around_track_shared for these windows, for any assignment of shares sh with those three values
  (a proof data's Dat.share with q := q0).
-/
import proofs.«106151_j12463995093382_1_alg».proof.Proof.Gen.KernelIdeal.Launch
import proofs.«106151_j12463995093382_1_alg».proof.Proof.LibSharedInputs

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem Idealize.SL.ProofMode

/-- The share each window of custom_call 0 holds of its array: the two input windows on main_v11 a half each, the
    output window (whose entry a proof data ignores) the full share. -/
def q0 : Fin 3 → PosShare TreeShare :=
  fun | 0 => fullShare.left | 1 => fullShare.right | 2 => fullShare | ⟨_ + 3, h⟩ => absurd h (Nat.not_lt.2 (Nat.le_add_left _ _))

theorem q0_0 : q0 0 = fullShare.left := rfl
theorem q0_1 : q0 1 = fullShare.right := rfl
theorem q0_2 : q0 2 = fullShare := rfl

/-- The distinct buffers behind the three windows' arrays are two. -/
theorem arrRefs0 : Finset.univ.image (Pipeline.arrRef spec0) = {main_v11, main_v12} := by decide

/-- The buffers behind custom_call 0's arrays, each whole at the full share at contents Vb, are the three windows'
    arrays at their shares at Vb: main_v11's full share is its left half (window 0) and its right half (window 1)
    together, main_v12 is window 2's at the full share. -/
theorem deal0 {Ix : Type} [DecidableEq Ix] {Val : EltTy → Type} {Name : Type} [DecidableEq Name] {U : Type} [URA U] {Lvl : Type}
    (sh : Fin 3 → PosShare TreeShare) (h0 : sh 0 = fullShare.left) (h1 : sh 1 = fullShare.right) (h2 : sh 2 = fullShare)
    (c : Dev nD) (Vb : (b : Ref sig .tc) → Buf Val ((c.tc : Thread nD τ).loc b)) :
    (Pipeline.arrBufs spec0 c Vb : sProp (MT nD τ sig Ix Val Name U Lvl))
      ⊣⊢ bigSep Finset.univ fun w : Fin 3 =>
          (((c.tc : Thread nD τ).loc (Pipeline.arrRef spec0 w)) ↦{sh w} Vb (Pipeline.arrRef spec0 w) : sProp (MT nD τ sig Ix Val Name U Lvl)) := by
  classical
  have hne : main_v11 ∉ ({main_v12} : Finset (Ref sig .tc)) := by decide
  unfold Pipeline.arrBufs
  rw [arrRefs0, bigSep_W0, h0, h1, h2, bigSep_insert hne, bigSep_singleton]
  show iprop((((c.tc : Thread nD τ).loc main_v11) ↦{fullShare} Vb main_v11) ∗ (((c.tc : Thread nD τ).loc main_v12) ↦{fullShare} Vb main_v12))
    ⊣⊢ iprop((((c.tc : Thread nD τ).loc main_v11) ↦{fullShare.left} Vb main_v11) ∗ (((c.tc : Thread nD τ).loc main_v11) ↦{fullShare.right} Vb main_v11)
        ∗ (((c.tc : Thread nD τ).loc main_v12) ↦{fullShare} Vb main_v12))
  constructor
  · iintro ⟨H1, H2⟩
    ihave H1' := (pointsTo_share (PosShare.mem_left_op_right fullShare)).1 $$ H1
    icases H1' with ⟨Ha, Hb⟩
    isplitl [Ha]; · iexact Ha
    isplitl [Hb]; · iexact Hb
    iexact H2
  · iintro ⟨Ha, Hb, H2⟩
    isplitr [H2]
    · iapply (pointsTo_share (PosShare.mem_left_op_right fullShare)).2
      isplitl [Ha]; · iexact Ha
      iexact Hb
    · iexact H2

/-- deal0 read at a proof data of custom_call 0 whose input shares are q0: the hypothesis hdeal of
    Pipeline.θ_run_frame_around_track_shared for that proof data. -/
theorem deal0_dat {Ix : Type} [DecidableEq Ix] {Val : EltTy → Type} {Name : Type} [DecidableEq Name] {U : Type} [URA U] {Lvl : Type}
    (c : Dev nD) (dat : Pipeline.Dat τ Val Ix Name U Lvl cfg0 c) (hq : dat.q = q0)
    (Vb : (b : Ref sig .tc) → Buf Val ((c.tc : Thread nD τ).loc b)) :
    (Pipeline.arrBufs cfg0.spec c Vb : sProp (MT nD τ sig Ix Val Name U Lvl))
      ⊣⊢ bigSep Finset.univ fun w : Fin cfg0.W =>
          (((c.tc : Thread nD τ).loc (Pipeline.arrRef cfg0.spec w)) ↦{dat.share w} Vb (Pipeline.arrRef cfg0.spec w) : sProp (MT nD τ sig Ix Val Name U Lvl)) :=
  deal0 (fun w => dat.share w)
    (by unfold Pipeline.Dat.share; rw [hq]; rfl) (by unfold Pipeline.Dat.share; rw [hq]; rfl) (by unfold Pipeline.Dat.share; rfl) c Vb

/-- Every window of custom_call 0 is an input window or alone on its array: what lets the exit contents be computed
    by Pipeline.withArrays (the hypothesis hio of Pipeline.θ_run_frame_around_track_shared_in). -/
theorem hio0 : ∀ w : Fin cfg0.W, (cfg0.win w).isOut = false
    ∨ ∀ w' : Fin cfg0.W, Pipeline.arrRef cfg0.spec w' = Pipeline.arrRef cfg0.spec w → w' = w := by decide

end Cert.KernelIdeal.Gen

end
-- ==== Proof.Frame.lean ====
/-
  What the body leaves point by point, the region's invariant, the proof data and the body obligation.

  After the body at point `t` the two scratch buffers hold the running maximum and the running sum of the row tile's
  rows over the column tiles seen so far; at the first column tile they start afresh, elsewhere they continue from what
  the point before left. The output block is stored at the last column tile only. `outsAt0` names the three contents by
  recursion on the point; the invariant between points says the scratch buffers hold `outsAt0`'s last two components.
  The two input windows read one array: each holds one half of its share.
-/
import proofs.«106151_j12463995093382_1_alg».proof.Proof.FrameRunC
import proofs.«106151_j12463995093382_1_alg».proof.Proof.SharedDeal0

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The three cases at a point -/

/-- The first-column-tile run at point `t`. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) scM0_0 (Memref.isWhole_whole _) scM0_1 (Memref.isWhole_whole _)
    ((hcond0_0 t).mpr h0) (fun h => by have := (hcond0_1 t).mp h; omega) (iblk m c 0 t) (iblk m c 1 t)
/-- The middle-column-tile run at point `t`, the running vectors at `p0`, `p1`. -/
abbrev runB (c : Dev nD) (t : Fin cfg0.N) (h0 : ¬t.val % 8 = 0) (h1 : ¬t.val % 8 = 7) (p0 p1 : Vec F S512x1 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) (fun h => h1 ((hcond0_1 t).mp h)) (iblk m c 0 t) (iblk m c 1 t) p0 p1
/-- The last-column-tile run at point `t`. -/
abbrev runC (c : Dev nD) (t : Fin cfg0.N) (h0 : ¬t.val % 8 = 0) (h1 : t.val % 8 = 7) (p0 p1 : Vec F S512x1 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) ((hcond0_1 t).mpr h1) (iblk m c 0 t) (iblk m c 1 t) p0 p1

/-- Pieces read back over a buffer nothing else wrote. -/
abbrev rd0 (L : List (View.Piece (Elt F) S512x1 .f32)) : Vec F S512x1 .f32 := VS0_0.read (Elt F) (VS0_0.writes (Elt F) VS0_0.junk L)
abbrev rd1 (L : List (View.Piece (Elt F) S512x1 .f32)) : Vec F S512x1 .f32 := VS0_1.read (Elt F) (VS0_1.writes (Elt F) VS0_1.junk L)
abbrev rd2 (L : List (View.Piece (Elt F) S512x1 .f32)) : Vec F S512x1 .f32 := VO0_2.read (Elt F) (VO0_2.writes (Elt F) VO0_2.junk L)

/-- Every case's pieces for each buffer it stores into tile the buffer. -/
theorem coverA0 (c : Dev nD) (t : Fin cfg0.N) (h0) (y : S512x1.Idx) : ∃ pc ∈ (runA m c t h0).1, y ∈ pc.1.set :=
  View.cover_of_tiledL (runA m c t h0).1 S512x1.size (by sl_kernel_rfl) y
theorem coverA1 (c : Dev nD) (t : Fin cfg0.N) (h0) (y : S512x1.Idx) : ∃ pc ∈ (runA m c t h0).2.1, y ∈ pc.1.set :=
  View.cover_of_tiledL (runA m c t h0).2.1 S512x1.size (by sl_kernel_rfl) y
theorem coverB0 (c : Dev nD) (t : Fin cfg0.N) (h0 h1 p0 p1) (y : S512x1.Idx) : ∃ pc ∈ (runB m c t h0 h1 p0 p1).1, y ∈ pc.1.set :=
  View.cover_of_tiledL (runB m c t h0 h1 p0 p1).1 S512x1.size (by sl_kernel_rfl) y
theorem coverB1 (c : Dev nD) (t : Fin cfg0.N) (h0 h1 p0 p1) (y : S512x1.Idx) : ∃ pc ∈ (runB m c t h0 h1 p0 p1).2.1, y ∈ pc.1.set :=
  View.cover_of_tiledL (runB m c t h0 h1 p0 p1).2.1 S512x1.size (by sl_kernel_rfl) y
theorem coverC2 (c : Dev nD) (t : Fin cfg0.N) (h0 h1 p0 p1) (y : S512x1.Idx) : ∃ pc ∈ (runC m c t h0 h1 p0 p1).1, y ∈ pc.1.set :=
  View.cover_of_tiledL (runC m c t h0 h1 p0 p1).1 S512x1.size (by sl_kernel_rfl) y
theorem coverC0 (c : Dev nD) (t : Fin cfg0.N) (h0 h1 p0 p1) (y : S512x1.Idx) : ∃ pc ∈ (runC m c t h0 h1 p0 p1).2.1, y ∈ pc.1.set :=
  View.cover_of_tiledL (runC m c t h0 h1 p0 p1).2.1 S512x1.size (by sl_kernel_rfl) y
theorem coverC1 (c : Dev nD) (t : Fin cfg0.N) (h0 h1 p0 p1) (y : S512x1.Idx) : ∃ pc ∈ (runC m c t h0 h1 p0 p1).2.2.1, y ∈ pc.1.set :=
  View.cover_of_tiledL (runC m c t h0 h1 p0 p1).2.2.1 S512x1.size (by sl_kernel_rfl) y

/-! ## What the buffers hold after each point -/

/-- The output block and the two running vectors after the body at point `t`, the running vectors before it at `p0`,
    `p1` (not consulted at the first column tile). Away from the last column tile nothing is stored into the output
    block and its component is a placeholder nothing reads. -/
def stepAt (c : Dev nD) (t : Fin cfg0.N) (p0 p1 : Vec F S512x1 .f32) : Vec F S512x1 .f32 × Vec F S512x1 .f32 × Vec F S512x1 .f32 :=
  if h0 : t.val % 8 = 0 then (rd2 [], rd0 (runA m c t h0).1, rd1 (runA m c t h0).2.1)
  else if h1 : t.val % 8 = 7 then (rd2 (runC m c t h0 h1 p0 p1).1, rd0 (runC m c t h0 h1 p0 p1).2.1, rd1 (runC m c t h0 h1 p0 p1).2.2.1)
  else (rd2 [], rd0 (runB m c t h0 h1 p0 p1).1, rd1 (runB m c t h0 h1 p0 p1).2.1)

/-- The accumulation over the points. -/
def outsAt0 (c : Dev nD) : (n : ℕ) → n < cfg0.N → Vec F S512x1 .f32 × Vec F S512x1 .f32 × Vec F S512x1 .f32
  | 0, hn => stepAt m c ⟨0, hn⟩ (rd0 []) (rd1 [])
  | n + 1, hn => stepAt m c ⟨n + 1, hn⟩ (outsAt0 c n (Nat.lt_of_succ_lt hn)).2.1 (outsAt0 c n (Nat.lt_of_succ_lt hn)).2.2

theorem outsAt0_pos (c : Dev nD) (t : Fin cfg0.N) (ht : t.val ≠ 0) :
    outsAt0 m c t.val t.isLt = stepAt m c t (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd rfl ht
  | succ n => rfl

theorem stepAt_A (c : Dev nD) (t : Fin cfg0.N) (h0 : t.val % 8 = 0) (p0 p1) :
    stepAt m c t p0 p1 = (rd2 [], rd0 (runA m c t h0).1, rd1 (runA m c t h0).2.1) := dif_pos h0
theorem stepAt_B (c : Dev nD) (t : Fin cfg0.N) (h0 : ¬t.val % 8 = 0) (h1 : ¬t.val % 8 = 7) (p0 p1) :
    stepAt m c t p0 p1 = (rd2 [], rd0 (runB m c t h0 h1 p0 p1).1, rd1 (runB m c t h0 h1 p0 p1).2.1) := (dif_neg h0).trans (dif_neg h1)
theorem stepAt_C (c : Dev nD) (t : Fin cfg0.N) (h0 : ¬t.val % 8 = 0) (h1 : t.val % 8 = 7) (p0 p1) :
    stepAt m c t p0 p1 = (rd2 (runC m c t h0 h1 p0 p1).1, rd0 (runC m c t h0 h1 p0 p1).2.1, rd1 (runC m c t h0 h1 p0 p1).2.2.1) :=
  (dif_neg h0).trans (dif_pos h1)

/-- At a first-column-tile point the accumulation starts afresh whatever came before. -/
theorem outsAt0_A (c : Dev nD) (t : Fin cfg0.N) (h0 : t.val % 8 = 0) :
    outsAt0 m c t.val t.isLt = (rd2 [], rd0 (runA m c t h0).1, rd1 (runA m c t h0).2.1) := by
  obtain ⟨n, hn⟩ := t
  cases n with
  | zero => exact stepAt_A m c _ h0 _ _
  | succ n => exact stepAt_A m c _ h0 _ _

/-! ## The invariant between points -/

/-- Before the first point: the scratch buffers at anything. Afterwards: at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- On core `c`: the arrays as the region finds them; after the body each input's buffer at its block and the output's
    at `outsAt0`'s first component; the invariant `PhiS`; nothing owed; the two input windows one half each of their
    common array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q := q0
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves1 (c : Dev nD) (t : Fin cfg0.N) :
    (dats m 0 c).leavesExact 1 t = owns (c : Thread nD τ) (ms0_1 t) fullShare (iblk m c 1 t) := by
  unfold Dat.leavesExact; rw [liveAt0_1 t, after0_1]

set_option maxHeartbeats 4800000 in
/-- The body at any point: the inputs' buffers hold their blocks; the point's column tile says which case it is in; the
    invariant hands the body the scratch buffers at what the point before left (at anything before the first point) and
    takes them back at this point's contents; the output block is stored at the last column tile and handed back
    untouched elsewhere; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, leaves0, leaves1]
  have hN : t.val < 128 := lt_of_lt_of_eq t.isLt (show cfg0.N = 128 from N_0)
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [outsAt0_A m c t h0]
    (try dsimp only)
    have hrun := (runA m c t h0).2.2
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverA0 m c t h0)
          · unfold owns; iexists _; isplitr
            swap; · iexact HS1
            ipureintro; exact View.read_writes_of_cover _ _ _ _ _ (coverA1 m c t h0)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverA0 m c t h0)
          · unfold owns; iexists _; isplitr
            swap; · iexact HS1
            ipureintro; exact View.read_writes_of_cover _ _ _ _ _ (coverA1 m c t h0)
        iexact Hg
      isplitl [Ho]; · iexact Ho
      isplitl [H0]; · iexact H0
      isplitl [H1]; · iexact H1
      iexists _; iexact H2
  · have hz : t.val ≠ 0 := fun h => h0 (by rw [h])
    rw [PhiS_castSucc m c t, PhiS_pos m c _ _ hz, outsAt0_pos m c t hz]
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2, outsAt0_pos m c t hz]
      rw [stepAt_C m c t h0 h1]
      (try dsimp only)
      have hrun := (runC m c t h0 h1 (outsAt0 m c (t.val - 1) (Nat.lt_of_le_of_lt (Nat.sub_le _ _) t.isLt)).2.1 (outsAt0 m c (t.val - 1) (Nat.lt_of_le_of_lt (Nat.sub_le _ _) t.isLt)).2.2).2.2.2
      iintro ⟨⟨⟨HS0, HS1⟩, Hg⟩, Ho, ⟨%d0, H0⟩, ⟨%d1, H1⟩, ⟨%d2, H2⟩⟩
      iapply (hrun Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverC0 m c t h0 h1 _ _)
          · unfold owns; iexists _; isplitr
            swap; · iexact HS1
            ipureintro; exact View.read_writes_of_cover _ _ _ _ _ (coverC1 m c t h0 h1 _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC2 m c t h0 h1 _ _)
    · rw [Dat.leavesExact_idle (dats m 0 c) 2 t (idleAt0_2 t (fun h => h1 ((hcond0_1 t).mp h))) (noFlush0_2 t (fun h => h1 ((hcond0_1 t).mp h)))]
      rw [stepAt_B m c t h0 h1]
      (try dsimp only)
      have hrun := (runB m c t h0 h1 (outsAt0 m c (t.val - 1) (Nat.lt_of_le_of_lt (Nat.sub_le _ _) t.isLt)).2.1 (outsAt0 m c (t.val - 1) (Nat.lt_of_le_of_lt (Nat.sub_le _ _) t.isLt)).2.2).2.2
      iintro ⟨⟨⟨HS0, HS1⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverB0 m c t h0 h1 _ _)
          · unfold owns; iexists _; isplitr
            swap; · iexact HS1
            ipureintro; exact View.read_writes_of_cover _ _ _ _ _ (coverB1 m c t h0 h1 _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitr [Hg]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Lse

end
-- ==== Proof.RunMain.lean ====
/-
  The run of @main and the frame.

  The region is launched with its two input windows on one array, each holding half of the array's share; the thirteen
  host operations after the region then run from what the region left: every buffer as the region found it, but for the
  output array, which holds the blocks written back. Read at the two argument arrays, which no operation writes, the
  run's post is the frame: they end as they were launched.
-/
import proofs.«106151_j12463995093382_1_alg».proof.Proof.Frame
import proofs.«106151_j12463995093382_1_alg».proof.Proof.LibSharedInputs

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What each buffer holds when the region is left: the output array at the blocks written back, every other buffer as
    the region found it. -/
def VN (c : Dev nD) : Valuation τ sig (Elt F) :=
  Function.update (V0 m c) (Proc.devRef .tc main_v12) ((dats m 0 c).arrAt 2 cfg0.N)

theorem VN_out (c : Dev nD) : VN m c (Proc.devRef .tc main_v12) = (dats m 0 c).arrAt 2 cfg0.N := by
  unfold VN; exact Function.update_self _ _ _

theorem VN_other (c : Dev nD) (b : Ref sig .tc) (hb : b ≠ main_v12) : VN m c (Proc.devRef .tc b) = V0 m c (Proc.devRef .tc b) := by
  unfold VN; exact Function.update_of_ne (StableHlo.devRef_ne_of_ne hb) _ _

/-- Every window's array at the region's end is what `VN` says: the inputs' as found, the output's as written back. -/
theorem hVN (c : Dev nD) (w : Fin cfg0.W) : (dats m 0 c).arrAt w cfg0.N = VN m c (Proc.devRef .tc (Pipeline.arrRef spec0 w)) := by
  match w with
  | ⟨0, _⟩ => exact ((dats m 0 c).arrAt_in 0 rfl _).trans ((A_eq m c 0).trans (VN_other m c main_v11 (by decide)).symm)
  | ⟨1, _⟩ => exact ((dats m 0 c).arrAt_in 1 rfl _).trans ((A_eq m c 1).trans (VN_other m c main_v11 (by decide)).symm)
  | ⟨2, _⟩ => exact (VN_out m c).symm

theorem hVN' (c : Dev nD) (b : Ref sig .tc) (h : ∀ w, Pipeline.arrRef spec0 w ≠ b) : VN m c (Proc.devRef .tc b) = V0 m c (Proc.devRef .tc b) :=
  VN_other m c b (fun e => h 2 e.symm)

-- the launch theorem's implicit arguments are found by unifying its conclusion with this one, which takes unfolding plain
-- definitions in a metavariable's type
set_option backward.isDefEq.respectTransparency.types false in
/-- From any memory with zero counters every weakly fair execution of @main terminates, nothing faulting, every array of
    the region at what the proof data computes and every other unscoped buffer at what the later operations leave. -/
theorem run_main : θ_run defs (onTc (τ := τ) (main (F := F))) (s₀ m ρ)
    (Pipeline.FramePost cfgs (dats m) 0 (fun c b => StableHlo.after (List.flatten [hostOps1]) (VN m c) (Proc.devRef .tc b))) :=
  Pipeline.θ_run_frame_around_track_shared cfgs (dats m) (0 : Fin 1) cellOf_inj winFacts₀0 block_pos0 arr_whole0 stage_whole0
    defs₀ Variants.none m ρ main (fun c => (body_obligation m c).loose) (fun _ _ => rfl)
    (fun c Vb => deal0_dat c (dats m 0 c) rfl Vb) (V0 m) (VN m) (hVN m) (hVN' m)
    [hostOps1] sfx_sub sfx_fresh sfx_keeps (hmain m Variants.none) (A_eq m) (hin m) (hout m)

/-- No operation before the region writes an argument array. -/
theorem V_main_arg0 (c : Dev nD) : V m c main_arg0 = m ((c : Thread nD τ).loc main_arg0) := by
  dsimp only [V, V0, pre]; simp only [hostOps0, hostOps0_1, hostOps0_2, hostOps0_3, List.flatten_cons, List.flatten_nil, List.append_nil, List.cons_append, List.nil_append]
  after_results
theorem V_main_arg1 (c : Dev nD) : V m c main_arg1 = m ((c : Thread nD τ).loc main_arg1) := by
  dsimp only [V, V0, pre]; simp only [hostOps0, hostOps0_1, hostOps0_2, hostOps0_3, List.flatten_cons, List.flatten_nil, List.append_nil, List.cons_append, List.nil_append]
  after_results

/-- Nor does one after it. -/
theorem tail_arg0 (c : Dev nD) : StableHlo.after (List.flatten [hostOps1]) (VN m c) (Proc.devRef .tc main_arg0) = m ((c : Thread nD τ).loc main_arg0) := by
  simp only [hostOps1, List.flatten_cons, List.flatten_nil, List.append_nil]
  after_results
  all_goals exact (VN_other m c main_arg0 (by decide)).trans (V_main_arg0 m c)
theorem tail_arg1 (c : Dev nD) : StableHlo.after (List.flatten [hostOps1]) (VN m c) (Proc.devRef .tc main_arg1) = m ((c : Thread nD τ).loc main_arg1) := by
  simp only [hostOps1, List.flatten_cons, List.flatten_nil, List.append_nil]
  after_results
  all_goals exact (VN_other m c main_arg1 (by decide)).trans (V_main_arg1 m c)

theorem arg0_rest : main_arg0 ∈ Pipeline.restRefs sig spec0 :=
  Pipeline.mem_restRefs_of main_arg0 rfl (fun w => by fin_cases w <;> decide)
theorem arg1_rest : main_arg1 ∈ Pipeline.restRefs sig spec0 :=
  Pipeline.mem_restRefs_of main_arg1 rfl (fun w => by fin_cases w <;> decide)

/-- THE FRAME: @main runs to the end, nothing faulting, and its two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (tail_arg0 m c), ((h c).2 main_arg1 arg1_rest).trans (tail_arg1 m c)⟩)
    (run_main m ρ)

end Cert.KernelIdeal.Lse

end
-- ==== Proof.Pieces.lean ====
/-
  What each case's stores leave, in the body's own arithmetic.

  The pieces a run finds are the stores' payloads over what the loads before them read. Read back, the two running vectors
  after a point are: the new maximum `k0_pay7` of the old maximum and the tile's row maxima, and the new sum `k0_pay8` —
  the old sum rescaled to the new maximum plus the tile's exponentials; at the first column tile the old maximum and sum
  are the reset values `k0_pay4` (−∞) and `k0_pay5` (0). At the last column tile the output block is `k0_pay3` of the two
  new vectors: the maximum plus the logarithm of the sum.
-/
import proofs.«106151_j12463995093382_1_alg».proof.Proof.Frame
import Idealize.ShloMosaic.Lib.Pipeline.Value

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz1 : (![0, 0] : Fin S512x1.rank → Nat) = fun _ => 0 := by funext a; match a with | ⟨0, _⟩ => rfl | ⟨1, _⟩ => rfl
theorem hz2 : (![0, 0] : Fin S512x512.rank → Nat) = fun _ => 0 := by funext a; match a with | ⟨0, _⟩ => rfl | ⟨1, _⟩ => rfl
theorem hz3 : (![0, 0] : Fin S1024x512.rank → Nat) = fun _ => 0 := by funext a; match a with | ⟨0, _⟩ => rfl | ⟨1, _⟩ => rfl

section
variable (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole)
  (x0 : Vec F S512x512 .bf16) (x1 : Vec F S1024x512 .bf16) (xs0 xs1 : Vec F S512x1 .f32)

set_option maxHeartbeats 2000000 in
theorem pieceA0 (hc0 : cond0_0 i) (hc1 : ¬cond0_1 i) :
    rd0 (kernelRun0_A (F := F) c i arg2 harg2 arg3 harg3 arg4 harg4 arg5 harg5 arg6 harg6 hc0 hc1 x0 x1).1
      = k0_pay2 (k0_pay7 i x0 x1 k0_pay4) := by
  unfold rd0
  rw [View.read_writes_eq_canon _ _ _ (View.cover_of_tiledL _ S512x1.size (by sl_kernel_rfl))]
  unfold kernelRun0_A
  dsimp only
  sl_unfold_words
  simp only [View.canon_cons_unit_zero (S := S512x1) hz1, View.readCov_unit_zero (S := S512x1) _ hz1, View.readAt_eq_ld,
    harg2.read_unread, harg3.read_unread, harg5.read_unread, harg6.read_unread,
    View.ld_unit_zero (S := S512x1) hz1, View.ld_unit_zero (S := S512x512) hz2, View.ld_unit_zero (S := S1024x512) hz3]

set_option maxHeartbeats 2000000 in
theorem pieceA1 (hc0 : cond0_0 i) (hc1 : ¬cond0_1 i) :
    rd1 (kernelRun0_A (F := F) c i arg2 harg2 arg3 harg3 arg4 harg4 arg5 harg5 arg6 harg6 hc0 hc1 x0 x1).2.1
      = k0_pay1 (k0_pay8 i x0 x1 k0_pay4 k0_pay4 k0_pay5) := by
  unfold rd1
  rw [View.read_writes_eq_canon _ _ _ (View.cover_of_tiledL _ S512x1.size (by sl_kernel_rfl))]
  unfold kernelRun0_A
  dsimp only
  sl_unfold_words
  simp only [View.canon_cons_unit_zero (S := S512x1) hz1, View.readCov_unit_zero (S := S512x1) _ hz1, View.readAt_eq_ld,
    harg2.read_unread, harg3.read_unread, harg5.read_unread, harg6.read_unread,
    View.ld_unit_zero (S := S512x1) hz1, View.ld_unit_zero (S := S512x512) hz2, View.ld_unit_zero (S := S1024x512) hz3]

set_option maxHeartbeats 2000000 in
theorem pieceB0 (hc0 : ¬cond0_0 i) (hc1 : ¬cond0_1 i) :
    rd0 (kernelRun0_B (F := F) c i arg2 harg2 arg3 harg3 arg4 harg4 arg5 harg5 arg6 harg6 hc0 hc1 x0 x1 xs0 xs1).1
      = k0_pay2 (k0_pay7 i x0 x1 xs0) := by
  unfold rd0
  rw [View.read_writes_eq_canon _ _ _ (View.cover_of_tiledL _ S512x1.size (by sl_kernel_rfl))]
  unfold kernelRun0_B
  dsimp only
  sl_unfold_words
  simp only [View.canon_cons_unit_zero (S := S512x1) hz1, View.readCov_unit_zero (S := S512x1) _ hz1, View.readAt_eq_ld,
    harg2.read_unread, harg3.read_unread, harg5.read_unread, harg6.read_unread,
    View.ld_unit_zero (S := S512x1) hz1, View.ld_unit_zero (S := S512x512) hz2, View.ld_unit_zero (S := S1024x512) hz3]

set_option maxHeartbeats 2000000 in
theorem pieceB1 (hc0 : ¬cond0_0 i) (hc1 : ¬cond0_1 i) :
    rd1 (kernelRun0_B (F := F) c i arg2 harg2 arg3 harg3 arg4 harg4 arg5 harg5 arg6 harg6 hc0 hc1 x0 x1 xs0 xs1).2.1
      = k0_pay1 (k0_pay8 i x0 x1 xs0 xs0 xs1) := by
  unfold rd1
  rw [View.read_writes_eq_canon _ _ _ (View.cover_of_tiledL _ S512x1.size (by sl_kernel_rfl))]
  unfold kernelRun0_B
  dsimp only
  sl_unfold_words
  simp only [View.canon_cons_unit_zero (S := S512x1) hz1, View.readCov_unit_zero (S := S512x1) _ hz1, View.readAt_eq_ld,
    harg2.read_unread, harg3.read_unread, harg5.read_unread, harg6.read_unread,
    View.ld_unit_zero (S := S512x1) hz1, View.ld_unit_zero (S := S512x512) hz2, View.ld_unit_zero (S := S1024x512) hz3]

set_option maxHeartbeats 2000000 in
theorem pieceC0 (hc0 : ¬cond0_0 i) (hc1 : cond0_1 i) :
    rd0 (kernelRun0_C (F := F) c i arg2 harg2 arg3 harg3 arg4 harg4 arg5 harg5 arg6 harg6 hc0 hc1 x0 x1 xs0 xs1).2.1
      = k0_pay2 (k0_pay7 i x0 x1 xs0) := by
  unfold rd0
  rw [View.read_writes_eq_canon _ _ _ (View.cover_of_tiledL _ S512x1.size (by sl_kernel_rfl))]
  unfold kernelRun0_C
  dsimp only
  sl_unfold_words
  simp only [View.canon_cons_unit_zero (S := S512x1) hz1, View.readCov_unit_zero (S := S512x1) _ hz1, View.readAt_eq_ld,
    harg2.read_unread, harg3.read_unread, harg5.read_unread, harg6.read_unread,
    View.ld_unit_zero (S := S512x1) hz1, View.ld_unit_zero (S := S512x512) hz2, View.ld_unit_zero (S := S1024x512) hz3]

set_option maxHeartbeats 2000000 in
theorem pieceC1 (hc0 : ¬cond0_0 i) (hc1 : cond0_1 i) :
    rd1 (kernelRun0_C (F := F) c i arg2 harg2 arg3 harg3 arg4 harg4 arg5 harg5 arg6 harg6 hc0 hc1 x0 x1 xs0 xs1).2.2.1
      = k0_pay1 (k0_pay8 i x0 x1 xs0 xs0 xs1) := by
  unfold rd1
  rw [View.read_writes_eq_canon _ _ _ (View.cover_of_tiledL _ S512x1.size (by sl_kernel_rfl))]
  unfold kernelRun0_C
  dsimp only
  sl_unfold_words
  simp only [View.canon_cons_unit_zero (S := S512x1) hz1, View.readCov_unit_zero (S := S512x1) _ hz1, View.readAt_eq_ld,
    harg2.read_unread, harg3.read_unread, harg5.read_unread, harg6.read_unread,
    View.ld_unit_zero (S := S512x1) hz1, View.ld_unit_zero (S := S512x512) hz2, View.ld_unit_zero (S := S1024x512) hz3]

set_option maxHeartbeats 2000000 in
theorem pieceC2 (hc0 : ¬cond0_0 i) (hc1 : cond0_1 i) :
    rd2 (kernelRun0_C (F := F) c i arg2 harg2 arg3 harg3 arg4 harg4 arg5 harg5 arg6 harg6 hc0 hc1 x0 x1 xs0 xs1).1
      = k0_pay3 (k0_pay2 (k0_pay7 i x0 x1 xs0)) (k0_pay1 (k0_pay8 i x0 x1 xs0 xs0 xs1)) := by
  unfold rd2
  rw [View.read_writes_eq_canon _ _ _ (View.cover_of_tiledL _ S512x1.size (by sl_kernel_rfl))]
  unfold kernelRun0_C
  dsimp only
  sl_unfold_words
  simp only [View.canon_cons_unit_zero (S := S512x1) hz1, View.readCov_unit_zero (S := S512x1) _ hz1, View.readAt_eq_ld,
    harg2.read_unread, harg3.read_unread, harg5.read_unread, harg6.read_unread,
    View.ld_unit_zero (S := S512x1) hz1, View.ld_unit_zero (S := S512x512) hz2, View.ld_unit_zero (S := S1024x512) hz3]

end

end Cert.KernelIdeal.Lse

end
-- ==== Proof.KScratch.lean ====
/-
  The two running vectors and the output block after each point, in the body's own arithmetic.

  At a point of the first column tile the running vectors are the step from the reset values; at any other point they
  are the step from what the point before left; at a point of the last column tile the output block is the new maximum
  plus the logarithm of the new sum.
-/
import proofs.«106151_j12463995093382_1_alg».proof.Proof.Pieces

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The running vectors before point `t` when it is not a first-column-tile point: what the point before left. -/
abbrev prev0 (c : Dev nD) (t : Fin cfg0.N) : Vec F S512x1 .f32 := (outsAt0 m c (t.val - 1) (Nat.lt_of_le_of_lt (Nat.sub_le _ _) t.isLt)).2.1
abbrev prev1 (c : Dev nD) (t : Fin cfg0.N) : Vec F S512x1 .f32 := (outsAt0 m c (t.val - 1) (Nat.lt_of_le_of_lt (Nat.sub_le _ _) t.isLt)).2.2

set_option maxHeartbeats 4000000 in
theorem scr_first (c : Dev nD) (t : Fin cfg0.N) (h0 : t.val % 8 = 0) :
    (outsAt0 m c t.val t.isLt).2.1 = k0_pay2 (k0_pay7 (grid0.coords t) (iblk m c 0 t) (iblk m c 1 t) k0_pay4)
    ∧ (outsAt0 m c t.val t.isLt).2.2 = k0_pay1 (k0_pay8 (grid0.coords t) (iblk m c 0 t) (iblk m c 1 t) k0_pay4 k0_pay4 k0_pay5) := by
  rw [outsAt0_A m c t h0]
  dsimp only
  refine ⟨?_, ?_⟩
  · exact pieceA0 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) ((hcond0_0 t).mpr h0) (fun h => by have := (hcond0_1 t).mp h; omega)
  · exact pieceA1 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) ((hcond0_0 t).mpr h0) (fun h => by have := (hcond0_1 t).mp h; omega)

set_option maxHeartbeats 4000000 in
theorem scr_next (c : Dev nD) (t : Fin cfg0.N) (h0 : ¬t.val % 8 = 0) :
    (outsAt0 m c t.val t.isLt).2.1 = k0_pay2 (k0_pay7 (grid0.coords t) (iblk m c 0 t) (iblk m c 1 t) (prev0 m c t))
    ∧ (outsAt0 m c t.val t.isLt).2.2 = k0_pay1 (k0_pay8 (grid0.coords t) (iblk m c 0 t) (iblk m c 1 t) (prev0 m c t) (prev0 m c t) (prev1 m c t)) := by
  have hz : t.val ≠ 0 := fun h => h0 (by rw [h])
  rw [outsAt0_pos m c t hz]
  by_cases h1 : t.val % 8 = 7
  · rw [stepAt_C m c t h0 h1]
    dsimp only
    refine ⟨?_, ?_⟩
    · exact pieceC0 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) (prev0 m c t) (prev1 m c t) (fun h => h0 ((hcond0_0 t).mp h)) ((hcond0_1 t).mpr h1)
    · exact pieceC1 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) (prev0 m c t) (prev1 m c t) (fun h => h0 ((hcond0_0 t).mp h)) ((hcond0_1 t).mpr h1)
  · rw [stepAt_B m c t h0 h1]
    dsimp only
    refine ⟨?_, ?_⟩
    · exact pieceB0 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) (prev0 m c t) (prev1 m c t) (fun h => h0 ((hcond0_0 t).mp h)) (fun h => h1 ((hcond0_1 t).mp h))
    · exact pieceB1 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) (prev0 m c t) (prev1 m c t) (fun h => h0 ((hcond0_0 t).mp h)) (fun h => h1 ((hcond0_1 t).mp h))

set_option maxHeartbeats 4000000 in
theorem out_last (c : Dev nD) (t : Fin cfg0.N) (h1 : t.val % 8 = 7) :
    (outsAt0 m c t.val t.isLt).1 = k0_pay3 (outsAt0 m c t.val t.isLt).2.1 (outsAt0 m c t.val t.isLt).2.2 := by
  have h0 : ¬t.val % 8 = 0 := by omega
  have hz : t.val ≠ 0 := fun h => h0 (by rw [h])
  rw [outsAt0_pos m c t hz, stepAt_C m c t h0 h1]
  (try dsimp only)
  rw [pieceC0 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) (prev0 m c t) (prev1 m c t) (fun h => h0 ((hcond0_0 t).mp h)) ((hcond0_1 t).mpr h1),
    pieceC1 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) (prev0 m c t) (prev1 m c t) (fun h => h0 ((hcond0_0 t).mp h)) ((hcond0_1 t).mpr h1)]
  exact pieceC2 c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) (prev0 m c t) (prev1 m c t) (fun h => h0 ((hcond0_0 t).mp h)) ((hcond0_1 t).mpr h1)

end Cert.KernelIdeal.Lse

end
-- ==== Proof.KBlocks.lean ====
/-
  The input blocks read at an index.

  Both input windows read the array of 8192 rows of 512 elements. At point t the first window's block is the row tile
  t / 8 — rows 512·(t / 8) … 512·(t / 8) + 511, all 512 columns — and the second window's block is the column tile
  t mod 8 read as rows — rows 1024·(t mod 8) … 1024·(t mod 8) + 1023, all 512 columns. An element of a block is the
  array's element at the block's offset plus the element's coordinate, axis by axis.
-/
import proofs.«106151_j12463995093382_1_alg».proof.Proof.Frame
import Idealize.ShloMosaic.Lib.ValueIdx

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ) (ρ : Dev nD → PrngReg)

/-! ## The grid's points and the input windows' index maps -/

/-- Point t of the 16 by 8 grid is row tile t / 8, column tile t mod 8. -/
theorem coords_t : ∀ t : Fin cfg0.N, ((grid0.coords t) (0 : Fin 2)).val = t.val / 8 ∧ ((grid0.coords t) (1 : Fin 2)).val = t.val % 8 :=
  (by decide +kernel : ∀ t : Fin grid0.N, ((grid0.coords t) (0 : Fin 2)).val = t.val / 8 ∧ ((grid0.coords t) (1 : Fin 2)).val = t.val % 8)

/-- The first input window's block index at point t: the row tile on the row axis, 0 on the column axis. -/
theorem idx_in0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- The second input window's block index at point t: the column tile on the row axis, 0 on the column axis. -/
theorem idx_in1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- A row of the first window's block is a row of the array. -/
theorem rowLt0 (t : Fin cfg0.N) (r : Fin 512) : 512 * (t.val / 8) + r.val < 8192 := by
  have ht := t.isLt
  have hN : cfg0.N = 128 := N_0
  have hr := r.isLt
  omega

/-- A row of the second window's block is a row of the array. -/
theorem rowLt1 (t : Fin cfg0.N) (b : Fin 1024) : 1024 * (t.val % 8) + b.val < 8192 := by
  have hb := b.isLt
  omega

/-! ## The blocks at an index -/

/-- The first input window's block at point t, at row r and column k: the array at row 512·(t / 8) + r, column k. -/
theorem iblk0_apply (c : Dev nD) (t : Fin cfg0.N) (r : Fin 512) (k : Fin 512) :
    iblk m c 0 t (ix2 r k) = V m c main_v11 (ix2 (⟨512 * (t.val / 8) + r.val, rowLt0 t r⟩ : Fin 8192) k) := by
  obtain ⟨e0, e1⟩ := idx_in0 t
  show V m c main_v11 (((cfg0.win 0).blk t).view.emb (ix2 r k)) = V m c main_v11 _
  refine congrArg _ ?_
  funext a; apply Fin.ext
  match a with
  | ⟨0, _⟩ =>
    show win0_0.index t (0 : Fin 2) * 512 + 1 * r.val = 512 * (t.val / 8) + r.val
    rw [e0]; omega
  | ⟨1, _⟩ =>
    show win0_0.index t (1 : Fin 2) * 512 + 1 * k.val = k.val
    rw [e1]; omega

/-- The second input window's block at point t, at row b and column k: the array at row 1024·(t mod 8) + b, column k. -/
theorem iblk1_apply (c : Dev nD) (t : Fin cfg0.N) (b : Fin 1024) (k : Fin 512) :
    iblk m c 1 t (ix2 b k) = V m c main_v11 (ix2 (⟨1024 * (t.val % 8) + b.val, rowLt1 t b⟩ : Fin 8192) k) := by
  obtain ⟨e0, e1⟩ := idx_in1 t
  show V m c main_v11 (((cfg0.win 1).blk t).view.emb (ix2 b k)) = V m c main_v11 _
  refine congrArg _ ?_
  funext a; apply Fin.ext
  match a with
  | ⟨0, _⟩ =>
    show win0_1.index t (0 : Fin 2) * 1024 + 1 * b.val = 1024 * (t.val % 8) + b.val
    rw [e0]; omega
  | ⟨1, _⟩ =>
    show win0_1.index t (1 : Fin 2) * 512 + 1 * k.val = k.val
    rw [e1]; omega

end Cert.KernelIdeal.Lse

end
-- ==== Proof.KFinal.lean ====
/-
  From the blocks to the array, for the output window.

  The output array has 8192 rows of one element. Row tile q (rows 512·q … 512·q + 511) is written back once, at the last
  column tile of its row tile, the point 8·q + 7, from the output's staging block as the body left it there. So the array
  ends holding, at row r, element r mod 512 of what the body left at point 8·(r / 512) + 7: the function G2 below. Every
  write-back writes its block of G2, and the blocks written back cover the array.
-/
import proofs.«106151_j12463995093382_1_alg».proof.Proof.Frame
import Idealize.ShloMosaic.Lib.Pipeline.Value
import Idealize.ShloMosaic.Lib.ValueIdx

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ) (ρ : Dev nD → PrngReg)

/-! ## The output window's index map over the grid -/

/-- The output window's block index at point t: the row tile t / 8 on the row axis, 0 on the other. -/
theorem idx_out : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- The point that writes row r back is a point of the grid. -/
theorem lastPt_lt (r : ℕ) (hr : r < 8192) : 8 * (r / 512) + 7 < cfg0.N := by
  have hN : cfg0.N = 128 := N_0
  omega

/-! ## What the array ends holding -/

/-- Row r of the output array after the run: element r mod 512 of the output block the body left at the last column
    tile of r's row tile. -/
def G2 (c : Dev nD) : S8192x1.Idx → Elt F .f32 := fun i =>
  (outsAt0 m c (8 * ((i 0).val / 512) + 7) (lastPt_lt _ (idx2_lt0 i))).1
    (ix2 (⟨(i 0).val % 512, Nat.mod_lt _ (by norm_num)⟩ : Fin 512) (0 : Fin 1))

/-- G2 at an index whose row is row r.val of the row tile written back at point n. -/
theorem G2_of (c : Dev nD) (i : S8192x1.Idx) (n : ℕ) (hn : n < cfg0.N) (r : Fin 512)
    (h1 : 8 * ((i 0).val / 512) + 7 = n) (h2 : (i 0).val % 512 = r.val) :
    G2 m c i = (outsAt0 m c n hn).1 (ix2 r (0 : Fin 1)) := by
  subst h1
  have hr : (⟨(i 0).val % 512, Nat.mod_lt _ (by norm_num)⟩ : Fin 512) = r := Fin.ext h2
  unfold G2
  rw [hr]

/-- What a point that writes the output block back writes is its block of G2. -/
theorem flushed2_eq (c : Dev nD) (t : Fin cfg0.N) (hf : (cfg0.win 2).flush t = true) :
    (dats m 0 c).flushed 2 t = ((cfg0.win 2).blk t).view.read (Elt F) (G2 m c) := by
  have h7 : t.val % 8 = 7 := (flush0_2 t).mp hf
  obtain ⟨e0, e1⟩ := idx_out t
  show (cfg0.win 2).cut (grid0.coords t) ((dats m 0 c).after 2 t) = _
  rw [after0_2]
  funext j
  show (outsAt0 m c t.val t.isLt).1 j = G2 m c (((cfg0.win 2).blk t).view.emb j)
  have hj : (j 0).val < 512 := idx2_lt0 j
  have hemb : ((((cfg0.win 2).blk t).view.emb j) 0).val = win0_2.index t (0 : Fin 2) * 512 + 1 * (j 0).val := rfl
  have hrow : ((((cfg0.win 2).blk t).view.emb j) 0).val = t.val / 8 * 512 + (j 0).val := by rw [hemb, e0]; omega
  rw [G2_of m c _ t.val t.isLt (j 0) (by rw [hrow]; omega) (by rw [hrow]; omega)]
  refine congrArg _ ?_
  funext a
  match a with
  | ⟨0, _⟩ => rfl
  | ⟨1, _⟩ =>
    have h1 : (j 1).val < 1 := idx2_lt1 j
    exact Fin.ext (show (j 1).val = 0 by omega)

/-- An index of the array is in point t's block iff each coordinate is in the block's range on its axis. -/
theorem mem_blk2 (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v12).slice (win0_2.rect t)).set ↔ _
  rw [View.set_slice_whole, Rect.mem_set_unit]
  exact Iff.rfl

/-- Every index of the array is in the block of a point that writes the block back: the last column tile of the
    index's row tile. -/
theorem cover2 (i : S8192x1.Idx) : ∃ t : Fin cfg0.N, (cfg0.win 2).flush t = true ∧ i ∈ ((cfg0.win 2).blk t).view.set := by
  have hi0 : (i 0).val < 8192 := idx2_lt0 i
  have hi1 : (i 1).val < 1 := idx2_lt1 i
  have hlt : 8 * ((i 0).val / 512) + 7 < cfg0.N := lastPt_lt _ hi0
  obtain ⟨e0, e1⟩ := idx_out ⟨8 * ((i 0).val / 512) + 7, hlt⟩
  have e0' : win0_2.index ⟨8 * ((i 0).val / 512) + 7, hlt⟩ (0 : Fin 2) = (8 * ((i 0).val / 512) + 7) / 8 := e0
  refine ⟨⟨8 * ((i 0).val / 512) + 7, hlt⟩, (flush0_2 _).mpr (show (8 * ((i 0).val / 512) + 7) % 8 = 7 by omega), ?_⟩
  rw [mem_blk2]
  intro a
  match a with
  | ⟨0, _⟩ =>
    show win0_2.index ⟨8 * ((i 0).val / 512) + 7, hlt⟩ (0 : Fin 2) * 512 ≤ (i 0).val
      ∧ (i 0).val < win0_2.index ⟨8 * ((i 0).val / 512) + 7, hlt⟩ (0 : Fin 2) * 512 + 512
    rw [e0']; omega
  | ⟨1, _⟩ =>
    show win0_2.index ⟨8 * ((i 0).val / 512) + 7, hlt⟩ (1 : Fin 2) * 1 ≤ (i 1).val
      ∧ (i 1).val < win0_2.index ⟨8 * ((i 0).val / 512) + 7, hlt⟩ (1 : Fin 2) * 1 + 1
    rw [e1]; omega

/-- THE ARRAY after the run is G2. -/
theorem final2_all (c : Dev nD) : (dats m 0 c).arrAt 2 cfg0.N = G2 m c :=
  (dats m 0 c).arrAt_eq_of_cover 2 (G2 m c) (fun t hf => flushed2_eq m c t hf) cover2

/-- Row by row: the array's row is element row mod 512 of the output block the body left at the last column tile of
    the row's row tile. -/
theorem final2 (c : Dev nD) (row : Fin 8192) :
    (dats m 0 c).arrAt 2 cfg0.N (ix2 row (0 : Fin 1))
      = (outsAt0 m c (8 * (row.val / 512) + 7) (lastPt_lt _ row.isLt)).1
          (ix2 (⟨row.val % 512, Nat.mod_lt _ (by norm_num)⟩ : Fin 512) (0 : Fin 1)) :=
  (congrFun (final2_all m c) (ix2 row (0 : Fin 1))).trans rfl

end Cert.KernelIdeal.Lse

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.PayEnds.lean ====
/-
  The values the kernel body stores at the two ends of a row block's sweep, read at an index, on the extended reals.

  Before the first column tile the running maximum is set to −∞ and the running sum to 0; after every tile the pair
  just computed is stored back unchanged (a shape cast to the same shape is the identity); after the last tile the
  row's log-sum-exp is the running maximum plus the logarithm of the running sum.
-/
import proofs.«106151_j12463995093382_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The f32 word of −∞ is the bottom of the extended reals. -/
theorem ofBits_negInf : Ideal.ofBits .f32 0xFF800000#32 = ⊥ := by simp [Ideal.ofBits, Ideal.ieee]

/-- The running sum is stored back as computed. -/
theorem pay1_eq (v : FVec Ideal S512x1 .f32) : k0_pay1 (F := Ideal) v = v := by
  unfold k0_pay1
  exact shapeCast_self v _

/-- The running maximum is stored back as computed. -/
theorem pay2_eq (v : FVec Ideal S512x1 .f32) : k0_pay2 (F := Ideal) v = v := by
  unfold k0_pay2
  exact shapeCast_self v _

/-- After the last tile: the running maximum plus the logarithm of the running sum. -/
theorem pay3_apply (v46 v47 : Vec Ideal S512x1 .f32) (r : Fin 512) :
    k0_pay3 (F := Ideal) v46 v47 (ix2 r 0) = v46 (ix2 r 0) + Ideal.log (v47 (ix2 r 0)) := rfl

/-- Before the first tile the running maximum is −∞ at every row. -/
theorem pay4_apply (j : S512x1.Idx) : k0_pay4 (F := Ideal) j = ⊥ := by
  unfold k0_pay4
  rw [shapeCast_self]
  exact ofBits_negInf

/-- Before the first tile the running sum is 0 at every row. -/
theorem pay5_apply (j : S512x1.Idx) : k0_pay5 (F := Ideal) j = 0 := by
  unfold k0_pay5
  rw [shapeCast_self]
  exact Ideal.ofBits_zero_f32

end Cert.KernelIdeal.Pay

end
-- ==== Proof.PayMax.lean ====
/-
  The running maximum after one tile, read at a row, on the extended reals.

  The tile's row maximum — a max-reduction over the 1024 columns from the −∞ word, kept as a column — read at row r is
  the largest entry of row r of the tile, folded from the bottom element; the new running maximum is the larger of the
  old one and that.
-/
import proofs.«106151_j12463995093382_1_alg».proof.Proof.Gen.KernelIdeal.Skeleton
import proofs.«106151_j12463995093382_1_alg».proof.Proof.LibRowSum
import proofs.«106151_j12463995093382_1_alg».proof.Proof.LibKeepdimsLayout
import proofs.«106151_j12463995093382_1_alg».proof.Proof.PayEnds
import Idealize.ShloMosaic.Lib.ValueIdx
import Idealize.ShloMosaic.PureOps.Ideal.Laws
import Mathlib.Data.Finset.Fold

noncomputable section

open scoped BigOperators

namespace Cert.KernelIdeal.Pay

open Idealize.ShloMosaic Idealize.ShloMosaic.ValueIdx Cert.KernelIdeal Cert.KernelIdeal.Gen

/-- The maximum over the columns of a 512 × 1024 block, from the −∞ word, kept as a column: at row r the fold of max
    from the bottom element over row r. -/
theorem rowMax_col (s : FVec Ideal S512x1024 .f32) (hφ : FKind.Formats .f32)
    (hacc : (0xFF800000#32 : BitVec 32) = FKind.maximumf.neutral .f32 hφ) (r : Fin 512) (u : Fin 1) :
    shapeCast S512x1 (multiReduction .maximumf [1] S512 s 0xFF800000#32 reduces_S512x1024_S512 hφ hacc)
        shapeCasts_S512_S512x1 (ix2 r u)
      = Finset.univ.fold max ⊥ fun c : Fin 1024 => s (ix2 r c) := by
  refine (Cert.LayoutKeepdims.shapeCast_a_a1_apply _ _ r u).trans ?_
  refine (Ideal.multiReduction_maximumf_single s _ _ hφ hacc (ix1 r)).trans ?_
  show (Finset.univ : Finset (Fin 1024)).fold max (Ideal.ofBits .f32 0xFF800000#32) _ = _
  rw [ofBits_negInf]
  refine congrArg (fun f => (Finset.univ : Finset (Fin 1024)).fold max (⊥ : EReal) f) ?_
  funext c
  exact congrArg s (Idealize.ShloMosaic.RowSum.lift_row _ r c)

/-- THE RUNNING MAXIMUM at row r: the larger of the old one and the largest entry of the tile's row r. -/
theorem pay7_apply (i : grid0.Coords) (x0 : Vec Ideal S512x512 .bf16) (x1 : Vec Ideal S1024x512 .bf16)
    (v24 : Vec Ideal S512x1 .f32) (r : Fin 512) :
    k0_pay7 (F := Ideal) i x0 x1 v24 (ix2 r 0)
      = max (v24 (ix2 r 0)) (Finset.univ.fold max ⊥ fun c : Fin 1024 => k0_pay6 (F := Ideal) i x0 x1 (ix2 r c)) := by
  unfold k0_pay7
  exact congrArg (max (v24 (ix2 r 0))) (rowMax_col (k0_pay6 (F := Ideal) i x0 x1) _ _ r 0)

end Cert.KernelIdeal.Pay

end
-- ==== Proof.Spec.lean ====
/-
  The NT-Xent loss as one function of the two blocks of normalised rows, over the extended reals.

  Stack the rows `a` (4096 of them) over the rows `b` (4096 more) into 8192 rows `e`. The scaled similarity of rows
  `i` and `j` is twice their inner product, and a row is never compared with itself: that entry is −∞. Row `i`'s
  log-sum-exp is its largest entry plus the logarithm of the sum of the exponentials of the entries less that
  largest one. Row `i`'s partner is the row 4096 further on (or back), and the scaled similarity with the partner
  is the inner product of `a`'s and `b`'s row `i mod 4096` divided by one half. The loss is the mean over the
  8192 rows of the log-sum-exp less the partner's scaled similarity.
-/
import Idealize.ShloMosaic.PureOps.Ideal
import Idealize.ShloMosaic.Lib.ValueIdx

noncomputable section

open scoped BigOperators

namespace Cert.Spec

open Idealize.ShloMosaic Idealize.ShloMosaic.ValueIdx

/-- A block of 4096 rows of 512 extended reals. -/
abbrev Rows := (⟨2, ![4096, 512]⟩ : Shape).Idx → EReal

/-- The stacked rows: the first 4096 are `a`'s, the last 4096 are `b`'s. -/
def emb (a b : Rows) (i : Fin 8192) (k : Fin 512) : EReal :=
  if h : i.val < 4096 then a (ix2 (⟨i.val, h⟩ : Fin 4096) k) else b (ix2 (⟨i.val - 4096, by omega⟩ : Fin 4096) k)

/-- The inner product of rows `i` and `j`. -/
def sim (e : Fin 8192 → Fin 512 → EReal) (i j : Fin 8192) : EReal := ∑ k : Fin 512, e i k * e j k

/-- The scaled similarity, −∞ on the diagonal. -/
def logit (e : Fin 8192 → Fin 512 → EReal) (i j : Fin 8192) : EReal := if i = j then ⊥ else sim e i j * 2

/-- The largest entry of row `i`. -/
def rowTop (e : Fin 8192 → Fin 512 → EReal) (i : Fin 8192) : EReal := Finset.univ.fold max ⊥ (logit e i)

/-- The sum of the exponentials of row `i`'s entries less its largest. -/
def rowMass (e : Fin 8192 → Fin 512 → EReal) (i : Fin 8192) : EReal := ∑ j : Fin 8192, Ideal.exp (logit e i j - rowTop e i)

/-- Row `i`'s log-sum-exp. -/
def lse (e : Fin 8192 → Fin 512 → EReal) (i : Fin 8192) : EReal := rowTop e i + Ideal.log (rowMass e i)

/-- The inner product of `a`'s row `r` with `b`'s row `r`. -/
def pairDot (a b : Rows) (r : Fin 4096) : EReal := ∑ k : Fin 512, a (ix2 r k) * b (ix2 r k)

/-- Row `i` taken modulo the half. -/
def half (i : Fin 8192) : Fin 4096 := ⟨i.val % 4096, Nat.mod_lt _ (by norm_num)⟩

/-- The loss: the mean over all rows of the log-sum-exp less the partner's scaled similarity. -/
def loss (a b : Rows) : EReal :=
  Ideal.div (∑ i : Fin 8192, (lse (emb a b) i - Ideal.div (pairDot a b (half i)) ((1 / 2 : ℝ) : EReal))) ((8192 : ℝ) : EReal)

/-! ## The same loss in the two-pass form: divide by one half, subtract the row's largest entry, take the logarithm of the
   sum of exponentials, read the partner's entry, negate the mean -/

/-- The similarity with the diagonal at −∞, divided by one half. -/
def refLogit (e : Fin 8192 → Fin 512 → EReal) (i j : Fin 8192) : EReal :=
  Ideal.div (if i = j then ⊥ else sim e i j) ((1 / 2 : ℝ) : EReal)

/-- The largest entry of row `i` in that form. -/
def refTop (e : Fin 8192 → Fin 512 → EReal) (i : Fin 8192) : EReal := Finset.univ.fold max ⊥ (refLogit e i)

/-- The log-softmax of row `i` at column `j`. -/
def refLogp (e : Fin 8192 → Fin 512 → EReal) (i j : Fin 8192) : EReal :=
  (refLogit e i j - refTop e i) - Ideal.log (∑ j' : Fin 8192, Ideal.exp (refLogit e i j' - refTop e i))

/-- Row `i`'s partner: the row 4096 further on, or back. -/
def partner (i : Fin 8192) : Fin 8192 :=
  if h : i.val < 4096 then ⟨i.val + 4096, by omega⟩ else ⟨i.val - 4096, by omega⟩

/-- The negated mean of the partner's log-softmax. -/
def refLoss (a b : Rows) : EReal :=
  -(Ideal.div (∑ i : Fin 8192, refLogp (emb a b) i (partner i)) ((8192 : ℝ) : EReal))

/-! ## The running maximum and running sum over eight tiles of 1024 columns -/

/-- The largest entry of one tile of a row. -/
def tileTop (row : Fin 1024 → EReal) : EReal := Finset.univ.fold max ⊥ row

/-- One tile absorbed: the new maximum, and the old sum rescaled to it plus the tile's exponentials. -/
def onlineStep (s : EReal × EReal) (row : Fin 1024 → EReal) : EReal × EReal :=
  (max s.1 (tileTop row),
   s.2 * Ideal.exp (s.1 - max s.1 (tileTop row)) + ∑ b : Fin 1024, Ideal.exp (row b - max s.1 (tileTop row)))

/-- The running pair after the first `n` tiles, from (−∞, 0). -/
def online (x : Fin 8 → Fin 1024 → EReal) : ℕ → EReal × EReal
  | 0 => (⊥, 0)
  | n + 1 => if h : n < 8 then onlineStep (online x n) (x ⟨n, h⟩) else online x n

/-- Column `b` of tile `t`. -/
def col (t : Fin 8) (b : Fin 1024) : Fin 8192 := ⟨t.val * 1024 + b.val, by omega⟩

/-! ## A block of rows divided by its rows' norms, the norm floored at ε -/

/-- Each entry divided by the larger of its row's Euclidean norm and `eps`. -/
def normRows (eps : EReal) (x : Rows) : Rows := fun idx =>
  Ideal.div (x idx) (max (Ideal.sqrt (∑ k : Fin 512, x (ix2 (idx 0) k) * x (ix2 (idx 0) k))) eps)

end Cert.Spec

end
-- ==== Proof.PaySum.lean ====
/-
  The running sum after one tile, read at a row, and the pair (running maximum, running sum) as one step of the
  online log-sum-exp, on the extended reals.

  The tile's row sum — an add-reduction over the 1024 columns from the zero word, kept as a column — read at row r is
  the sum of row r. The new running sum is the old one rescaled to the new maximum, plus the sum over the tile's row of
  the exponentials of the entries less the new maximum (the new maximum, a column, is broadcast along the row before the
  subtraction).
-/
import proofs.«106151_j12463995093382_1_alg».proof.Proof.Gen.KernelIdeal.Skeleton
import proofs.«106151_j12463995093382_1_alg».proof.Proof.LibRowSum
import proofs.«106151_j12463995093382_1_alg».proof.Proof.LibKeepdimsLayout
import proofs.«106151_j12463995093382_1_alg».proof.Proof.PayMax
import proofs.«106151_j12463995093382_1_alg».proof.Proof.Spec
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The sum over the columns of a 512 × 1024 block, from the zero word, kept as a column: at row r the sum of row r. -/
theorem rowSum_col (s : FVec Ideal S512x1024 .f32) (hφ : FKind.Formats .f32)
    (hacc : (0x00000000#32 : BitVec 32) = 0x00000000#32) (r : Fin 512) (u : Fin 1) :
    shapeCast S512x1 (multiReduction .add [1] S512 s 0x00000000#32 reduces_S512x1024_S512 hφ hacc)
        shapeCasts_S512_S512x1 (ix2 r u)
      = ∑ c : Fin 1024, s (ix2 r c) :=
  (Cert.LayoutKeepdims.shapeCast_a_a1_apply _ _ r u).trans
    (Idealize.ShloMosaic.RowSum.rowSum_apply s reduces_S512x1024_S512 hφ hacc r)

/-- THE RUNNING SUM at row r: the old sum times exp(old maximum − new maximum), plus the sum over the tile's row of
    exp(entry − new maximum). -/
theorem pay8_apply (i : grid0.Coords) (x0 : Vec Ideal S512x512 .bf16) (x1 : Vec Ideal S1024x512 .bf16)
    (v24 v26 v32 : Vec Ideal S512x1 .f32) (r : Fin 512) :
    k0_pay8 (F := Ideal) i x0 x1 v24 v26 v32 (ix2 r 0)
      = v32 (ix2 r 0) * Ideal.exp (v26 (ix2 r 0) - k0_pay7 (F := Ideal) i x0 x1 v24 (ix2 r 0))
        + ∑ c : Fin 1024, Ideal.exp (k0_pay6 (F := Ideal) i x0 x1 (ix2 r c) - k0_pay7 (F := Ideal) i x0 x1 v24 (ix2 r 0)) := by
  unfold k0_pay8
  refine congrArg (v32 (ix2 r 0) * Ideal.exp (v26 (ix2 r 0) - k0_pay7 (F := Ideal) i x0 x1 v24 (ix2 r 0)) + ·) ?_
  refine (rowSum_col _ _ _ r 0).trans ?_
  refine Finset.sum_congr rfl fun c _ => ?_
  show Ideal.exp (k0_pay6 (F := Ideal) i x0 x1 (ix2 r c)
      - broadcastTo S512x1024 (k0_pay7 (F := Ideal) i x0 x1 v24) broadcasts_S512x1_S512x1024 (ix2 r c)) = _
  rw [Cert.LayoutKeepdims.broadcastTo_a1_ab_apply]

/-- ONE STEP of the online log-sum-exp: from the pair (v, w) at row r, the new pair is the specification's step on the
    tile's row r. -/
theorem step_eq (i : grid0.Coords) (x0 : Vec Ideal S512x512 .bf16) (x1 : Vec Ideal S1024x512 .bf16)
    (v w : Vec Ideal S512x1 .f32) (r : Fin 512) :
    (k0_pay7 (F := Ideal) i x0 x1 v (ix2 r 0), k0_pay8 (F := Ideal) i x0 x1 v v w (ix2 r 0))
      = Cert.Spec.onlineStep (v (ix2 r 0), w (ix2 r 0)) (fun c : Fin 1024 => k0_pay6 (F := Ideal) i x0 x1 (ix2 r c)) := by
  refine Prod.ext ?_ ?_
  · exact pay7_apply i x0 x1 v r
  · show k0_pay8 (F := Ideal) i x0 x1 v v w (ix2 r 0) = _
    rw [pay8_apply, pay7_apply]
    rfl

end Cert.KernelIdeal.Pay

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.PayLogits.lean ====
/-
  The masked, scaled similarities of one tile of the kernel, read at an entry, on the extended reals.

  A row block x0 of 512 rows and a column block x1 of 1024 rows, each row of 512 entries, give the 512 × 1024 tile whose
  entry (r, c) is twice the inner product of x0's row r with x1's row c (the matrix unit contracts x0's last axis with
  the first axis of x1 transposed, starting from zero). Row r of the tile is global row 512·p + r and column c is global
  column 1024·q + c at the grid point (p, q); where the two coincide the entry is replaced by the named constant, which
  is −∞ on the extended reals. The grid has 16 × 8 points, so neither 32-bit sum wraps.
-/
import proofs.«106151_j12463995093382_1_alg».proof.Proof.Gen.KernelIdeal.Skeleton
import proofs.«106151_j12463995093382_1_alg».proof.Proof.LibDotInner
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Idealize.ShloMosaic.PureOps.IdealRules

noncomputable section

open scoped BigOperators

namespace Cert.KernelIdeal.Pay

open Idealize.ShloMosaic Idealize.ShloMosaic.ValueIdx Cert.KernelIdeal Cert.KernelIdeal.Gen

/-- The f32 word 0x40000000 is the number 2. -/
theorem ofBits_two : Ideal.ofBits .f32 0x40000000#32 = 2 := by
  simp [Ideal.ofBits, Ideal.ieee, -EReal.coe_mul]; norm_num; rfl

/-- The named mask constant is −∞ on the extended reals. -/
theorem neg_big : Named.named (F := Ideal) κ "neg_big" (φ := .f32) 0xFF333332#32 = ⊥ :=
  IdealRules.named_const.ideal_named_scalar κ "neg_big" (φ := .f32) 0xFF333332#32 ⊥ rfl

/-- The similarities of the tile: x0 against the transpose of x1 on the matrix unit, from the zero splat. -/
def gram (x0 : Vec Ideal S512x512 .bf16) (x1 : Vec Ideal S1024x512 .bf16) : FVec Ideal S512x1024 .f32 :=
  matmul dot_S512x512_S512x1024_S512x1024_1_0_0_1_n_n none
    (shapeCast S512x512 x0 shapeCasts_S512x512_S512x512 : FVec Ideal S512x512 .bf16)
    (transpose S512x1024 [1, 0] (shapeCast S1024x512 x1 shapeCasts_S1024x512_S1024x512 : FVec Ideal S1024x512 .bf16)
      transposes_S1024x512_p1_0_S512x1024 : FVec Ideal S512x1024 .bf16)
    (constant (F := Ideal) S512x1024 .f32 0x00000000#32)

/-- The mask of the tile at grid point i: 1 where the global row equals the global column. -/
def diag (i : grid0.Coords) : IVec S512x1024 1 :=
  cmpi .eq
    (addi (broadcast S512x1024 (Scalar.muli (BitVec.ofNat 32 (i 0).val) 512#32)) (iota .tc S512x1024 32 [0] iota_S512x1024_d0_w32))
    (addi (broadcast S512x1024 (Scalar.muli (BitVec.ofNat 32 (i 1).val) 1024#32)) (iota .tc S512x1024 32 [1] iota_S512x1024_d1_w32))

/-- The payload is the select, by the mask, between the named constant and the doubled similarities. -/
theorem pay6_eq (i : grid0.Coords) (x0 : Vec Ideal S512x512 .bf16) (x1 : Vec Ideal S1024x512 .bf16) :
    k0_pay6 (F := Ideal) i x0 x1
      = select (diag i) (broadcast S512x1024 (Named.named (F := Ideal) κ "neg_big" (φ := .f32) 0xFF333332#32))
          (mulf (gram x0 x1) (broadcast S512x1024 (Scalar.ofBits (F := Ideal) .f32 0x40000000#32))) := rfl

/-- Entry (r, c) of the similarities: the inner product of x0's row r with x1's row c. -/
theorem gram_apply (x0 : Vec Ideal S512x512 .bf16) (x1 : Vec Ideal S1024x512 .bf16) (r : Fin 512) (c : Fin 1024) :
    gram x0 x1 (ix2 r c) = ∑ k : Fin 512, x0 (ix2 r k) * x1 (ix2 c k) := by
  unfold gram
  rw [shapeCast_self, shapeCast_self]
  refine (DotInner.matmul_zero_apply dot_S512x512_S512x1024_S512x1024_1_0_0_1_n_n rfl rfl
    (fun _ _ => rfl) (fun _ _ => rfl) (fun _ _ => rfl) (fun _ _ => rfl) none _ _ r c).trans ?_
  refine Finset.sum_congr rfl fun k _ => ?_
  rw [transpose_ix2_apply]

/-- The mask is 1 at (r, c) exactly when the global row is the global column: the grid coordinates are below 16 and 8,
    so both sides are below 2³² and the words are equal exactly when the numbers are. -/
theorem diag_iff (i : grid0.Coords) (r : Fin 512) (c : Fin 1024) :
    diag i (ix2 r c) = 1 ↔ (i 0).val * 512 + r.val = (i 1).val * 1024 + c.val := by
  have h0 : (i 0).val < 16 := (i 0).isLt
  have h1 : (i 1).val < 8 := (i 1).isLt
  have hr := r.isLt
  have hc := c.isLt
  show IntOp.cmpi .eq
      (IntOp.addi (IntOp.muli (BitVec.ofNat 32 (i 0).val) 512#32) (iota .tc S512x1024 32 [0] iota_S512x1024_d0_w32 (ix2 r c)))
      (IntOp.addi (IntOp.muli (BitVec.ofNat 32 (i 1).val) 1024#32) (iota .tc S512x1024 32 [1] iota_S512x1024_d1_w32 (ix2 r c)))
        = 1#1 ↔ _
  rw [IntOp.cmpi_eq, iota_single_apply, iota_single_apply]
  show BitVec.ofNat 32 (i 0).val * 512#32 + BitVec.ofNat 32 r.val = BitVec.ofNat 32 (i 1).val * 1024#32 + BitVec.ofNat 32 c.val ↔ _
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- THE TILE at (r, c): −∞ on the diagonal of the whole matrix, twice the inner product of the two rows elsewhere. -/
theorem pay6_apply (i : grid0.Coords) (x0 : Vec Ideal S512x512 .bf16) (x1 : Vec Ideal S1024x512 .bf16)
    (r : Fin 512) (c : Fin 1024) :
    k0_pay6 (F := Ideal) i x0 x1 (ix2 r c)
      = if (i 0).val * 512 + r.val = (i 1).val * 1024 + c.val then ⊥
        else (∑ k : Fin 512, x0 (ix2 r k) * x1 (ix2 c k)) * 2 := by
  rw [pay6_eq]
  show Scalar.select (diag i (ix2 r c)) (Named.named (F := Ideal) κ "neg_big" (φ := .f32) 0xFF333332#32)
      (gram x0 x1 (ix2 r c) * Ideal.ofBits .f32 0x40000000#32) = _
  rw [gram_apply, neg_big, ofBits_two]
  unfold Scalar.select
  exact if_congr (diag_iff i r c) rfl rfl

end Cert.KernelIdeal.Pay

end
-- ==== Proof.LossReal.lean ====
/-
  Basic facts for the loss over the extended reals: the float words that occur as literals, sums of real numbers
  inside the extended reals, the maximum of a finite family that is real as soon as no term is +∞ and some term is
  not −∞, the exponential of an entry less a real number, and the finiteness of the scaled similarities.
-/
import proofs.«106151_j12463995093382_1_alg».proof.Proof.Spec

noncomputable section

open scoped BigOperators

namespace Cert.Spec

open Idealize.ShloMosaic Idealize.ShloMosaic.ValueIdx

/-! ## The float words -/

/-- The word of the number two. -/
@[simp] theorem ofBits_two : Ideal.ofBits .f32 0x40000000#32 = ((2 : ℝ) : EReal) := by
  simp [Ideal.ofBits, Ideal.ieee]
  rw [← EReal.coe_mul, EReal.coe_eq_coe_iff]; norm_num

/-- The word of one half. -/
@[simp] theorem ofBits_half : Ideal.ofBits .f32 0x3F000000#32 = ((1 / 2 : ℝ) : EReal) := by
  simp [Ideal.ofBits, Ideal.ieee]
  rw [← EReal.coe_mul, EReal.coe_eq_coe_iff]; norm_num

/-- The word of 8192. -/
@[simp] theorem ofBits_8192 : Ideal.ofBits .f32 0x46000000#32 = ((8192 : ℝ) : EReal) := by
  simp [Ideal.ofBits, Ideal.ieee]
  rw [← EReal.coe_mul, EReal.coe_eq_coe_iff]; norm_num

/-- The word of −∞ is the bottom element. -/
@[simp] theorem ofBits_neg_inf : Ideal.ofBits .f32 0xFF800000#32 = (⊥ : EReal) := by
  simp [Ideal.ofBits, Ideal.ieee]

/-- The extended real two is the real two. -/
theorem two_eq_coe : (2 : EReal) = ((2 : ℝ) : EReal) := rfl

/-- The word 0x2B8CBCCC is the positive real 9223372 · 2⁻⁶³ (the float nearest 10⁻¹²). -/
theorem eps_pos : ∃ r : ℝ, 0 < r ∧ Ideal.ofBits .f32 0x2B8CBCCC#32 = (r : EReal) := by
  simp [Ideal.ofBits, Ideal.ieee]
  exact ⟨9223372 * (2 ^ 63)⁻¹, by positivity, by rw [EReal.coe_mul]⟩

/-! ## Sums of reals inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the maximum of two. -/
theorem coe_max (a b : ℝ) : ((max a b : ℝ) : EReal) = max (a : EReal) (b : EReal) :=
  EReal.coe_strictMono.monotone.map_max

/-- A finite sum of extended reals that are all real is real, with the sum of the real values. -/
theorem sum_eq_coe {ι : Type} (s : Finset ι) (f : ι → EReal) (g : ι → ℝ) (h : ∀ i ∈ s, f i = (g i : EReal)) :
    ∑ i ∈ s, f i = ((∑ i ∈ s, g i : ℝ) : EReal) := by
  rw [coe_sum]; exact Finset.sum_congr rfl h

/-! ## A maximum of finitely many terms, none +∞ and one not −∞, is real -/

theorem fold_max_real {ι : Type} [Fintype ι] (f : ι → EReal) (htop : ∀ j, f j ≠ ⊤) (hbot : ∃ j, f j ≠ ⊥) :
    ∃ r : ℝ, Finset.univ.fold max ⊥ f = (r : EReal) := by
  have h1 : Finset.univ.fold max ⊥ f ≠ ⊤ := by
    apply ne_of_lt
    exact (Finset.fold_max_lt _).2 ⟨bot_lt_top, fun j _ => lt_top_iff_ne_top.2 (htop j)⟩
  have h2 : Finset.univ.fold max ⊥ f ≠ ⊥ := by
    obtain ⟨j, hj⟩ := hbot
    intro h
    have : f j ≤ Finset.univ.fold max ⊥ f :=
      (Finset.le_fold_max _).2 (Or.inr ⟨j, Finset.mem_univ j, le_rfl⟩)
    rw [h] at this
    exact hj (le_bot_iff.1 this)
  exact ⟨_, (EReal.coe_toReal h1 h2).symm⟩

/-! ## The exponential of an entry less a real number -/

/-- `e^(x − m)` as a real number, for an entry `x` that is real or −∞ (zero at −∞). -/
def ex (x : EReal) (m : ℝ) : ℝ := if x = ⊥ then 0 else Real.exp (x.toReal - m)

theorem exp_sub_coe (x : EReal) (hx : x ≠ ⊤) (m : ℝ) : Ideal.exp (x - (m : EReal)) = ((ex x m : ℝ) : EReal) := by
  induction x using EReal.rec with
  | bot => rw [EReal.bot_sub, Ideal.exp_bot, ex, if_pos rfl, EReal.coe_zero]
  | coe r => rw [← EReal.coe_sub, Ideal.exp_coe, ex, if_neg (EReal.coe_ne_bot r), EReal.toReal_coe]
  | top => exact absurd rfl hx

theorem ex_nonneg (x : EReal) (m : ℝ) : 0 ≤ ex x m := by
  unfold ex; split_ifs
  · exact le_rfl
  · exact (Real.exp_pos _).le

theorem ex_pos {x : EReal} (hx : x ≠ ⊥) (m : ℝ) : 0 < ex x m := by
  unfold ex; rw [if_neg hx]; exact Real.exp_pos _

/-- Rescaling from one reference point to another. -/
theorem ex_mul_exp (x : EReal) (m m' : ℝ) : ex x m * Real.exp (m - m') = ex x m' := by
  unfold ex; split_ifs
  · exact zero_mul _
  · rw [← Real.exp_add]; congr 1; ring

/-! ## The similarities of real rows -/

theorem sim_real (e : Fin 8192 → Fin 512 → EReal) (he : ∀ i k, ∃ r : ℝ, e i k = (r : EReal)) (i j : Fin 8192) :
    ∃ r : ℝ, sim e i j = (r : EReal) := by
  choose er her using he
  refine ⟨∑ k : Fin 512, er i k * er j k, ?_⟩
  unfold sim
  exact sum_eq_coe _ _ _ (fun k _ => by rw [her i k, her j k, EReal.coe_mul])

theorem logit_real_of_ne (e : Fin 8192 → Fin 512 → EReal) (he : ∀ i k, ∃ r : ℝ, e i k = (r : EReal))
    {i j : Fin 8192} (h : i ≠ j) : ∃ r : ℝ, logit e i j = (r : EReal) := by
  obtain ⟨s, hs⟩ := sim_real e he i j
  refine ⟨s * 2, ?_⟩
  rw [logit, if_neg h, hs, two_eq_coe, EReal.coe_mul]

theorem logit_diag (e : Fin 8192 → Fin 512 → EReal) (i : Fin 8192) : logit e i i = ⊥ := by
  rw [logit, if_pos rfl]

theorem logit_ne_top (e : Fin 8192 → Fin 512 → EReal) (he : ∀ i k, ∃ r : ℝ, e i k = (r : EReal))
    (i j : Fin 8192) : logit e i j ≠ ⊤ := by
  by_cases h : i = j
  · subst h; rw [logit_diag]; exact bot_ne_top
  · obtain ⟨r, hr⟩ := logit_real_of_ne e he h
    rw [hr]; exact EReal.coe_ne_top r

/-- Some other row exists. -/
theorem exists_ne (i : Fin 8192) : ∃ j : Fin 8192, i ≠ j := by
  by_cases h : i = 0
  · exact ⟨1, by rw [h]; decide⟩
  · exact ⟨0, h⟩

/-- The largest entry of a row of scaled similarities is real. -/
theorem rowTop_real (e : Fin 8192 → Fin 512 → EReal) (he : ∀ i k, ∃ r : ℝ, e i k = (r : EReal)) (i : Fin 8192) :
    ∃ r : ℝ, rowTop e i = (r : EReal) := by
  obtain ⟨j, hj⟩ := exists_ne i
  obtain ⟨r, hr⟩ := logit_real_of_ne e he hj
  exact fold_max_real (logit e i) (logit_ne_top e he i) ⟨j, by rw [hr]; exact EReal.coe_ne_bot r⟩

end Cert.Spec

end
-- ==== Proof.LossOnline.lean ====
/-
  The running maximum and running sum over eight tiles of 1024 columns end at the row's largest entry and at the sum
  of the exponentials of the row's entries less that largest entry.

  A column is a pair (tile, position); sums and maxima over the 8192 columns are sums and maxima over the pairs.
  After the first `n ≥ 1` tiles the running pair is the maximum `M` of those tiles' entries, which is real, and the sum
  over those tiles of `e^(x − M)`: absorbing one more tile with maximum `T` multiplies every earlier term by
  `e^(M − max M T)`, which turns `e^(x − M)` into `e^(x − max M T)`.
-/
import proofs.«106151_j12463995093382_1_alg».proof.Proof.LossReal

noncomputable section

open scoped BigOperators

namespace Cert.Spec

open Idealize.ShloMosaic Idealize.ShloMosaic.ValueIdx

/-! ## Columns as (tile, position) pairs -/

/-- The 8192 columns are the pairs of one of 8 tiles and one of 1024 positions. -/
def colEquiv : Fin 8 × Fin 1024 ≃ Fin 8192 where
  toFun p := col p.1 p.2
  invFun j := (⟨j.val / 1024, by have := j.isLt; omega⟩, ⟨j.val % 1024, Nat.mod_lt _ (by norm_num)⟩)
  left_inv := by
    rintro ⟨t, b⟩
    have ht := t.isLt
    have hb := b.isLt
    refine Prod.ext (Fin.ext ?_) (Fin.ext ?_)
    · show (t.val * 1024 + b.val) / 1024 = t.val
      omega
    · show (t.val * 1024 + b.val) % 1024 = b.val
      omega
  right_inv := by
    intro j
    apply Fin.ext
    show j.val / 1024 * 1024 + j.val % 1024 = j.val
    omega

/-- A sum over the columns is the sum over the tiles of the sums over the positions. -/
theorem sum_col {M : Type} [AddCommMonoid M] (f : Fin 8192 → M) :
    ∑ j, f j = ∑ t : Fin 8, ∑ b : Fin 1024, f (col t b) := by
  rw [← Equiv.sum_comp colEquiv f, Fintype.sum_prod_type]
  rfl

/-- The maximum over the columns is the maximum over the tiles of the tiles' maxima. -/
theorem fold_col (f : Fin 8192 → EReal) :
    Finset.univ.fold max ⊥ (fun t : Fin 8 => tileTop (fun b => f (col t b))) = Finset.univ.fold max ⊥ f := by
  unfold tileTop
  apply le_antisymm
  · refine (Finset.fold_max_le _).2 ⟨bot_le, fun t _ => ?_⟩
    refine (Finset.fold_max_le _).2 ⟨bot_le, fun b _ => ?_⟩
    exact (Finset.le_fold_max _).2 (Or.inr ⟨col t b, Finset.mem_univ _, le_rfl⟩)
  · refine (Finset.fold_max_le _).2 ⟨bot_le, fun j _ => ?_⟩
    obtain ⟨⟨t, b⟩, rfl⟩ := colEquiv.surjective j
    refine (Finset.le_fold_max _).2 (Or.inr ⟨t, Finset.mem_univ _, ?_⟩)
    exact (Finset.le_fold_max _).2 (Or.inr ⟨b, Finset.mem_univ _, le_rfl⟩)

/-! ## One tile absorbed -/

/-- The first tile, absorbed from (−∞, 0). -/
theorem onlineStep_bot (row : Fin 1024 → EReal) (hrow : ∀ b, row b ≠ ⊤) (T : ℝ) (hT : tileTop row = (T : EReal)) :
    onlineStep (⊥, 0) row = ((T : EReal), ((∑ b, ex (row b) T : ℝ) : EReal)) := by
  unfold onlineStep
  dsimp only
  rw [hT, max_bot_left, zero_mul, zero_add, sum_eq_coe _ _ _ (fun b _ => exp_sub_coe _ (hrow b) T)]

/-- A later tile, absorbed from a real pair. -/
theorem onlineStep_coe (m A : ℝ) (row : Fin 1024 → EReal) (hrow : ∀ b, row b ≠ ⊤) (T : ℝ)
    (hT : tileTop row = (T : EReal)) :
    onlineStep ((m : EReal), (A : EReal)) row
      = (((max m T : ℝ) : EReal), ((A * Real.exp (m - max m T) + ∑ b, ex (row b) (max m T) : ℝ) : EReal)) := by
  unfold onlineStep
  dsimp only
  rw [hT, ← coe_max, ← EReal.coe_sub, Ideal.exp_coe, ← EReal.coe_mul,
    sum_eq_coe _ _ _ (fun b _ => exp_sub_coe _ (hrow b) (max m T)), ← EReal.coe_add]

theorem online_succ (x : Fin 8 → Fin 1024 → EReal) (n : ℕ) (h : n < 8) :
    online x (n + 1) = onlineStep (online x n) (x ⟨n, h⟩) := by
  rw [online, dif_pos h]

/-! ## The tiles before the `n`-th -/

/-- The tiles numbered below `n`. -/
def before (n : ℕ) : Finset (Fin 8) := Finset.univ.filter (fun t => t.val < n)

theorem before_zero : before 0 = ∅ := by
  ext t; simp [before]

theorem before_succ (n : ℕ) (h : n < 8) : before (n + 1) = insert (⟨n, h⟩ : Fin 8) (before n) := by
  ext t
  simp only [before, Finset.mem_filter, Finset.mem_univ, true_and, Finset.mem_insert, Fin.ext_iff]
  omega

theorem not_mem_before (n : ℕ) (h : n < 8) : (⟨n, h⟩ : Fin 8) ∉ before n := by
  simp [before]

theorem before_eight : before (7 + 1) = Finset.univ := by
  ext t
  have := t.isLt
  simp only [before, Finset.mem_filter, Finset.mem_univ, true_and, iff_true]
  omega

/-! ## The running pair after `n + 1` tiles -/

theorem online_inv (x : Fin 8 → Fin 1024 → EReal) (hx : ∀ t b, x t b ≠ ⊤)
    (hT : ∀ t, ∃ T : ℝ, tileTop (x t) = (T : EReal)) :
    ∀ n, n < 8 → ∃ M : ℝ, (before (n + 1)).fold max ⊥ (fun t => tileTop (x t)) = (M : EReal) ∧
      online x (n + 1) = ((M : EReal), ((∑ t ∈ before (n + 1), ∑ b, ex (x t b) M : ℝ) : EReal)) := by
  choose T hT using hT
  intro n
  induction n with
  | zero =>
    intro h
    refine ⟨T ⟨0, h⟩, ?_, ?_⟩
    · rw [before_succ 0 h, Finset.fold_insert (not_mem_before 0 h), before_zero, Finset.fold_empty, hT,
        max_bot_right]
    · rw [online_succ x 0 h, before_succ 0 h, Finset.sum_insert (not_mem_before 0 h), before_zero,
        Finset.sum_empty, add_zero]
      exact onlineStep_bot _ (hx _) _ (hT _)
  | succ n ih =>
    intro h
    obtain ⟨M, hM, hon⟩ := ih (by omega)
    refine ⟨max M (T ⟨n + 1, h⟩), ?_, ?_⟩
    · rw [before_succ (n + 1) h, Finset.fold_insert (not_mem_before _ h), hM, hT,
        max_comm ((T ⟨n + 1, h⟩ : ℝ) : EReal) (M : EReal), ← coe_max]
    · rw [online_succ x (n + 1) h, hon, onlineStep_coe _ _ _ (hx _) _ (hT _)]
      congr 2
      rw [before_succ (n + 1) h, Finset.sum_insert (not_mem_before _ h), Finset.sum_mul, add_comm]
      congr 1
      apply Finset.sum_congr rfl
      intro t _
      rw [Finset.sum_mul]
      exact Finset.sum_congr rfl (fun b _ => ex_mul_exp _ _ _)

/-! ## The eight tiles of a row of scaled similarities -/

/-- Every tile of a row holds an entry off the diagonal. -/
theorem tile_has_real (e : Fin 8192 → Fin 512 → EReal) (he : ∀ i k, ∃ r : ℝ, e i k = (r : EReal))
    (i : Fin 8192) (t : Fin 8) : ∃ b : Fin 1024, logit e i (col t b) ≠ ⊥ := by
  by_cases h0 : i = col t 0
  · have h1 : i ≠ col t 1 := by
      rw [h0]
      intro h
      have := congrArg Fin.val h
      simp [col] at this
    obtain ⟨r, hr⟩ := logit_real_of_ne e he h1
    exact ⟨1, by rw [hr]; exact EReal.coe_ne_bot r⟩
  · obtain ⟨r, hr⟩ := logit_real_of_ne e he h0
    exact ⟨0, by rw [hr]; exact EReal.coe_ne_bot r⟩

/-- The running pair after the eight tiles of row `i` is the row's largest entry and the row's mass. -/
theorem online_eq (e : Fin 8192 → Fin 512 → EReal) (he : ∀ i k, ∃ r : ℝ, e i k = (r : EReal)) (i : Fin 8192) :
    online (fun t b => logit e i (col t b)) 8 = (rowTop e i, rowMass e i) := by
  have hx : ∀ (t : Fin 8) (b : Fin 1024), logit e i (col t b) ≠ ⊤ := fun t b => logit_ne_top e he i _
  have hT : ∀ t : Fin 8, ∃ T : ℝ, tileTop (fun b => logit e i (col t b)) = (T : EReal) := fun t =>
    fold_max_real _ (hx t) (tile_has_real e he i t)
  obtain ⟨M, hM, hon⟩ := online_inv (fun t b => logit e i (col t b)) hx hT 7 (by norm_num)
  rw [before_eight] at hM hon
  have htop : rowTop e i = (M : EReal) := (fold_col (logit e i)).symm.trans hM
  refine hon.trans (Prod.ext htop.symm ?_)
  show ((∑ t : Fin 8, ∑ b : Fin 1024, ex (logit e i (col t b)) M : ℝ) : EReal) = rowMass e i
  unfold rowMass
  rw [htop, sum_col, coe_sum]
  apply Finset.sum_congr rfl
  intro t _
  rw [coe_sum]
  exact Finset.sum_congr rfl (fun b _ => (exp_sub_coe _ (hx t b) M).symm)

end Cert.Spec

end
-- ==== Proof.KInduct.lean ====
/-
  The running vectors are the specification's running pair, and the result array is the rows' log-sum-exps.

  Write `E i k` for entry `k` of row `i` of the stacked array as the region finds it. Point `t` works on the rows
  `512·(t / 8) + r` and on column tile `t % 8`; the tile of scaled similarities the body forms there is, row by row, the
  specification's `logit E` at those rows and that tile's columns, the diagonal at −∞. By induction on the point, row
  `r` of the two scratch vectors after point `t` is the running pair `online` over the first `t % 8 + 1` tiles: the first
  column tile steps from (−∞, 0), every other from what the point before left. After the last tile the pair is the
  row's largest entry and the sum of the exponentials less it (for real entries), so the stored value is the row's
  log-sum-exp; the write-backs put row tile `t / 8`'s block at its rows of the result array.
-/
import proofs.«106151_j12463995093382_1_alg».proof.Proof.KScratch
import proofs.«106151_j12463995093382_1_alg».proof.Proof.KBlocks
import proofs.«106151_j12463995093382_1_alg».proof.Proof.KFinal
import proofs.«106151_j12463995093382_1_alg».proof.Proof.PaySum
import proofs.«106151_j12463995093382_1_alg».proof.Proof.PayLogits
import proofs.«106151_j12463995093382_1_alg».proof.Proof.LossOnline

set_option maxRecDepth 16384

noncomputable section

namespace Cert.KernelIdeal.Lse

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- Entry `k` of row `i` of the stacked array as the region finds it. -/
def E (i : Fin 8192) (k : Fin 512) : EReal := V (F := Ideal) m c main_v11 (ix2 i k)

/-- The array row that row `r` of point `t`'s row tile is. -/
def rowOf (t : Fin cfg0.N) (r : Fin 512) : Fin 8192 := ⟨512 * (t.val / 8) + r.val, rowLt0 t r⟩
/-- Point `t`'s column tile. -/
def tileOf (t : Fin cfg0.N) : Fin 8 := ⟨t.val % 8, Nat.mod_lt _ (by norm_num)⟩
/-- Row `R`'s scaled similarities, tile by tile. -/
def xrow (R : Fin 8192) : Fin 8 → Fin 1024 → EReal := fun tl b => Cert.Spec.logit (E m c) R (Cert.Spec.col tl b)

theorem col_eq (t : Fin cfg0.N) (b : Fin 1024) : (⟨1024 * (t.val % 8) + b.val, rowLt1 t b⟩ : Fin 8192) = Cert.Spec.col (tileOf t) b :=
  Fin.ext (by unfold Cert.Spec.col tileOf; dsimp only; omega)

/-- The tile the body forms at point `t`, row `r`, is the specification's row of logits at that tile. -/
theorem tile_eq (t : Fin cfg0.N) (r : Fin 512) (b : Fin 1024) :
    k0_pay6 (F := Ideal) (grid0.coords t) (iblk m c 0 t) (iblk m c 1 t) (ix2 r b) = xrow m c (rowOf t r) (tileOf t) b := by
  rw [Pay.pay6_apply]
  unfold xrow Cert.Spec.logit Cert.Spec.sim
  have h1 := (coords_t t).1
  have h2 := (coords_t t).2
  have hcond : ((grid0.coords t) 0).val * 512 + r.val = ((grid0.coords t) 1).val * 1024 + b.val ↔ rowOf t r = Cert.Spec.col (tileOf t) b := by
    rw [Fin.ext_iff]; unfold rowOf Cert.Spec.col tileOf; dsimp only; omega
  by_cases h : rowOf t r = Cert.Spec.col (tileOf t) b
  · rw [if_pos (hcond.mpr h), if_pos h]
  · rw [if_neg (fun h' => h (hcond.mp h')), if_neg h]
    refine congrArg (fun s : EReal => s * 2) ?_
    refine Finset.sum_congr rfl fun k _ => ?_
    rw [iblk0_apply, iblk1_apply, col_eq]
    rfl

/-- One step at point `t`, row `r`, from running vectors whose row `r` is the pair `s`. -/
theorem step_at (t : Fin cfg0.N) (r : Fin 512) (v w : Vec Ideal S512x1 .f32) (s : EReal × EReal) (hs : (v (ix2 r 0), w (ix2 r 0)) = s) :
    (k0_pay2 (F := Ideal) (k0_pay7 (F := Ideal) (grid0.coords t) (iblk m c 0 t) (iblk m c 1 t) v) (ix2 r 0),
     k0_pay1 (F := Ideal) (k0_pay8 (F := Ideal) (grid0.coords t) (iblk m c 0 t) (iblk m c 1 t) v v w) (ix2 r 0))
      = Cert.Spec.onlineStep s (xrow m c (rowOf t r) (tileOf t)) := by
  rw [Pay.pay2_eq, Pay.pay1_eq, Pay.step_eq, hs]
  refine congrArg (Cert.Spec.onlineStep s) ?_
  funext b
  exact tile_eq m c t r b

/-- Row `r` of the two running vectors after point `t`. -/
abbrev pairAt (t : Fin cfg0.N) (r : Fin 512) : EReal × EReal :=
  ((outsAt0 (F := Ideal) m c t.val t.isLt).2.1 (ix2 r 0), (outsAt0 (F := Ideal) m c t.val t.isLt).2.2 (ix2 r 0))

theorem inv_first (t : Fin cfg0.N) (h0 : t.val % 8 = 0) (r : Fin 512) :
    pairAt m c t r = Cert.Spec.online (xrow m c (rowOf t r)) (t.val % 8 + 1) := by
  obtain ⟨e0, e1⟩ := scr_first (F := Ideal) m c t h0
  unfold pairAt
  rw [e0, e1, step_at m c t r _ _ (⊥, 0) (by rw [Pay.pay4_apply, Pay.pay5_apply])]
  rw [h0, Cert.Spec.online_succ _ 0 (by norm_num)]
  have ht : tileOf t = (⟨0, by norm_num⟩ : Fin 8) := Fin.ext h0
  rw [ht]
  rfl

theorem inv_next (t : Fin cfg0.N) (h0 : ¬t.val % 8 = 0) (r : Fin 512)
    (ih : (prev0 (F := Ideal) m c t (ix2 r 0), prev1 (F := Ideal) m c t (ix2 r 0)) = Cert.Spec.online (xrow m c (rowOf t r)) (t.val % 8)) :
    pairAt m c t r = Cert.Spec.online (xrow m c (rowOf t r)) (t.val % 8 + 1) := by
  obtain ⟨e0, e1⟩ := scr_next (F := Ideal) m c t h0
  unfold pairAt
  rw [e0, e1, step_at m c t r _ _ _ ih]
  rw [Cert.Spec.online_succ _ (t.val % 8) (Nat.mod_lt _ (by norm_num))]
  rfl

/-- THE INVARIANT: after point `t` row `r` of the scratch vectors is the running pair over the tiles seen so far. -/
theorem inv : ∀ (n : ℕ) (hn : n < cfg0.N) (r : Fin 512),
    pairAt m c ⟨n, hn⟩ r = Cert.Spec.online (xrow m c (rowOf ⟨n, hn⟩ r)) (n % 8 + 1) := by
  intro n
  induction n with
  | zero => intro hn r; exact inv_first m c ⟨0, hn⟩ rfl r
  | succ n ih =>
    intro hn r
    by_cases h0 : (n + 1) % 8 = 0
    · exact inv_first m c ⟨n + 1, hn⟩ h0 r
    · refine inv_next m c ⟨n + 1, hn⟩ h0 r ?_
      have hrow : rowOf ⟨n, Nat.lt_of_succ_lt hn⟩ r = rowOf ⟨n + 1, hn⟩ r := Fin.ext (by unfold rowOf; dsimp only; omega)
      have hk : n % 8 + 1 = (n + 1) % 8 := by omega
      have := ih (Nat.lt_of_succ_lt hn) r
      rw [hrow, hk] at this
      exact this

/-- At a last-column-tile point the stored row is the row's log-sum-exp, the stacked rows being real. -/
theorem out_eq (hE : ∀ i k, ∃ x : ℝ, E m c i k = (x : EReal)) (t : Fin cfg0.N) (h1 : t.val % 8 = 7) (r : Fin 512) :
    (outsAt0 (F := Ideal) m c t.val t.isLt).1 (ix2 r 0) = Cert.Spec.lse (E m c) (rowOf t r) := by
  rw [out_last (F := Ideal) m c t h1, Pay.pay3_apply]
  have h := inv m c t.val t.isLt r
  rw [h1] at h
  have h8 : Cert.Spec.online (xrow m c (rowOf t r)) (7 + 1) = (Cert.Spec.rowTop (E m c) (rowOf t r), Cert.Spec.rowMass (E m c) (rowOf t r)) :=
    Cert.Spec.online_eq (E m c) hE (rowOf t r)
  rw [h8] at h
  have ha := (Prod.ext_iff.mp h).1
  have hb := (Prod.ext_iff.mp h).2
  dsimp only at ha hb
  rw [ha, hb]
  rfl

/-- THE RESULT ARRAY: row `row` of what the region leaves in its output array is that row's log-sum-exp. -/
theorem lse_arr (hE : ∀ i k, ∃ x : ℝ, E m c i k = (x : EReal)) (row : Fin 8192) :
    (dats (F := Ideal) m 0 c).arrAt 2 cfg0.N (ix2 row (0 : Fin 1)) = Cert.Spec.lse (E m c) row := by
  rw [final2 (F := Ideal) m c row]
  have h := out_eq m c hE ⟨8 * (row.val / 512) + 7, lastPt_lt _ row.isLt⟩ (by dsimp only; omega) (⟨row.val % 512, Nat.mod_lt _ (by norm_num)⟩ : Fin 512)
  have hr : rowOf ⟨8 * (row.val / 512) + 7, lastPt_lt _ row.isLt⟩ (⟨row.val % 512, Nat.mod_lt _ (by norm_num)⟩ : Fin 512) = row :=
    Fin.ext (by unfold rowOf; dsimp only; omega)
  rw [hr] at h
  exact h

end Cert.KernelIdeal.Lse

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.RefNorm.lean ====
/-
  The reference's two normalised blocks.

  Each block of 4096 rows of 512 entries is divided, entry by entry, by the larger of its row's Euclidean norm and a
  floor: the row's norm is the square root of the sum, from zero, of the squares of the row's 512 entries, and the
  quotient is the ideal division of the entry by that larger value. Read index by index this is the specification's
  `normRows` at the floor's word.
-/
import proofs.«106151_j12463995093382_1_alg».proof.Proof.RefRead
import proofs.«106151_j12463995093382_1_alg».proof.Proof.Spec

noncomputable section

open scoped BigOperators

namespace Cert.RefLoss

open Cert.ReferenceIdeal Cert.ReferenceIdeal.Gen Cert.ReferenceIdeal.Read Idealize.ShloMosaic Idealize.ShloMosaic.ValueIdx

/-- The floor under a row's norm: the value of the word `0x2B8CBCCC`. -/
abbrev eps : EReal := Ideal.ofBits .f32 0x2B8CBCCC#32

/-- The first block divided by its rows' floored norms is `normRows` of the first argument. -/
theorem norm0_eq (z : Cert.Spec.Rows) :
    val_main_v4 (F := Ideal) z = Cert.Spec.normRows eps z := by
  funext i
  obtain ⟨r, k, rfl⟩ : ∃ (r : Fin 4096) (k : Fin 512), i = ix2 r k := ⟨i 0, i 1, eq_ix2 i⟩
  have e1 : ∀ k' : Fin 512, idx_main_call0_v1 (idx_main_call0_v2 (idx_main_v3 (ix2 r k))) k' = ix2 r k' := fun k' =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e1, Ideal.hostDivf_def, Ideal.hostUnary_sqrt_def, Ideal.maximumf_def,
    Ideal.mulf_def, Ideal.ofBits_def, Ideal.ofBits_zero_f32, zero_add]
  rfl

/-- The second block divided by its rows' floored norms is `normRows` of the second argument. -/
theorem norm1_eq (z : Cert.Spec.Rows) :
    val_main_v9 (F := Ideal) z = Cert.Spec.normRows eps z := by
  funext i
  obtain ⟨r, k, rfl⟩ : ∃ (r : Fin 4096) (k : Fin 512), i = ix2 r k := ⟨i 0, i 1, eq_ix2 i⟩
  have e1 : ∀ k' : Fin 512, idx_main_call1_v1 (idx_main_call1_v2 (idx_main_v8 (ix2 r k))) k' = ix2 r k' := fun k' =>
    funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e1, Ideal.hostDivf_def, Ideal.hostUnary_sqrt_def, Ideal.maximumf_def,
    Ideal.mulf_def, Ideal.ofBits_def, Ideal.ofBits_zero_f32, zero_add]
  rfl

end Cert.RefLoss

end
-- ==== Proof.RefStack.lean ====
/-
  The stacked rows.

  Joining two blocks of 4096 rows of 512 entries along the rows gives 8192 rows: row `i` below 4096 is the first
  block's row `i`, and row `i` from 4096 on is the second block's row `i − 4096`. The reference stacks its two
  normalised blocks this way, so the stack read at row `i`, column `k` is the specification's `emb` of the two blocks.
-/
import proofs.«106151_j12463995093382_1_alg».proof.Proof.RefRead
import proofs.«106151_j12463995093382_1_alg».proof.Proof.Spec
import Idealize.ShloMosaic.Lib.Pipeline.Value

noncomputable section

namespace Cert.RefLoss

open Cert.ReferenceIdeal Cert.ReferenceIdeal.Gen Cert.ReferenceIdeal.Read Idealize.ShloMosaic Idealize.ShloMosaic.ValueIdx

/-- Two blocks of 4096 rows joined along the rows, read at row `i` and column `k`: the first block's row `i` when
    `i` is below 4096, the second block's row `i − 4096` otherwise. For any element type and any proof of the shapes'
    side condition. -/
theorem concat_rows_apply {α : Type} (x₁ x₂ : (⟨2, ![4096, 512]⟩ : Shape).Idx → α)
    (h : Shape.Concatenates [(⟨2, ![4096, 512]⟩ : Shape), (⟨2, ![4096, 512]⟩ : Shape)] (⟨2, ![8192, 512]⟩ : Shape) 0)
    (i : Fin 8192) (k : Fin 512) :
    concatenate (⟨2, ![8192, 512]⟩ : Shape) 0 [⟨(⟨2, ![4096, 512]⟩ : Shape), x₁⟩, ⟨(⟨2, ![4096, 512]⟩ : Shape), x₂⟩] h (ix2 i k)
      = if hi : i.val < 4096 then x₁ (ix2 (⟨i.val, hi⟩ : Fin 4096) k)
        else x₂ (ix2 (⟨i.val - 4096, by omega⟩ : Fin 4096) k) := by
  by_cases hi : i.val < 4096
  · rw [dif_pos hi]
    exact concatenate_pair_apply_left (0 : Fin 2) x₁ x₂ h (ix2 i k) rfl (ix2 (⟨i.val, hi⟩ : Fin 4096) k)
      (fun b => by match b with | ⟨0, _⟩ => rfl | ⟨1, _⟩ => rfl)
  · rw [dif_neg hi]
    exact concatenate_pair_apply_right (0 : Fin 2) x₁ x₂ h (ix2 i k) rfl rfl
      (ix2 (⟨i.val - 4096, by omega⟩ : Fin 4096) k)
      (fun b hb => by match b with | ⟨0, _⟩ => exact absurd rfl hb | ⟨1, _⟩ => rfl)
      (by show i.val - 4096 + 4096 = i.val; omega)

/-- The reference's stack of its two normalised blocks, at row `i` and column `k`, is `emb` of the two blocks. -/
theorem stack_eq (z1 z2 : Cert.Spec.Rows) (i : Fin 8192) (k : Fin 512) :
    val_main_v10 (F := Ideal) z1 z2 (ix2 i k)
      = Cert.Spec.emb (val_main_v4 (F := Ideal) z1) (val_main_v9 (F := Ideal) z2) i k := by
  unfold val_main_v10 Cert.Spec.emb
  exact concat_rows_apply _ _ _ i k

end Cert.RefLoss

end
-- ==== Proof.KEntry.lean ====
/-
  What the region finds in the three arrays its windows and the later operations read, on the extended reals.

  Before the region @main divides each of its two arguments, entry by entry, by the larger of the row's Euclidean norm and
  a floor, stacks the two quotients along the rows, and converts the stack to sixteen-bit floats — on the extended reals a
  change of format is the identity. So the first quotient is the specification's normalised rows of the first argument,
  the second likewise of the second argument, and the converted stack read at row i and column k is the stacked rows of
  the two quotients.
-/
import proofs.«106151_j12463995093382_1_alg».proof.Proof.FrameRuns
import proofs.«106151_j12463995093382_1_alg».proof.Proof.LibTypedRefs
import proofs.«106151_j12463995093382_1_alg».proof.Proof.RefNorm
import proofs.«106151_j12463995093382_1_alg».proof.Proof.RefStack
import Idealize.ShloMosaic.Lib.StableHlo.Run
import Idealize.ShloMosaic.Lib.ValueIdx

set_option maxRecDepth 16384

noncomputable section

namespace Cert.KernelIdeal.Lse

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (c : Dev nD)

/-- The first quotient as the region finds it is the composed term of the operations that wrote it: the first argument
    divided by the broadcast of the larger of its rows' norms and the floor. -/
theorem entry_v4_stage :
    (V (F := Ideal) m c main_v4 : S4096x512.Idx → EReal)
      = Cert.ReferenceIdeal.Read.val_main_v4 (F := Ideal) (m ((c : Thread nD τ).loc main_arg0)) := by
  dsimp only [V, V0, pre]
  simp only [hostOps0, hostOps0_1, hostOps0_2, hostOps0_3, List.flatten_cons, List.flatten_nil, List.append_nil,
    List.cons_append, List.nil_append]
  after_results
  simp only [TRef.ofBuf_toBuf]
  rfl

/-- The second quotient likewise, of the second argument. -/
theorem entry_v9_stage :
    (V (F := Ideal) m c main_v9 : S4096x512.Idx → EReal)
      = Cert.ReferenceIdeal.Read.val_main_v9 (F := Ideal) (m ((c : Thread nD τ).loc main_arg1)) := by
  dsimp only [V, V0, pre]
  simp only [hostOps0, hostOps0_1, hostOps0_2, hostOps0_3, List.flatten_cons, List.flatten_nil, List.append_nil,
    List.cons_append, List.nil_append]
  after_results
  simp only [TRef.ofBuf_toBuf]
  rfl

/-- THE FIRST BLOCK the region finds: the first argument's rows, each divided by the larger of its norm and the floor. -/
theorem entry_v4 :
    (V (F := Ideal) m c main_v4 : S4096x512.Idx → EReal)
      = Cert.Spec.normRows Cert.RefLoss.eps (m ((c : Thread nD τ).loc main_arg0)) :=
  (entry_v4_stage m c).trans (Cert.RefLoss.norm0_eq _)

/-- THE SECOND BLOCK the region finds: the second argument's rows, normalised the same way. -/
theorem entry_v9 :
    (V (F := Ideal) m c main_v9 : S4096x512.Idx → EReal)
      = Cert.Spec.normRows Cert.RefLoss.eps (m ((c : Thread nD τ).loc main_arg1)) :=
  (entry_v9_stage m c).trans (Cert.RefLoss.norm1_eq _)

/-- The array both input windows read is the composed term of the operations that wrote it: the two quotients joined
    along the rows, then converted. -/
theorem entry_v11_stage :
    (V (F := Ideal) m c main_v11 : S8192x512.Idx → EReal)
      = (truncf .bf16 (Cert.ReferenceIdeal.Read.val_main_v10 (F := Ideal) (m ((c : Thread nD τ).loc main_arg0))
          (m ((c : Thread nD τ).loc main_arg1)) : FVec Ideal S8192x512 .f32) bitsLt_bf16_f32
          : FVec Ideal S8192x512 .bf16) := by
  dsimp only [V, V0, pre]
  simp only [hostOps0, hostOps0_1, hostOps0_2, hostOps0_3, List.flatten_cons, List.flatten_nil, List.append_nil,
    List.cons_append, List.nil_append]
  after_results
  simp only [TRef.ofBuf_toBuf]
  rfl

/-- THE STACKED ROWS the region finds: row i below 4096 is the first block's row i, row i from 4096 on is the second
    block's row i − 4096. -/
theorem entry_v11 (i : Fin 8192) (k : Fin 512) :
    V (F := Ideal) m c main_v11 (ValueIdx.ix2 i k)
      = Cert.Spec.emb (V (F := Ideal) m c main_v4) (V (F := Ideal) m c main_v9) i k := by
  refine (congrFun (entry_v11_stage m c) (ValueIdx.ix2 i k)).trans ?_
  refine (ValueIdx.truncf_apply (φ := .f32) (ψ := .bf16) _ bitsLt_bf16_f32 _).trans ?_
  refine (Cert.RefLoss.stack_eq _ _ i k).trans ?_
  exact congrArg₂ (fun a b => Cert.Spec.emb a b i k) (entry_v4_stage m c).symm (entry_v9_stage m c).symm

end Cert.KernelIdeal.Lse

end
-- ==== Proof.KTail.lean ====
/-
  The host operations after the kernel region, read at the scalar result's one index.

  The region's column of 8192 values is flattened; the two normalised blocks are multiplied entry by entry and each
  row summed, which gives the 4096 paired inner products; that vector joined with itself has, at position `i`, the
  paired inner product of row `i` modulo 4096; it is divided by one half, subtracted from the flattened column, the
  8192 differences are summed and the sum is divided by 8192.
-/
import proofs.«106151_j12463995093382_1_alg».proof.Proof.Gen.KernelIdeal.Launch
import proofs.«106151_j12463995093382_1_alg».proof.Proof.LossReal
import Idealize.ShloMosaic.Lib.Pipeline.Value
import Idealize.ShloMosaic.Lib.ValueIdx
import Idealize.ShloMosaic.PureOps.Ideal.Laws

noncomputable section

open scoped BigOperators

namespace Cert.KernelIdeal.Tail

open Cert.KernelIdeal Idealize.ShloMosaic Idealize.ShloMosaic.ValueIdx
open Cert.KernelIdeal.Facts₀ Cert.KernelIdeal.Facts

variable [Cert.KernelIdeal.Facts]

/-- The thirteen host operations after the region, composed: the value of the program's result as a function of the
    region's column `x` and the two normalised blocks `a`, `b`. -/
def tailTerm (x : FVec Ideal S8192x1 .f32) (a b : FVec Ideal S4096x512 .f32) : FVec Ideal S_ .f32 :=
  Host.divf
    (Host.reduceAdd
      (subf (shapeCast S8192 x shapeCasts_S8192x1_S8192)
        (Host.divf
          (concatenate S8192 0
            [⟨S4096, Host.reduceAdd (mulf a b) (constant (F := Ideal) S_ .f32 0x00000000#32)
                reducesTo_S4096x512_S4096_d1 h_S_⟩,
             ⟨S4096, Host.reduceAdd (mulf a b) (constant (F := Ideal) S_ .f32 0x00000000#32)
                reducesTo_S4096x512_S4096_d1 h_S_⟩]
            concatenates_S4096_S4096_S8192_d0)
          (broadcastInDim S8192 ![] bcast_S_S8192 (constant (F := Ideal) S_ .f32 0x3F000000#32))))
      (constant (F := Ideal) S_ .f32 0x00000000#32) reducesTo_S8192_S_d0 h_S_)
    (constant (F := Ideal) S_ .f32 0x46000000#32)

/-! ## The pieces, each read at an index -/

/-- The sum of a row of the entrywise product is the paired inner product. -/
theorem rowDots_apply (a b : FVec Ideal S4096x512 .f32) (r : Fin 4096) :
    Host.reduceAdd (mulf a b) (constant (F := Ideal) S_ .f32 0x00000000#32) reducesTo_S4096x512_S4096_d1 h_S_ (ix1 r)
      = Cert.Spec.pairDot a b r := by
  simp only [Host.reduceAdd, Ideal.hostReduceAdd_def]
  rw [Ideal.hostReduceAdd_single reducesTo_S4096x512_S4096_d1 (by decide)]
  rw [constant_apply, Ideal.ofBits_zero_f32, zero_add]
  unfold Cert.Spec.pairDot
  refine Finset.sum_congr rfl fun k _ => ?_
  rw [mulf_apply]
  have e : ∀ (h : Shape.Reduces S4096x512 [1] S4096),
      h.lift (ix1 r) k = (ix2 r k : S4096x512.Idx) := fun h =>
    funext fun c => Fin.ext (by match c with | ⟨0, _⟩ => rfl | ⟨1, _⟩ => rfl)
  rw [e]

/-- A vector of 4096 joined with itself has at position `i` its entry at `i` modulo 4096. -/
theorem concat_self_apply (v : FVec Ideal S4096 .f32) (i : Fin 8192) :
    concatenate S8192 0 [⟨S4096, v⟩, ⟨S4096, v⟩] concatenates_S4096_S4096_S8192_d0 (ix1 i)
      = v (ix1 (Cert.Spec.half i)) := by
  have hi := i.isLt
  by_cases h : i.val < 4096
  · refine concatenate_pair_apply_left (0 : Fin S8192.rank) v v concatenates_S4096_S4096_S8192_d0 (ix1 i) rfl
      (ix1 (Cert.Spec.half i)) (fun c => ?_)
    match c with
    | ⟨0, _⟩ =>
      show i.val % 4096 = i.val
      omega
  · refine concatenate_pair_apply_right (0 : Fin S8192.rank) v v concatenates_S4096_S4096_S8192_d0 (ix1 i) rfl rfl
      (ix1 (Cert.Spec.half i)) (fun c hc => ?_) ?_
    · match c with
      | ⟨0, _⟩ => exact absurd rfl hc
    · show i.val % 4096 + 4096 = i.val
      omega

/-- The flattened column at `i` is the column's row `i`. -/
theorem flat_apply (x : FVec Ideal S8192x1 .f32) (i : Fin 8192) :
    shapeCast S8192 x shapeCasts_S8192x1_S8192 (ix1 i) = x (ix2 i 0) := by
  refine shapeCast_apply x shapeCasts_S8192x1_S8192 (ix1 i) (ix2 i 0) ?_
  rw [Shape.rowMajor_val_two, Shape.rowMajor_val_one]
  show i.val * 1 + 0 = i.val
  omega

/-- A sum over the indices of a vector of 8192 is the sum over its positions. -/
theorem sum_idx1 (f : S8192.Idx → EReal) : ∑ j : S8192.Idx, f j = ∑ i : Fin 8192, f (ix1 i) := by
  let e : S8192.Idx ≃ Fin 8192 :=
    { toFun := fun j => j 0, invFun := fun i => ix1 i, left_inv := fun j => (eq_ix1 j).symm, right_inv := fun _ => rfl }
  rw [← Equiv.sum_comp e.symm f]
  rfl

/-! ## The result -/

theorem tailTerm_apply (x : FVec Ideal S8192x1 .f32) (a b : FVec Ideal S4096x512 .f32) (L : Fin 8192 → EReal)
    (hx : ∀ i : Fin 8192, x (ix2 i 0) = L i) :
    tailTerm x a b ix0
      = Ideal.div (∑ i : Fin 8192, (L i - Ideal.div (Cert.Spec.pairDot a b (Cert.Spec.half i)) ((1 / 2 : ℝ) : EReal)))
          ((8192 : ℝ) : EReal) := by
  unfold tailTerm
  generalize hv : Host.reduceAdd (mulf a b) (constant (F := Ideal) S_ .f32 0x00000000#32)
    reducesTo_S4096x512_S4096_d1 h_S_ = v15
  have hv15 : ∀ r : Fin 4096, v15 (ix1 r) = Cert.Spec.pairDot a b r := fun r => by rw [← hv]; exact rowDots_apply a b r
  show Ideal.div (Host.reduceAdd _ (constant (F := Ideal) S_ .f32 0x00000000#32) reducesTo_S8192_S_d0 h_S_ ix0)
    (Ideal.ofBits .f32 0x46000000#32) = _
  rw [Cert.Spec.ofBits_8192]
  congr 1
  simp only [Host.reduceAdd, Ideal.hostReduceAdd_def]
  rw [Ideal.hostReduceAdd_total reducesTo_S8192_S_d0 (fun c => c.elim0), constant_apply, Ideal.ofBits_zero_f32, zero_add,
    sum_idx1]
  refine Finset.sum_congr rfl fun i _ => ?_
  rw [subf_apply, flat_apply, hx]
  congr 1
  show Ideal.div (concatenate S8192 0 [⟨S4096, v15⟩, ⟨S4096, v15⟩] concatenates_S4096_S4096_S8192_d0 (ix1 i))
    (Ideal.ofBits .f32 0x3F000000#32) = _
  rw [concat_self_apply, hv15, Cert.Spec.ofBits_half]

/-- With the column the rows' log-sum-exp, the host operations give the loss. -/
theorem tailTerm_loss (x : FVec Ideal S8192x1 .f32) (a b : FVec Ideal S4096x512 .f32)
    (hx : ∀ i : Fin 8192, x (ix2 i 0) = Cert.Spec.lse (Cert.Spec.emb a b) i) :
    tailTerm x a b ix0 = Cert.Spec.loss a b :=
  tailTerm_apply x a b _ hx

end Cert.KernelIdeal.Tail

end
-- ==== Proof.NormReal.lean ====
/-
  A block of real rows divided by its rows' norms, the norm floored at a positive real, is a block of real rows:
  the sum of squares of a row is a non-negative real, its square root is real, the larger of that and the positive
  floor is a positive real, and a real divided by a positive real is real.
-/
import proofs.«106151_j12463995093382_1_alg».proof.Proof.LossReal

noncomputable section

open scoped BigOperators

namespace Cert.Spec

open Idealize.ShloMosaic Idealize.ShloMosaic.ValueIdx

theorem normRows_real (eps : EReal) (heps : ∃ r : ℝ, 0 < r ∧ eps = (r : EReal)) (x : Rows)
    (hx : ∀ idx, ∃ r : ℝ, x idx = (r : EReal)) : ∀ idx, ∃ r : ℝ, normRows eps x idx = (r : EReal) := by
  obtain ⟨ε, hε, rfl⟩ := heps
  choose xr hxr using hx
  intro idx
  have hs : (∑ k : Fin 512, x (ix2 (idx 0) k) * x (ix2 (idx 0) k))
      = ((∑ k : Fin 512, xr (ix2 (idx 0) k) * xr (ix2 (idx 0) k) : ℝ) : EReal) :=
    sum_eq_coe _ _ _ (fun k _ => by rw [hxr, EReal.coe_mul])
  have hnn : ¬ (∑ k : Fin 512, xr (ix2 (idx 0) k) * xr (ix2 (idx 0) k)) < 0 :=
    not_lt.2 (Finset.sum_nonneg fun k _ => mul_self_nonneg _)
  have hd : 0 < max (Real.sqrt (∑ k : Fin 512, xr (ix2 (idx 0) k) * xr (ix2 (idx 0) k))) ε :=
    lt_max_of_lt_right hε
  refine ⟨xr idx * (1 / max (Real.sqrt (∑ k : Fin 512, xr (ix2 (idx 0) k) * xr (ix2 (idx 0) k))) ε), ?_⟩
  unfold normRows
  rw [hs, Ideal.sqrt_coe, if_neg hnn, ← coe_max, Ideal.div_coe hd.ne', hxr idx, ← EReal.coe_mul]

end Cert.Spec

end
-- ==== Proof.LossForms.lean ====
/-
  The two forms of the loss agree on real rows.

  Dividing by one half is doubling, also at −∞, so the two forms have the same scaled similarities, the same largest
  entry per row and the same sum of exponentials. On real rows the largest entry `M` of a row is real, the sum of
  exponentials `A` is a positive real, and the partner's scaled similarity `L` is real and equals the paired inner
  product divided by one half. The two-pass form's term is `L − M − log A`, the other form's is `M + log A − L`, its
  negative; so the negated mean of the one is the mean of the other.
-/
import proofs.«106151_j12463995093382_1_alg».proof.Proof.LossReal

noncomputable section

open scoped BigOperators

namespace Cert.Spec

open Idealize.ShloMosaic Idealize.ShloMosaic.ValueIdx

/-! ## The two forms have the same entries -/

/-- Division by one half is multiplication by two, at every extended real. -/
theorem div_half (x : EReal) : Ideal.div x ((1 / 2 : ℝ) : EReal) = x * 2 := by
  have h : ((1 / (1 / 2) : ℝ)) = 2 := by norm_num
  rw [Ideal.div_coe (by norm_num : (1 / 2 : ℝ) ≠ 0), h, two_eq_coe]

theorem refLogit_eq (e : Fin 8192 → Fin 512 → EReal) (i j : Fin 8192) : refLogit e i j = logit e i j := by
  unfold refLogit logit
  rw [div_half]
  split_ifs with h
  · exact EReal.bot_mul_coe_of_pos (by norm_num : (0 : ℝ) < 2)
  · rfl

theorem refTop_eq (e : Fin 8192 → Fin 512 → EReal) (i : Fin 8192) : refTop e i = rowTop e i := by
  unfold refTop rowTop
  rw [show refLogit e i = logit e i from funext (refLogit_eq e i)]

theorem refLogp_eq (e : Fin 8192 → Fin 512 → EReal) (i j : Fin 8192) :
    refLogp e i j = (logit e i j - rowTop e i) - Ideal.log (rowMass e i) := by
  unfold refLogp rowMass
  rw [refTop_eq]
  simp only [refLogit_eq]

/-! ## The partner's entry is the paired inner product divided by one half -/

theorem emb_lt (a b : Rows) (i : Fin 8192) (k : Fin 512) (r : Fin 4096) (h : i.val = r.val) :
    emb a b i k = a (ix2 r k) := by
  have hl : i.val < 4096 := by have := r.isLt; omega
  have hr : (⟨i.val, hl⟩ : Fin 4096) = r := Fin.ext h
  unfold emb
  rw [dif_pos hl, hr]

theorem emb_ge (a b : Rows) (i : Fin 8192) (k : Fin 512) (r : Fin 4096) (h : i.val = r.val + 4096) :
    emb a b i k = b (ix2 r k) := by
  have hl : ¬ i.val < 4096 := by omega
  have hr : (⟨i.val - 4096, by have := i.isLt; omega⟩ : Fin 4096) = r := Fin.ext (by show i.val - 4096 = r.val; omega)
  unfold emb
  rw [dif_neg hl, hr]

theorem partner_val_lt (i : Fin 8192) (h : i.val < 4096) : (partner i).val = i.val + 4096 := by
  unfold partner; rw [dif_pos h]

theorem partner_val_ge (i : Fin 8192) (h : ¬ i.val < 4096) : (partner i).val = i.val - 4096 := by
  unfold partner; rw [dif_neg h]

theorem half_val (i : Fin 8192) : (half i).val = i.val % 4096 := rfl

theorem partner_ne (i : Fin 8192) : i ≠ partner i := by
  intro h
  have hv : i.val = (partner i).val := congrArg Fin.val h
  have hi := i.isLt
  by_cases hl : i.val < 4096
  · rw [partner_val_lt i hl] at hv; omega
  · rw [partner_val_ge i hl] at hv; omega

/-- The inner product of a row with its partner is the paired inner product. -/
theorem sim_partner (a b : Rows) (i : Fin 8192) : sim (emb a b) i (partner i) = pairDot a b (half i) := by
  unfold sim pairDot
  apply Finset.sum_congr rfl
  intro k _
  have hi := i.isLt
  by_cases h : i.val < 4096
  · have h1 : i.val = (half i).val := by rw [half_val]; omega
    have h2 : (partner i).val = (half i).val + 4096 := by rw [partner_val_lt i h, half_val]; omega
    rw [emb_lt a b i k (half i) h1, emb_ge a b (partner i) k (half i) h2]
  · have h1 : i.val = (half i).val + 4096 := by rw [half_val]; omega
    have h2 : (partner i).val = (half i).val := by rw [partner_val_ge i h, half_val]; omega
    rw [emb_ge a b i k (half i) h1, emb_lt a b (partner i) k (half i) h2, mul_comm]

theorem logit_partner (a b : Rows) (i : Fin 8192) :
    logit (emb a b) i (partner i) = Ideal.div (pairDot a b (half i)) ((1 / 2 : ℝ) : EReal) := by
  rw [logit, if_neg (partner_ne i), sim_partner, div_half]

/-! ## Real rows -/

theorem emb_real (a b : Rows) (ha : ∀ idx, ∃ r : ℝ, a idx = (r : EReal)) (hb : ∀ idx, ∃ r : ℝ, b idx = (r : EReal)) :
    ∀ i k, ∃ r : ℝ, emb a b i k = (r : EReal) := by
  intro i k
  unfold emb
  split_ifs
  · exact ha _
  · exact hb _

/-- The sum of exponentials of a row less its largest entry is a positive real. -/
theorem rowMass_real (e : Fin 8192 → Fin 512 → EReal) (he : ∀ i k, ∃ r : ℝ, e i k = (r : EReal)) (i : Fin 8192)
    (M : ℝ) (hM : rowTop e i = (M : EReal)) : ∃ A : ℝ, 0 < A ∧ rowMass e i = (A : EReal) := by
  refine ⟨∑ j, ex (logit e i j) M, ?_, ?_⟩
  · obtain ⟨j, hj⟩ := exists_ne i
    obtain ⟨r, hr⟩ := logit_real_of_ne e he hj
    exact Finset.sum_pos' (fun j _ => ex_nonneg _ _)
      ⟨j, Finset.mem_univ _, ex_pos (by rw [hr]; exact EReal.coe_ne_bot r) M⟩
  · unfold rowMass
    rw [hM]
    exact sum_eq_coe _ _ _ (fun j _ => exp_sub_coe _ (logit_ne_top e he i j) M)

/-- Row `i`'s term in the two-pass form is a real number, and its term in the other form is the negative of it. -/
theorem row_terms (a b : Rows) (ha : ∀ idx, ∃ r : ℝ, a idx = (r : EReal)) (hb : ∀ idx, ∃ r : ℝ, b idx = (r : EReal))
    (i : Fin 8192) :
    ∃ r : ℝ, refLogp (emb a b) i (partner i) = (r : EReal) ∧
      lse (emb a b) i - Ideal.div (pairDot a b (half i)) ((1 / 2 : ℝ) : EReal) = ((-r : ℝ) : EReal) := by
  have he := emb_real a b ha hb
  obtain ⟨M, hM⟩ := rowTop_real _ he i
  obtain ⟨A, hA, hAe⟩ := rowMass_real _ he i M hM
  obtain ⟨L, hL⟩ := logit_real_of_ne _ he (partner_ne i)
  have hlog : Ideal.log (A : EReal) = ((Real.log A : ℝ) : EReal) := by
    rw [Ideal.log_coe, if_neg (not_le.2 hA)]
  refine ⟨L - M - Real.log A, ?_, ?_⟩
  · rw [refLogp_eq, hL, hM, hAe, hlog, ← EReal.coe_sub, ← EReal.coe_sub]
  · rw [← logit_partner, hL, lse, hM, hAe, hlog, ← EReal.coe_add, ← EReal.coe_sub]
    congr 1
    ring

/-! ## The two forms of the loss -/

theorem refLoss_eq_loss (a b : Rows) (ha : ∀ idx, ∃ r : ℝ, a idx = (r : EReal))
    (hb : ∀ idx, ∃ r : ℝ, b idx = (r : EReal)) : refLoss a b = loss a b := by
  choose ρ h1 h2 using row_terms a b ha hb
  have e1 : ∑ i : Fin 8192, refLogp (emb a b) i (partner i) = ((∑ i : Fin 8192, ρ i : ℝ) : EReal) :=
    sum_eq_coe _ _ _ (fun i _ => h1 i)
  have e2 : ∑ i : Fin 8192, (lse (emb a b) i - Ideal.div (pairDot a b (half i)) ((1 / 2 : ℝ) : EReal))
      = ((∑ i : Fin 8192, -ρ i : ℝ) : EReal) :=
    sum_eq_coe _ _ _ (fun i _ => h2 i)
  unfold refLoss loss
  rw [e1, e2, Ideal.div_coe (by norm_num : (8192 : ℝ) ≠ 0), Ideal.div_coe (by norm_num : (8192 : ℝ) ≠ 0),
    ← EReal.coe_mul, ← EReal.coe_mul, ← EReal.coe_neg, Finset.sum_neg_distrib]
  congr 1
  ring

end Cert.Spec

end
-- ==== Proof.PreReal.lean ====
/-
  From the precondition to real inputs. The precondition says, of each of the two input blocks, that every entry's
  absolute value is below +∞, and joins the two statements with "and". An extended real whose absolute value,
  the larger of itself and its negative, is below +∞ is neither +∞ nor −∞: it is a real number.
-/
import proofs.«106151_j12463995093382_1_alg».proof.Pre_finite_inputs
import proofs.«106151_j12463995093382_1_alg».proof.Proof.Gen.Pre_finite_inputs
import Idealize.ShloMosaic.Lib.ReduceAll
import Idealize.ShloMosaic.Lib.ValueIdx
import Idealize.ShloMosaic.PureOps.Ideal

noncomputable section

namespace Cert.PreReal

open Idealize.ShloMosaic Idealize.ShloMosaic.ValueIdx Cert.Pre_finite_inputs

/-- The scalar shape has one index. -/
instance : Subsingleton S_.Idx := ⟨fun a b => funext fun d => d.elim0⟩

/-- An extended real whose absolute value is below the value of the +∞ word is real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition every entry of both input blocks is a real number. -/
theorem reals_of_pre [Cert.Pre_finite_inputs.Facts] (x y : FVec Ideal S4096x512 .f32)
    (h : Cert.Pre_finite_inputs.fn (F := Ideal) x y = fun _ => 1#1) :
    (∀ idx, ∃ r : ℝ, x idx = (r : EReal)) ∧ (∀ idx, ∃ r : ℝ, y idx = (r : EReal)) := by
  have h0 := congrFun h ix0
  dsimp only [fn] at h0
  obtain ⟨hx, hy⟩ := IntOp.andi_eq_one.1 h0
  refine ⟨fun idx => ?_, fun idx => ?_⟩
  · exact real_of_abs_lt _ (Host.reduce_andi_all _ _ _ _ ix0 hx idx)
  · exact real_of_abs_lt _ (Host.reduce_andi_all _ _ _ _ ix0 hy idx)

end Cert.PreReal

end
-- ==== Proof.KResult.lean ====
/-
  The kernel program's result.

  The thirteen operations after the region compute, from the region's result array and the two normalised blocks, the
  mean over the rows of the row's value less the partner's scaled similarity. The result array's rows are the rows'
  log-sum-exps of the stacked normalised rows — real, because the inputs are — so the result is the loss.
-/
import proofs.«106151_j12463995093382_1_alg».proof.Proof.RunMain
import proofs.«106151_j12463995093382_1_alg».proof.Proof.KInduct
import proofs.«106151_j12463995093382_1_alg».proof.Proof.KEntry
import proofs.«106151_j12463995093382_1_alg».proof.Proof.KTail
import proofs.«106151_j12463995093382_1_alg».proof.Proof.NormReal
import proofs.«106151_j12463995093382_1_alg».proof.Proof.LossForms
import proofs.«106151_j12463995093382_1_alg».proof.Proof.PreReal

set_option maxRecDepth 16384

noncomputable section

namespace Cert.KernelIdeal.Lse

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The result buffer after the later operations: their composition on what the region left. -/
theorem tail_term : StableHlo.after (List.flatten [hostOps1 (F := Ideal)]) (VN (F := Ideal) m c) (Proc.devRef .tc main_v21)
    = Cert.KernelIdeal.Tail.tailTerm (VN (F := Ideal) m c (Proc.devRef .tc main_v12)) (VN (F := Ideal) m c (Proc.devRef .tc main_v4)) (VN (F := Ideal) m c (Proc.devRef .tc main_v9)) := by
  simp only [hostOps1, List.flatten_cons, List.flatten_nil, List.append_nil]
  after_results
  all_goals rfl

/-- The stacked rows as the region finds them are the stacking of the two normalised blocks. -/
theorem E_eq : E m c = Cert.Spec.emb (V (F := Ideal) m c main_v4) (V (F := Ideal) m c main_v9) := by
  funext i k; exact entry_v11 m c i k

/-- With real inputs the result is the loss of the two normalised blocks. -/
theorem kernel_result (h0 : ∀ idx, ∃ x : ℝ, m ((c : Thread nD τ).loc main_arg0) idx = (x : EReal))
    (h1 : ∀ idx, ∃ x : ℝ, m ((c : Thread nD τ).loc main_arg1) idx = (x : EReal)) :
    StableHlo.after (List.flatten [hostOps1 (F := Ideal)]) (VN (F := Ideal) m c) (Proc.devRef .tc main_v21)
      = fun _ => Cert.Spec.loss (Cert.Spec.normRows Cert.RefLoss.eps (m ((c : Thread nD τ).loc main_arg0)))
          (Cert.Spec.normRows Cert.RefLoss.eps (m ((c : Thread nD τ).loc main_arg1))) := by
  have ha := Cert.Spec.normRows_real Cert.RefLoss.eps Cert.Spec.eps_pos _ h0
  have hb := Cert.Spec.normRows_real Cert.RefLoss.eps Cert.Spec.eps_pos _ h1
  rw [← entry_v4 m c] at ha
  rw [← entry_v9 m c] at hb
  have hE : ∀ i k, ∃ x : ℝ, E m c i k = (x : EReal) := by
    rw [E_eq m c]; exact Cert.Spec.emb_real _ _ ha hb
  rw [tail_term m c, VN_out (F := Ideal) m c, VN_other (F := Ideal) m c main_v4 (by decide), VN_other (F := Ideal) m c main_v9 (by decide)]
  funext j
  rw [eq_ix0 j]
  have hx : ∀ i : Fin 8192, (dats (F := Ideal) m 0 c).arrAt 2 cfg0.N (ix2 i (0 : Fin 1))
      = Cert.Spec.lse (Cert.Spec.emb (V (F := Ideal) m c main_v4) (V (F := Ideal) m c main_v9)) i := by
    intro i; rw [← E_eq m c]; exact lse_arr m c hE i
  refine (Cert.KernelIdeal.Tail.tailTerm_loss _ _ _ hx).trans ?_
  rw [entry_v4 m c, entry_v9 m c]

theorem v21_rest : main_v21 ∈ Pipeline.restRefs sig spec0 :=
  Pipeline.mem_restRefs_of main_v21 rfl (fun w => by fin_cases w <;> decide)

end Cert.KernelIdeal.Lse

end
-- ==== Proof.KFrameRuns.lean ====
/-
  What the per-case runs of the kernel body and the frame share.

  @main is four stretches of host operations (the two row normalisations, the stacking and the conversion), the region, and
  thirteen host operations after it. `V` is what the region finds in each buffer: the launch contents after the four
  stretches. The grid is 16 row tiles by 8 column tiles, point `t` at row tile `t / 8` and column tile `t % 8`. The body
  resets its two running vectors exactly at column tile 0 (`cond0_0`, points ≡ 0 mod 8) and stores the output block
  exactly at column tile 7 (`cond0_1`, points ≡ 7 mod 8): elsewhere the output window is idle and is not written back.
  Both input windows read the same array; window 0's block moves with the row tile, window 1's with the column tile.
-/
import proofs.«106151_j12463995093382_1_alg».proof.Proof.Gen.Kernel.Launch
import proofs.«106151_j12463995093382_1_alg».proof.Proof.Gen.Kernel.Skeleton
import proofs.«106151_j12463995093382_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pre : List (List (HloOp τ sig (Elt F))) := [hostOps0, hostOps0_1, hostOps0_2, hostOps0_3]

/-- Core `c`'s buffer contents when the region is entered: after the four stretches. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem pre_sub : (pre (F := F)).Forall fun ops => ops.Forall fun op => op.bufs ⊆ StableHlo.tcRefs τ sig :=
  ⟨hostOps0_sub, hostOps0_1_sub, hostOps0_2_sub, hostOps0_3_sub⟩

theorem pre_fresh : (pre (F := F)).Forall fun ops => ops.Forall fun op => op.fresh = ∅ := by
  simp only [pre, List.Forall]; repeat' constructor

theorem hostOps1_fresh : (hostOps1 : List (HloOp τ sig (Elt F))).Forall fun op => op.fresh = ∅ := by
  simp only [List.Forall]; repeat' constructor

/-- @main reduces to the region continued by the thirteen later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The later operations touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array the region's windows stage: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile window's staging buffer holds its block at every point, fetched there or not: between fetches the
    block index does not move and the body leaves the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile window's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column tile": the reset's condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile": the output store's condition. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column tile it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S512x1 .f32 := (Memref.whole cc0_stg2_0 : Memref sig .tc .vmem S512x1 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The running maximum's and the running sum's scratch buffers. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Lse

end
-- ==== Proof.KFrameRunA.lean ====
/-
  The body at a point of the FIRST column tile: the two running vectors are reset (−∞ and 0) before anything reads them, the
  tile is absorbed, nothing is stored into the output block. What each buffer the body stores into ends with is found by
  running the body: the pieces written, last first.
-/
import proofs.«106151_j12463995093382_1_alg».proof.Proof.KFrameRuns

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input blocks at their contents, the output block at contents handed back untouched, the two
    running vectors at anything — the body runs to the continuation holding the inputs and the output block as they were
    and each running vector with its pieces written. -/
noncomputable def kernelRun0_A (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .bf16) (x1 : Vec F S1024x512 .bf16) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Lse

end
-- ==== Proof.KFrameRunB.lean ====
/-
  The body at a point of a MIDDLE column tile (neither the first nor the last): the running vectors are read at what the
  point before left, the tile is absorbed, nothing is stored into the output block.
-/
import proofs.«106151_j12463995093382_1_alg».proof.Proof.KFrameRunA

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input blocks at their contents, the output block at contents handed back untouched, the two
    running vectors at what the point before left — the body runs to the continuation holding the inputs and the output
    block as they were and each running vector with its pieces written. -/
noncomputable def kernelRun0_B (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .bf16) (x1 : Vec F S1024x512 .bf16) (xs0 : Vec F S512x1 .f32) (xs1 : Vec F S512x1 .f32) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨?_, ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Lse

end
-- ==== Proof.KFrameRunC.lean ====
/-
  The body at a point of the LAST column tile: the running vectors are read at what the point before left, the tile is
  absorbed, and the row tile's result — the maximum plus the logarithm of the sum — is stored over the whole output block.
-/
import proofs.«106151_j12463995093382_1_alg».proof.Proof.KFrameRunB

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input blocks at their contents, the output block at anything, the two running vectors at
    what the point before left — the body runs to the continuation holding the inputs as they were and the output block
    and each running vector with its pieces written. -/
noncomputable def kernelRun0_C (c : Dev nD) (i : grid0.Coords) (arg2 : Memref sig .tc .vmem S512x512 .bf16) (harg2 : arg2.IsWhole) (arg3 : Memref sig .tc .vmem S1024x512 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .bf16) (x1 : Vec F S1024x512 .bf16) (xs0 : Vec F S512x1 .f32) (xs1 : Vec F S512x1 .f32) :
    Σ' (L2 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__lse_kernel i arg2 harg2 arg3 harg3 arg4 harg4 arg5 harg5 arg6 harg6) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Lse

end
-- ==== Proof.KSharedDeal0.lean ====
/-
  The share assignment of custom_call 0's three windows and its share-dealing equivalence.

  Windows 0 and 1 are input windows on one array (the buffer main_v11); window 2 is the output window, alone on its
  array (the buffer main_v12). The full share of main_v11 is dealt in its two halves, the left half to window 0 and
  the right half to window 1; main_v12 is held at the full share. The equivalence deal0 is the hypothesis hdeal of
  Pipeline.θ_run_frame_around_track_shared for these windows, for any assignment of shares sh with those three values
  (a proof data's Dat.share with q := q0).
-/
import proofs.«106151_j12463995093382_1_alg».proof.Proof.Gen.Kernel.Launch
import proofs.«106151_j12463995093382_1_alg».proof.Proof.LibSharedInputs

noncomputable section

namespace Cert.Kernel.Gen

open Idealize.ShloMosaic Idealize.ShloMosaic.TcCoe
open Idealize.SL Idealize.SL.RA Idealize.SL.BI
open scoped Idealize.SL.BI
open Idealize.SL.BI.BIBase Idealize.SL.Sem Idealize.SL.ProofMode

/-- The share each window of custom_call 0 holds of its array: the two input windows on main_v11 a half each, the
    output window (whose entry a proof data ignores) the full share. -/
def q0 : Fin 3 → PosShare TreeShare :=
  fun | 0 => fullShare.left | 1 => fullShare.right | 2 => fullShare | ⟨_ + 3, h⟩ => absurd h (Nat.not_lt.2 (Nat.le_add_left _ _))

theorem q0_0 : q0 0 = fullShare.left := rfl
theorem q0_1 : q0 1 = fullShare.right := rfl
theorem q0_2 : q0 2 = fullShare := rfl

/-- The distinct buffers behind the three windows' arrays are two. -/
theorem arrRefs0 : Finset.univ.image (Pipeline.arrRef spec0) = {main_v11, main_v12} := by decide

/-- The buffers behind custom_call 0's arrays, each whole at the full share at contents Vb, are the three windows'
    arrays at their shares at Vb: main_v11's full share is its left half (window 0) and its right half (window 1)
    together, main_v12 is window 2's at the full share. -/
theorem deal0 {Ix : Type} [DecidableEq Ix] {Val : EltTy → Type} {Name : Type} [DecidableEq Name] {U : Type} [URA U] {Lvl : Type}
    (sh : Fin 3 → PosShare TreeShare) (h0 : sh 0 = fullShare.left) (h1 : sh 1 = fullShare.right) (h2 : sh 2 = fullShare)
    (c : Dev nD) (Vb : (b : Ref sig .tc) → Buf Val ((c.tc : Thread nD τ).loc b)) :
    (Pipeline.arrBufs spec0 c Vb : sProp (MT nD τ sig Ix Val Name U Lvl))
      ⊣⊢ bigSep Finset.univ fun w : Fin 3 =>
          (((c.tc : Thread nD τ).loc (Pipeline.arrRef spec0 w)) ↦{sh w} Vb (Pipeline.arrRef spec0 w) : sProp (MT nD τ sig Ix Val Name U Lvl)) := by
  classical
  have hne : main_v11 ∉ ({main_v12} : Finset (Ref sig .tc)) := by decide
  unfold Pipeline.arrBufs
  rw [arrRefs0, bigSep_W0, h0, h1, h2, bigSep_insert hne, bigSep_singleton]
  show iprop((((c.tc : Thread nD τ).loc main_v11) ↦{fullShare} Vb main_v11) ∗ (((c.tc : Thread nD τ).loc main_v12) ↦{fullShare} Vb main_v12))
    ⊣⊢ iprop((((c.tc : Thread nD τ).loc main_v11) ↦{fullShare.left} Vb main_v11) ∗ (((c.tc : Thread nD τ).loc main_v11) ↦{fullShare.right} Vb main_v11)
        ∗ (((c.tc : Thread nD τ).loc main_v12) ↦{fullShare} Vb main_v12))
  constructor
  · iintro ⟨H1, H2⟩
    ihave H1' := (pointsTo_share (PosShare.mem_left_op_right fullShare)).1 $$ H1
    icases H1' with ⟨Ha, Hb⟩
    isplitl [Ha]; · iexact Ha
    isplitl [Hb]; · iexact Hb
    iexact H2
  · iintro ⟨Ha, Hb, H2⟩
    isplitr [H2]
    · iapply (pointsTo_share (PosShare.mem_left_op_right fullShare)).2
      isplitl [Ha]; · iexact Ha
      iexact Hb
    · iexact H2

/-- deal0 read at a proof data of custom_call 0 whose input shares are q0: the hypothesis hdeal of
    Pipeline.θ_run_frame_around_track_shared for that proof data. -/
theorem deal0_dat {Ix : Type} [DecidableEq Ix] {Val : EltTy → Type} {Name : Type} [DecidableEq Name] {U : Type} [URA U] {Lvl : Type}
    (c : Dev nD) (dat : Pipeline.Dat τ Val Ix Name U Lvl cfg0 c) (hq : dat.q = q0)
    (Vb : (b : Ref sig .tc) → Buf Val ((c.tc : Thread nD τ).loc b)) :
    (Pipeline.arrBufs cfg0.spec c Vb : sProp (MT nD τ sig Ix Val Name U Lvl))
      ⊣⊢ bigSep Finset.univ fun w : Fin cfg0.W =>
          (((c.tc : Thread nD τ).loc (Pipeline.arrRef cfg0.spec w)) ↦{dat.share w} Vb (Pipeline.arrRef cfg0.spec w) : sProp (MT nD τ sig Ix Val Name U Lvl)) :=
  deal0 (fun w => dat.share w)
    (by unfold Pipeline.Dat.share; rw [hq]; rfl) (by unfold Pipeline.Dat.share; rw [hq]; rfl) (by unfold Pipeline.Dat.share; rfl) c Vb

/-- Every window of custom_call 0 is an input window or alone on its array: what lets the exit contents be computed
    by Pipeline.withArrays (the hypothesis hio of Pipeline.θ_run_frame_around_track_shared_in). -/
theorem hio0 : ∀ w : Fin cfg0.W, (cfg0.win w).isOut = false
    ∨ ∀ w' : Fin cfg0.W, Pipeline.arrRef cfg0.spec w' = Pipeline.arrRef cfg0.spec w → w' = w := by decide

end Cert.Kernel.Gen

end
-- ==== Proof.KFrame.lean ====
/-
  What the body leaves point by point, the region's invariant, the proof data and the body obligation.

  After the body at point `t` the two scratch buffers hold the running maximum and the running sum of the row tile's
  rows over the column tiles seen so far; at the first column tile they start afresh, elsewhere they continue from what
  the point before left. The output block is stored at the last column tile only. `outsAt0` names the three contents by
  recursion on the point; the invariant between points says the scratch buffers hold `outsAt0`'s last two components.
  The two input windows read one array: each holds one half of its share.
-/
import proofs.«106151_j12463995093382_1_alg».proof.Proof.KFrameRunC
import proofs.«106151_j12463995093382_1_alg».proof.Proof.KSharedDeal0

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point -/

/-- The first-column-tile run at point `t`. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) scM0_0 (Memref.isWhole_whole _) scM0_1 (Memref.isWhole_whole _)
    ((hcond0_0 t).mpr h0) (fun h => by have := (hcond0_1 t).mp h; omega) (iblk m c 0 t) (iblk m c 1 t)
/-- The middle-column-tile run at point `t`, the running vectors at `p0`, `p1`. -/
abbrev runB (c : Dev nD) (t : Fin cfg0.N) (h0 : ¬t.val % 8 = 0) (h1 : ¬t.val % 8 = 7) (p0 p1 : Vec F S512x1 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) (fun h => h1 ((hcond0_1 t).mp h)) (iblk m c 0 t) (iblk m c 1 t) p0 p1
/-- The last-column-tile run at point `t`. -/
abbrev runC (c : Dev nD) (t : Fin cfg0.N) (h0 : ¬t.val % 8 = 0) (h1 : t.val % 8 = 7) (p0 p1 : Vec F S512x1 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) ((hcond0_1 t).mpr h1) (iblk m c 0 t) (iblk m c 1 t) p0 p1

/-- Pieces read back over a buffer nothing else wrote. -/
abbrev rd0 (L : List (View.Piece (Elt F) S512x1 .f32)) : Vec F S512x1 .f32 := VS0_0.read (Elt F) (VS0_0.writes (Elt F) VS0_0.junk L)
abbrev rd1 (L : List (View.Piece (Elt F) S512x1 .f32)) : Vec F S512x1 .f32 := VS0_1.read (Elt F) (VS0_1.writes (Elt F) VS0_1.junk L)
abbrev rd2 (L : List (View.Piece (Elt F) S512x1 .f32)) : Vec F S512x1 .f32 := VO0_2.read (Elt F) (VO0_2.writes (Elt F) VO0_2.junk L)

/-- Every case's pieces for each buffer it stores into tile the buffer. -/
theorem coverA0 (c : Dev nD) (t : Fin cfg0.N) (h0) (y : S512x1.Idx) : ∃ pc ∈ (runA m c t h0).1, y ∈ pc.1.set :=
  View.cover_of_tiledL (runA m c t h0).1 S512x1.size (by sl_kernel_rfl) y
theorem coverA1 (c : Dev nD) (t : Fin cfg0.N) (h0) (y : S512x1.Idx) : ∃ pc ∈ (runA m c t h0).2.1, y ∈ pc.1.set :=
  View.cover_of_tiledL (runA m c t h0).2.1 S512x1.size (by sl_kernel_rfl) y
theorem coverB0 (c : Dev nD) (t : Fin cfg0.N) (h0 h1 p0 p1) (y : S512x1.Idx) : ∃ pc ∈ (runB m c t h0 h1 p0 p1).1, y ∈ pc.1.set :=
  View.cover_of_tiledL (runB m c t h0 h1 p0 p1).1 S512x1.size (by sl_kernel_rfl) y
theorem coverB1 (c : Dev nD) (t : Fin cfg0.N) (h0 h1 p0 p1) (y : S512x1.Idx) : ∃ pc ∈ (runB m c t h0 h1 p0 p1).2.1, y ∈ pc.1.set :=
  View.cover_of_tiledL (runB m c t h0 h1 p0 p1).2.1 S512x1.size (by sl_kernel_rfl) y
theorem coverC2 (c : Dev nD) (t : Fin cfg0.N) (h0 h1 p0 p1) (y : S512x1.Idx) : ∃ pc ∈ (runC m c t h0 h1 p0 p1).1, y ∈ pc.1.set :=
  View.cover_of_tiledL (runC m c t h0 h1 p0 p1).1 S512x1.size (by sl_kernel_rfl) y
theorem coverC0 (c : Dev nD) (t : Fin cfg0.N) (h0 h1 p0 p1) (y : S512x1.Idx) : ∃ pc ∈ (runC m c t h0 h1 p0 p1).2.1, y ∈ pc.1.set :=
  View.cover_of_tiledL (runC m c t h0 h1 p0 p1).2.1 S512x1.size (by sl_kernel_rfl) y
theorem coverC1 (c : Dev nD) (t : Fin cfg0.N) (h0 h1 p0 p1) (y : S512x1.Idx) : ∃ pc ∈ (runC m c t h0 h1 p0 p1).2.2.1, y ∈ pc.1.set :=
  View.cover_of_tiledL (runC m c t h0 h1 p0 p1).2.2.1 S512x1.size (by sl_kernel_rfl) y

/-! ## What the buffers hold after each point -/

/-- The output block and the two running vectors after the body at point `t`, the running vectors before it at `p0`,
    `p1` (not consulted at the first column tile). Away from the last column tile nothing is stored into the output
    block and its component is a placeholder nothing reads. -/
def stepAt (c : Dev nD) (t : Fin cfg0.N) (p0 p1 : Vec F S512x1 .f32) : Vec F S512x1 .f32 × Vec F S512x1 .f32 × Vec F S512x1 .f32 :=
  if h0 : t.val % 8 = 0 then (rd2 [], rd0 (runA m c t h0).1, rd1 (runA m c t h0).2.1)
  else if h1 : t.val % 8 = 7 then (rd2 (runC m c t h0 h1 p0 p1).1, rd0 (runC m c t h0 h1 p0 p1).2.1, rd1 (runC m c t h0 h1 p0 p1).2.2.1)
  else (rd2 [], rd0 (runB m c t h0 h1 p0 p1).1, rd1 (runB m c t h0 h1 p0 p1).2.1)

/-- The accumulation over the points. -/
def outsAt0 (c : Dev nD) : (n : ℕ) → n < cfg0.N → Vec F S512x1 .f32 × Vec F S512x1 .f32 × Vec F S512x1 .f32
  | 0, hn => stepAt m c ⟨0, hn⟩ (rd0 []) (rd1 [])
  | n + 1, hn => stepAt m c ⟨n + 1, hn⟩ (outsAt0 c n (Nat.lt_of_succ_lt hn)).2.1 (outsAt0 c n (Nat.lt_of_succ_lt hn)).2.2

theorem outsAt0_pos (c : Dev nD) (t : Fin cfg0.N) (ht : t.val ≠ 0) :
    outsAt0 m c t.val t.isLt = stepAt m c t (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd rfl ht
  | succ n => rfl

theorem stepAt_A (c : Dev nD) (t : Fin cfg0.N) (h0 : t.val % 8 = 0) (p0 p1) :
    stepAt m c t p0 p1 = (rd2 [], rd0 (runA m c t h0).1, rd1 (runA m c t h0).2.1) := dif_pos h0
theorem stepAt_B (c : Dev nD) (t : Fin cfg0.N) (h0 : ¬t.val % 8 = 0) (h1 : ¬t.val % 8 = 7) (p0 p1) :
    stepAt m c t p0 p1 = (rd2 [], rd0 (runB m c t h0 h1 p0 p1).1, rd1 (runB m c t h0 h1 p0 p1).2.1) := (dif_neg h0).trans (dif_neg h1)
theorem stepAt_C (c : Dev nD) (t : Fin cfg0.N) (h0 : ¬t.val % 8 = 0) (h1 : t.val % 8 = 7) (p0 p1) :
    stepAt m c t p0 p1 = (rd2 (runC m c t h0 h1 p0 p1).1, rd0 (runC m c t h0 h1 p0 p1).2.1, rd1 (runC m c t h0 h1 p0 p1).2.2.1) :=
  (dif_neg h0).trans (dif_pos h1)

/-- At a first-column-tile point the accumulation starts afresh whatever came before. -/
theorem outsAt0_A (c : Dev nD) (t : Fin cfg0.N) (h0 : t.val % 8 = 0) :
    outsAt0 m c t.val t.isLt = (rd2 [], rd0 (runA m c t h0).1, rd1 (runA m c t h0).2.1) := by
  obtain ⟨n, hn⟩ := t
  cases n with
  | zero => exact stepAt_A m c _ h0 _ _
  | succ n => exact stepAt_A m c _ h0 _ _

/-! ## The invariant between points -/

/-- Before the first point: the scratch buffers at anything. Afterwards: at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- On core `c`: the arrays as the region finds them; after the body each input's buffer at its block and the output's
    at `outsAt0`'s first component; the invariant `PhiS`; nothing owed; the two input windows one half each of their
    common array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q := q0
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves1 (c : Dev nD) (t : Fin cfg0.N) :
    (dats m 0 c).leavesExact 1 t = owns (c : Thread nD τ) (ms0_1 t) fullShare (iblk m c 1 t) := by
  unfold Dat.leavesExact; rw [liveAt0_1 t, after0_1]

set_option maxHeartbeats 4800000 in
/-- The body at any point: the inputs' buffers hold their blocks; the point's column tile says which case it is in; the
    invariant hands the body the scratch buffers at what the point before left (at anything before the first point) and
    takes them back at this point's contents; the output block is stored at the last column tile and handed back
    untouched elsewhere; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, leaves0, leaves1]
  have hN : t.val < 128 := lt_of_lt_of_eq t.isLt (show cfg0.N = 128 from N_0)
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [outsAt0_A m c t h0]
    (try dsimp only)
    have hrun := (runA m c t h0).2.2
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverA0 m c t h0)
          · unfold owns; iexists _; isplitr
            swap; · iexact HS1
            ipureintro; exact View.read_writes_of_cover _ _ _ _ _ (coverA1 m c t h0)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverA0 m c t h0)
          · unfold owns; iexists _; isplitr
            swap; · iexact HS1
            ipureintro; exact View.read_writes_of_cover _ _ _ _ _ (coverA1 m c t h0)
        iexact Hg
      isplitl [Ho]; · iexact Ho
      isplitl [H0]; · iexact H0
      isplitl [H1]; · iexact H1
      iexists _; iexact H2
  · have hz : t.val ≠ 0 := fun h => h0 (by rw [h])
    rw [PhiS_castSucc m c t, PhiS_pos m c _ _ hz, outsAt0_pos m c t hz]
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2, outsAt0_pos m c t hz]
      rw [stepAt_C m c t h0 h1]
      (try dsimp only)
      have hrun := (runC m c t h0 h1 (outsAt0 m c (t.val - 1) (Nat.lt_of_le_of_lt (Nat.sub_le _ _) t.isLt)).2.1 (outsAt0 m c (t.val - 1) (Nat.lt_of_le_of_lt (Nat.sub_le _ _) t.isLt)).2.2).2.2.2
      iintro ⟨⟨⟨HS0, HS1⟩, Hg⟩, Ho, ⟨%d0, H0⟩, ⟨%d1, H1⟩, ⟨%d2, H2⟩⟩
      iapply (hrun Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverC0 m c t h0 h1 _ _)
          · unfold owns; iexists _; isplitr
            swap; · iexact HS1
            ipureintro; exact View.read_writes_of_cover _ _ _ _ _ (coverC1 m c t h0 h1 _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC2 m c t h0 h1 _ _)
    · rw [Dat.leavesExact_idle (dats m 0 c) 2 t (idleAt0_2 t (fun h => h1 ((hcond0_1 t).mp h))) (noFlush0_2 t (fun h => h1 ((hcond0_1 t).mp h)))]
      rw [stepAt_B m c t h0 h1]
      (try dsimp only)
      have hrun := (runB m c t h0 h1 (outsAt0 m c (t.val - 1) (Nat.lt_of_le_of_lt (Nat.sub_le _ _) t.isLt)).2.1 (outsAt0 m c (t.val - 1) (Nat.lt_of_le_of_lt (Nat.sub_le _ _) t.isLt)).2.2).2.2
      iintro ⟨⟨⟨HS0, HS1⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverB0 m c t h0 h1 _ _)
          · unfold owns; iexists _; isplitr
            swap; · iexact HS1
            ipureintro; exact View.read_writes_of_cover _ _ _ _ _ (coverB1 m c t h0 h1 _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitr [Hg]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Lse

end
-- ==== Proof.KRunMain.lean ====
/-
  The run of @main and the frame.

  The region is launched with its two input windows on one array, each holding half of the array's share; the thirteen
  host operations after the region then run from what the region left: every buffer as the region found it, but for the
  output array, which holds the blocks written back. Read at the two argument arrays, which no operation writes, the
  run's post is the frame: they end as they were launched.
-/
import proofs.«106151_j12463995093382_1_alg».proof.Proof.KFrame
import proofs.«106151_j12463995093382_1_alg».proof.Proof.LibSharedInputs

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer holds when the region is left: the output array at the blocks written back, every other buffer as
    the region found it. -/
def VN (c : Dev nD) : Valuation τ sig (Elt F) :=
  Function.update (V0 m c) (Proc.devRef .tc main_v12) ((dats m 0 c).arrAt 2 cfg0.N)

theorem VN_out (c : Dev nD) : VN m c (Proc.devRef .tc main_v12) = (dats m 0 c).arrAt 2 cfg0.N := by
  unfold VN; exact Function.update_self _ _ _

theorem VN_other (c : Dev nD) (b : Ref sig .tc) (hb : b ≠ main_v12) : VN m c (Proc.devRef .tc b) = V0 m c (Proc.devRef .tc b) := by
  unfold VN; exact Function.update_of_ne (StableHlo.devRef_ne_of_ne hb) _ _

/-- Every window's array at the region's end is what `VN` says: the inputs' as found, the output's as written back. -/
theorem hVN (c : Dev nD) (w : Fin cfg0.W) : (dats m 0 c).arrAt w cfg0.N = VN m c (Proc.devRef .tc (Pipeline.arrRef spec0 w)) := by
  match w with
  | ⟨0, _⟩ => exact ((dats m 0 c).arrAt_in 0 rfl _).trans ((A_eq m c 0).trans (VN_other m c main_v11 (by decide)).symm)
  | ⟨1, _⟩ => exact ((dats m 0 c).arrAt_in 1 rfl _).trans ((A_eq m c 1).trans (VN_other m c main_v11 (by decide)).symm)
  | ⟨2, _⟩ => exact (VN_out m c).symm

theorem hVN' (c : Dev nD) (b : Ref sig .tc) (h : ∀ w, Pipeline.arrRef spec0 w ≠ b) : VN m c (Proc.devRef .tc b) = V0 m c (Proc.devRef .tc b) :=
  VN_other m c b (fun e => h 2 e.symm)

-- the launch theorem's implicit arguments are found by unifying its conclusion with this one, which takes unfolding plain
-- definitions in a metavariable's type
set_option backward.isDefEq.respectTransparency.types false in
/-- From any memory with zero counters every weakly fair execution of @main terminates, nothing faulting, every array of
    the region at what the proof data computes and every other unscoped buffer at what the later operations leave. -/
theorem run_main : θ_run defs (onTc (τ := τ) (main (F := F))) (s₀ m ρ)
    (Pipeline.FramePost cfgs (dats m) 0 (fun c b => StableHlo.after (List.flatten [hostOps1]) (VN m c) (Proc.devRef .tc b))) :=
  Pipeline.θ_run_frame_around_track_shared cfgs (dats m) (0 : Fin 1) cellOf_inj winFacts₀0 block_pos0 arr_whole0 stage_whole0
    defs₀ Variants.none m ρ main (fun c => (body_obligation m c).loose) (fun _ _ => rfl)
    (fun c Vb => deal0_dat c (dats m 0 c) rfl Vb) (V0 m) (VN m) (hVN m) (hVN' m)
    [hostOps1] sfx_sub sfx_fresh sfx_keeps (hmain m Variants.none) (A_eq m) (hin m) (hout m)

/-- No operation before the region writes an argument array. -/
theorem V_main_arg0 (c : Dev nD) : V m c main_arg0 = m ((c : Thread nD τ).loc main_arg0) := by
  dsimp only [V, V0, pre]; simp only [hostOps0, hostOps0_1, hostOps0_2, hostOps0_3, List.flatten_cons, List.flatten_nil, List.append_nil, List.cons_append, List.nil_append]
  after_results
theorem V_main_arg1 (c : Dev nD) : V m c main_arg1 = m ((c : Thread nD τ).loc main_arg1) := by
  dsimp only [V, V0, pre]; simp only [hostOps0, hostOps0_1, hostOps0_2, hostOps0_3, List.flatten_cons, List.flatten_nil, List.append_nil, List.cons_append, List.nil_append]
  after_results

/-- Nor does one after it. -/
theorem tail_arg0 (c : Dev nD) : StableHlo.after (List.flatten [hostOps1]) (VN m c) (Proc.devRef .tc main_arg0) = m ((c : Thread nD τ).loc main_arg0) := by
  simp only [hostOps1, List.flatten_cons, List.flatten_nil, List.append_nil]
  after_results
  all_goals exact (VN_other m c main_arg0 (by decide)).trans (V_main_arg0 m c)
theorem tail_arg1 (c : Dev nD) : StableHlo.after (List.flatten [hostOps1]) (VN m c) (Proc.devRef .tc main_arg1) = m ((c : Thread nD τ).loc main_arg1) := by
  simp only [hostOps1, List.flatten_cons, List.flatten_nil, List.append_nil]
  after_results
  all_goals exact (VN_other m c main_arg1 (by decide)).trans (V_main_arg1 m c)

theorem arg0_rest : main_arg0 ∈ Pipeline.restRefs sig spec0 :=
  Pipeline.mem_restRefs_of main_arg0 rfl (fun w => by fin_cases w <;> decide)
theorem arg1_rest : main_arg1 ∈ Pipeline.restRefs sig spec0 :=
  Pipeline.mem_restRefs_of main_arg1 rfl (fun w => by fin_cases w <;> decide)

/-- THE FRAME: @main runs to the end, nothing faulting, and its two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (tail_arg0 m c), ((h c).2 main_arg1 arg1_rest).trans (tail_arg1 m c)⟩)
    (run_main m ρ)

end Cert.Kernel.Lse

end
-- ==== Proof.RefIndex.lean ====
/-
  The reference's integer stages, read at an index.

  Row and column numbers are 32-bit words. A number below 2³¹ is a word that reads back, signed, as itself, is not
  negative, and two numbers below 2³² are equal exactly when their words are. So: the diagonal mask at `(i, j)` is
  set exactly when `i = j`; the row numbers `0 … 8191` pass the wrap-around of negative indices unchanged; the target
  column of row `i` — `4096 + i` for the first 4096 rows, `i − 4096` for the others — is the row's partner and passes
  the wrap-around unchanged too; and the pair of start indices of row `i` is (`i`, partner of `i`).
-/
import proofs.«106151_j12463995093382_1_alg».proof.Proof.RefRead
import proofs.«106151_j12463995093382_1_alg».proof.Proof.Spec
import Idealize.ShloMosaic.Lib.Pipeline.Value

noncomputable section

namespace Cert.RefLoss

open Cert.ReferenceIdeal Cert.ReferenceIdeal.Gen Cert.ReferenceIdeal.Read Idealize.ShloMosaic Idealize.ShloMosaic.ValueIdx

/-! ## Words of small numbers -/

/-- A number below 2³¹, as a 32-bit word, reads back unsigned as itself. -/
theorem toNat_ofNat_small (n : Nat) (h : n < 2 ^ 31) : (BitVec.ofNat 32 n).toNat = n := by
  rw [BitVec.toNat_ofNat]; exact Nat.mod_eq_of_lt (by omega)

/-- … and signed as itself. -/
theorem toInt_ofNat_small (n : Nat) (h : n < 2 ^ 31) : (BitVec.ofNat 32 n).toInt = (n : Int) := by
  rw [BitVec.toInt_eq_toNat_cond, toNat_ofNat_small n h, if_pos (by omega)]

/-- It is not below zero in the signed order. -/
theorem cmpi_slt_zero_small (n : Nat) (h : n < 2 ^ 31) : IntOp.cmpi .slt (BitVec.ofNat 32 n) 0#32 = 0#1 := by
  have hs : (BitVec.ofNat 32 n).slt 0#32 = false := by
    rw [Bool.eq_false_iff]; intro hc
    have h2 := BitVec.slt_iff_toInt_lt.mp hc
    rw [toInt_ofNat_small n h, BitVec.toInt_zero] at h2
    omega
  show BitVec.ofBool ((BitVec.ofNat 32 n).slt 0#32) = 0#1
  rw [hs]; rfl

/-- The sum of two numbers' words is the word of their sum. -/
theorem addi_ofNat (a b : Nat) : IntOp.addi (BitVec.ofNat 32 a) (BitVec.ofNat 32 b) = BitVec.ofNat 32 (a + b) := by
  unfold IntOp.addi
  exact (BitVec.ofNat_add a b).symm

/-- Two numbers below 2³², the first with the zero word added, have equal words exactly when they are equal. -/
theorem cmpi_eq_small (a b : Nat) (ha : a < 2 ^ 32) (hb : b < 2 ^ 32) :
    IntOp.cmpi .eq (IntOp.addi (BitVec.ofNat 32 a) 0#32) (BitVec.ofNat 32 b) = if a = b then 1#1 else 0#1 := by
  show BitVec.ofBool (BitVec.ofNat 32 a + 0#32 == BitVec.ofNat 32 b) = _
  rw [BitVec.add_zero]
  by_cases hab : a = b
  · subst hab; rw [if_pos rfl, beq_self_eq_true]; rfl
  · rw [if_neg hab]
    have hne : BitVec.ofNat 32 a ≠ BitVec.ofNat 32 b := fun he => hab (by
      have := congrArg BitVec.toNat he
      rwa [BitVec.toNat_ofNat, BitVec.toNat_ofNat, Nat.mod_eq_of_lt ha, Nat.mod_eq_of_lt hb] at this)
    rw [beq_eq_false_iff_ne.mpr hne]; rfl

/-! ## Joined index vectors, read at an index -/

/-- Two vectors of 4096 entries joined end to end, read at `i`: the first at `i` below 4096, the second at `i − 4096`
    otherwise. For any element type and any proof of the shapes' side condition. -/
theorem concat_idx_apply {α : Type} (x₁ x₂ : (⟨1, ![4096]⟩ : Shape).Idx → α)
    (h : Shape.Concatenates [(⟨1, ![4096]⟩ : Shape), (⟨1, ![4096]⟩ : Shape)] (⟨1, ![8192]⟩ : Shape) 0)
    (i : Fin 8192) :
    concatenate (⟨1, ![8192]⟩ : Shape) 0 [⟨(⟨1, ![4096]⟩ : Shape), x₁⟩, ⟨(⟨1, ![4096]⟩ : Shape), x₂⟩] h (ix1 i)
      = if hi : i.val < 4096 then x₁ (ix1 (⟨i.val, hi⟩ : Fin 4096))
        else x₂ (ix1 (⟨i.val - 4096, by omega⟩ : Fin 4096)) := by
  by_cases hi : i.val < 4096
  · rw [dif_pos hi]
    exact concatenate_pair_apply_left (0 : Fin 1) x₁ x₂ h (ix1 i) rfl (ix1 (⟨i.val, hi⟩ : Fin 4096))
      (fun b => by match b with | ⟨0, _⟩ => rfl)
  · rw [dif_neg hi]
    exact concatenate_pair_apply_right (0 : Fin 1) x₁ x₂ h (ix1 i) rfl rfl
      (ix1 (⟨i.val - 4096, by omega⟩ : Fin 4096))
      (fun b hb => by match b with | ⟨0, _⟩ => exact absurd rfl hb)
      (by show i.val - 4096 + 4096 = i.val; omega)

/-- Two columns of 8192 entries set side by side, read in row `r`: column 0 is the first … -/
theorem concat_cols_apply0 {α : Type} (x₁ x₂ : (⟨2, ![8192, 1]⟩ : Shape).Idx → α)
    (h : Shape.Concatenates [(⟨2, ![8192, 1]⟩ : Shape), (⟨2, ![8192, 1]⟩ : Shape)] (⟨2, ![8192, 2]⟩ : Shape) 1)
    (r : Fin 8192) :
    concatenate (⟨2, ![8192, 2]⟩ : Shape) 1 [⟨(⟨2, ![8192, 1]⟩ : Shape), x₁⟩, ⟨(⟨2, ![8192, 1]⟩ : Shape), x₂⟩] h
        (ix2 r (0 : Fin 2)) = x₁ (ix2 r (0 : Fin 1)) :=
  concatenate_pair_apply_left (1 : Fin 2) x₁ x₂ h (ix2 r (0 : Fin 2)) rfl (ix2 r (0 : Fin 1))
    (fun b => by match b with | ⟨0, _⟩ => rfl | ⟨1, _⟩ => rfl)

/-- … and column 1 is the second. -/
theorem concat_cols_apply1 {α : Type} (x₁ x₂ : (⟨2, ![8192, 1]⟩ : Shape).Idx → α)
    (h : Shape.Concatenates [(⟨2, ![8192, 1]⟩ : Shape), (⟨2, ![8192, 1]⟩ : Shape)] (⟨2, ![8192, 2]⟩ : Shape) 1)
    (r : Fin 8192) :
    concatenate (⟨2, ![8192, 2]⟩ : Shape) 1 [⟨(⟨2, ![8192, 1]⟩ : Shape), x₁⟩, ⟨(⟨2, ![8192, 1]⟩ : Shape), x₂⟩] h
        (ix2 r (1 : Fin 2)) = x₂ (ix2 r (0 : Fin 1)) :=
  concatenate_pair_apply_right (1 : Fin 2) x₁ x₂ h (ix2 r (1 : Fin 2)) rfl rfl (ix2 r (0 : Fin 1))
    (fun b hb => by match b with | ⟨0, _⟩ => rfl | ⟨1, _⟩ => exact absurd rfl hb)
    (by show 0 + 1 = 1; rfl)

/-! ## The reference's integer stages -/

variable {F : FTy → Type} [FloatOps F]

/-- The diagonal mask at `(i, j)` is set exactly when `i = j`. -/
theorem eye_apply (i j : Fin 8192) :
    val_main_v17 (F := F) (ix2 i j) = if i = j then 1#1 else 0#1 := by
  rw [val_main_v17_apply, val_main_v16_apply, val_main_v13_apply, val_main_v14_apply, val_main_v15_apply,
    val_main_c_apply]
  show IntOp.cmpi .eq (IntOp.addi (BitVec.ofNat 32 i.val) 0#32) (BitVec.ofNat 32 j.val) = _
  rw [cmpi_eq_small i.val j.val (by omega) (by omega)]
  by_cases hij : i = j
  · rw [if_pos hij, if_pos (congrArg Fin.val hij)]
  · rw [if_neg hij, if_neg (fun h => hij (Fin.ext h))]

/-- The row numbers pass the wrap-around of negative indices unchanged. -/
theorem rowIdx_apply (r : Fin 8192) : val_main_v32 (F := F) (ix1 r) = BitVec.ofNat 32 r.val := by
  rw [val_main_v32_apply, val_main_v29_apply, val_main_v27_apply, val_main_v28_apply, val_main_c_4_apply]
  show Scalar.select (IntOp.cmpi .slt (BitVec.ofNat 32 r.val) 0#32) _ (BitVec.ofNat 32 r.val) = _
  rw [cmpi_slt_zero_small r.val (by omega), select_zero]

/-- The target column of row `r` is its partner. -/
theorem target_apply (r : Fin 8192) : val_main_v25 (F := F) (ix1 r) = BitVec.ofNat 32 (Cert.Spec.partner r).val := by
  unfold val_main_v25
  rw [concat_idx_apply]
  unfold Cert.Spec.partner
  by_cases hr : r.val < 4096
  · rw [dif_pos hr, dif_pos hr, val_main_v23_apply, val_main_v22_apply, val_main_c_3_apply, val_main_v21_apply]
    show IntOp.addi (BitVec.ofNat 32 4096) (BitVec.ofNat 32 r.val) = BitVec.ofNat 32 (r.val + 4096)
    rw [addi_ofNat, Nat.add_comm]
  · rw [dif_neg hr, dif_neg hr, val_main_v24_apply]

/-- It passes the wrap-around of negative indices unchanged. -/
theorem targetIdx_apply (r : Fin 8192) : val_main_v37 (F := F) (ix1 r) = BitVec.ofNat 32 (Cert.Spec.partner r).val := by
  rw [val_main_v37_apply, val_main_v34_apply, val_main_v33_apply, val_main_c_6_apply, target_apply]
  rw [cmpi_slt_zero_small _ (by have := (Cert.Spec.partner r).isLt; omega), select_zero]

/-- The start indices of row `r`: first the row itself … -/
theorem startIdx_apply0 (r : Fin 8192) : val_main_v40 (F := F) (ix2 r (0 : Fin 2)) = BitVec.ofNat 32 r.val := by
  unfold val_main_v40
  have e : idx_main_v38 (ix2 r (0 : Fin 1)) = ix1 r :=
    funext fun a => Fin.ext (by match a with | ⟨0, _⟩ => rfl)
  rw [concat_cols_apply0, val_main_v38_apply, e]
  exact rowIdx_apply r

/-- … then its partner. -/
theorem startIdx_apply1 (r : Fin 8192) :
    val_main_v40 (F := F) (ix2 r (1 : Fin 2)) = BitVec.ofNat 32 (Cert.Spec.partner r).val := by
  unfold val_main_v40
  have e : idx_main_v39 (ix2 r (0 : Fin 1)) = ix1 r :=
    funext fun a => Fin.ext (by match a with | ⟨0, _⟩ => rfl)
  rw [concat_cols_apply1, val_main_v39_apply, e]
  exact targetIdx_apply r

end Cert.RefLoss

end
-- ==== Proof.RefGather.lean ====
/-
  The reference's gather, read at a row.

  The gather takes, for each of the 8192 rows, a pair of start indices (one per axis of the 8192 × 8192 operand), reads
  each as a signed number clamped into `0 … 8191`, and returns the operand's entry at that pair; no axis is kept, so
  the result has one entry per row. With the start indices of row `r` being `r` and the partner of `r`, both inside
  the range, the result at row `r` is the operand at `(r, partner r)`.
-/
import proofs.«106151_j12463995093382_1_alg».proof.Proof.RefIndex

noncomputable section

namespace Cert.RefLoss

open Cert.ReferenceIdeal Cert.ReferenceIdeal.Gen Cert.ReferenceIdeal.Read Idealize.ShloMosaic Idealize.ShloMosaic.ValueIdx

/-- The gather's dimension numbers: a rank-2 operand, both axes collapsed and both named by the start index map, the
    index vector on axis 1 of the start indices, slices of one entry. -/
abbrev pairDims (wf : GatherDims.WF (⟨2, ![8192, 8192]⟩ : Shape) (⟨2, ![8192, 2]⟩ : Shape) (⟨1, ![8192]⟩ : Shape)
    [] [0, 1] [] [0, 1] [] 1 ![1, 1]) :
    GatherDims (⟨2, ![8192, 8192]⟩ : Shape) (⟨2, ![8192, 2]⟩ : Shape) (⟨1, ![8192]⟩ : Shape) where
  offsetDims := []
  collapsedSliceDims := [0, 1]
  operandBatchingDims := []
  startIndicesBatchingDims := []
  startIndexMap := [0, 1]
  indexVectorDim := 1
  sliceSizes := ![1, 1]
  wf := wf

/-- The gather at row `r`: the operand at the two start indices of row `r`, each read signed and clamped into
    `0 … 8191`. For any element type and index width. -/
theorem gather_pair_apply {α : Type} {w : Nat}
    (wf : GatherDims.WF (⟨2, ![8192, 8192]⟩ : Shape) (⟨2, ![8192, 2]⟩ : Shape) (⟨1, ![8192]⟩ : Shape)
      [] [0, 1] [] [0, 1] [] 1 ![1, 1])
    (x : (⟨2, ![8192, 8192]⟩ : Shape).Idx → α) (idx : IVec (⟨2, ![8192, 2]⟩ : Shape) w) (r : Fin 8192) :
    Host.gather (pairDims wf) x idx (ix1 r)
      = x (ix2 (⟨min (idx (ix2 r (0 : Fin 2))).toInt.toNat 8191, by omega⟩ : Fin 8192)
               (⟨min (idx (ix2 r (1 : Fin 2))).toInt.toNat 8191, by omega⟩ : Fin 8192)) := by
  unfold Host.gather
  congr 1
  funext a
  refine Fin.ext ?_
  show (pairDims wf).start (ix1 r) idx a + (pairDims wf).batchCoord (ix1 r) a + (pairDims wf).offCoord (ix1 r) a = _
  have hmem : a ∈ (pairDims wf).collapsedSliceDims := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  match a with
  | ⟨0, _⟩ =>
    rw [dif_pos (show (⟨0, by decide⟩ : Fin 2) ∈ (pairDims wf).startIndexMap from List.mem_cons_self)]
    have hsi : (pairDims wf).siIdx (ix1 r) ⟨List.idxOf (⟨0, by decide⟩ : Fin 2) (pairDims wf).startIndexMap,
        List.idxOf_lt_length_iff.2 List.mem_cons_self⟩ = ix2 r (0 : Fin 2) := by
      funext b; refine Fin.ext ?_
      match b with
      | ⟨0, _⟩ => rfl
      | ⟨1, _⟩ => rfl
    rw [hsi]
    rfl
  | ⟨1, _⟩ =>
    rw [dif_pos (show (⟨1, by decide⟩ : Fin 2) ∈ (pairDims wf).startIndexMap from
      List.mem_cons_of_mem _ List.mem_cons_self)]
    have hsi : (pairDims wf).siIdx (ix1 r) ⟨List.idxOf (⟨1, by decide⟩ : Fin 2) (pairDims wf).startIndexMap,
        List.idxOf_lt_length_iff.2 (List.mem_cons_of_mem _ List.mem_cons_self)⟩ = ix2 r (1 : Fin 2) := by
      funext b; refine Fin.ext ?_
      match b with
      | ⟨0, _⟩ => rfl
      | ⟨1, _⟩ => rfl
    rw [hsi]
    rfl

/-- The reference's gather has these dimension numbers. -/
theorem gatherDims_eq : gather_S8192x8192_S8192x2_S8192_n_01_n_n_01_1_11
    = pairDims Facts₀.gather_S8192x8192_S8192x2_S8192_n_01_n_n_01_1_11_wf := rfl

variable {F : FTy → Type} [FloatOps F]

/-- The reference's gathered entry of row `r` is the log-softmax stage at `(r, partner r)`. -/
theorem gathered_apply (x0 x1 : (⟨S4096x512, .f32⟩ : BufTy).Contents (Elt F)) (r : Fin 8192) :
    val_main_v41 (F := F) x0 x1 (ix1 r) = val_main_v26 (F := F) x0 x1 (ix2 r (Cert.Spec.partner r)) := by
  unfold val_main_v41
  rw [gatherDims_eq, gather_pair_apply]
  congr 1
  funext a
  refine Fin.ext ?_
  match a with
  | ⟨0, _⟩ =>
    show min (val_main_v40 (F := F) (ix2 r (0 : Fin 2))).toInt.toNat 8191 = r.val
    rw [startIdx_apply0, toInt_ofNat_small _ (by omega), Int.toNat_natCast]
    omega
  | ⟨1, _⟩ =>
    show min (val_main_v40 (F := F) (ix2 r (1 : Fin 2))).toInt.toNat 8191 = (Cert.Spec.partner r).val
    have hp := (Cert.Spec.partner r).isLt
    rw [startIdx_apply1, toInt_ofNat_small _ (by omega), Int.toNat_natCast]
    omega

end Cert.RefLoss

end
-- ==== Proof.RefLogits.lean ====
/-
  The reference's similarities and their log-softmax, read at an index.

  With `e` the stack of the two normalised blocks: the matrix product of `e` with its transpose at `(i, j)` is the inner
  product of rows `i` and `j`; the diagonal is replaced by −∞ and every entry divided by one half; a row's maximum,
  folded from −∞, is unchanged by the further maximum with −∞; each entry less its row's maximum is exponentiated and
  the row summed from zero; and the log-softmax at `(i, j)` is the entry less the row's maximum, less the logarithm of
  that sum.
-/
import proofs.«106151_j12463995093382_1_alg».proof.Proof.RefNorm
import proofs.«106151_j12463995093382_1_alg».proof.Proof.RefStack
import proofs.«106151_j12463995093382_1_alg».proof.Proof.RefIndex
import proofs.«106151_j12463995093382_1_alg».proof.Proof.LossReal
import Idealize.ShloMosaic.PureOps.Reduce

noncomputable section

open scoped BigOperators

namespace Cert.RefLoss

open Cert.ReferenceIdeal Cert.ReferenceIdeal.Gen Cert.ReferenceIdeal.Read Idealize.ShloMosaic Idealize.ShloMosaic.ValueIdx

/-- The stack of the two arguments' normalised blocks. -/
abbrev embOf (z1 z2 : Cert.Spec.Rows) : Fin 8192 → Fin 512 → EReal :=
  Cert.Spec.emb (Cert.Spec.normRows eps z1) (Cert.Spec.normRows eps z2)

/-- The reference's stack at row `i`, column `k`. -/
theorem stack_apply (z1 z2 : Cert.Spec.Rows) (i : Fin 8192) (k : Fin 512) :
    val_main_v10 (F := Ideal) z1 z2 (ix2 i k) = embOf z1 z2 i k := by
  rw [stack_eq, norm0_eq, norm1_eq]

/-- The product of the stack with its transpose at `(i, j)` is the inner product of rows `i` and `j`. -/
theorem sim_apply (z1 z2 : Cert.Spec.Rows) (i j : Fin 8192) :
    val_main_v12 (F := Ideal) z1 z2 (ix2 i j) = Cert.Spec.sim (embOf z1 z2) i j := by
  rw [val_main_v12_apply]
  unfold Cert.Spec.sim
  refine Finset.sum_congr rfl fun k _ => ?_
  have el : lidx_main_v12 (ix2 i j) k = ix2 i k :=
    funext fun a => Fin.ext (by match a with | ⟨0, _⟩ => rfl | ⟨1, _⟩ => rfl)
  have er : idx_main_v11 (ridx_main_v12 (ix2 i j) k) = ix2 j k :=
    funext fun a => Fin.ext (by match a with | ⟨0, _⟩ => rfl | ⟨1, _⟩ => rfl)
  rw [val_main_v11_apply, el, er, stack_apply, stack_apply]

/-- The similarity with the diagonal at −∞, divided by one half. -/
theorem logit_apply (z1 z2 : Cert.Spec.Rows) (i j : Fin 8192) :
    val_main_v20 (F := Ideal) z1 z2 (ix2 i j) = Cert.Spec.refLogit (embOf z1 z2) i j := by
  rw [val_main_v20_apply, val_main_v18_apply, val_main_v19_apply, val_main_cst_2_apply, val_main_call2_v1_apply,
    val_main_call2_v0_apply, val_main_cst_1_apply, eye_apply, sim_apply]
  simp only [Ideal.hostDivf_def, Ideal.ofBits_def, Cert.Spec.ofBits_half, Cert.Spec.ofBits_neg_inf]
  unfold Cert.Spec.refLogit
  by_cases hij : i = j
  · rw [if_pos hij, if_pos hij, select_one]
  · rw [if_neg hij, if_neg hij, select_zero]

/-- A row's maximum, folded from −∞ over the row's entries. -/
theorem rowMax_apply (z1 z2 : Cert.Spec.Rows) (i : Fin 8192) :
    val_main_call3_v0 (F := Ideal) z1 z2 (ix1 i) = Cert.Spec.refTop (embOf z1 z2) i := by
  unfold val_main_call3_v0
  have h : S8192x8192.Reduces [1] S8192 := by decide
  rw [Host.reduce_eq_fold_single _ _ _ _ h _ (ix1 i), val_main_call3_cst_apply]
  have hf : ∀ j : Fin 8192, val_main_v20 (F := Ideal) z1 z2 (h.lift (ix1 i) j)
      = Cert.Spec.refLogit (embOf z1 z2) i j := fun j => by
    have ej : h.lift (ix1 i) j = ix2 i j :=
      funext fun a => Fin.ext (by match a with | ⟨0, _⟩ => rfl | ⟨1, _⟩ => rfl)
    rw [ej, logit_apply]
  show (Finset.univ : Finset (Fin 8192)).fold max (FloatOps.ofBits (F := Ideal) .f32 0xFF800000#32)
      (fun j : Fin 8192 => val_main_v20 (F := Ideal) z1 z2 (h.lift (ix1 i) j)) = _
  simp only [hf, Ideal.ofBits_def, Cert.Spec.ofBits_neg_inf]
  rfl

/-- The further maximum with −∞ changes nothing. -/
theorem top_apply (z1 z2 : Cert.Spec.Rows) (i : Fin 8192) :
    val_main_call3_v2 (F := Ideal) z1 z2 (ix1 i) = Cert.Spec.refTop (embOf z1 z2) i := by
  rw [val_main_call3_v2_apply, val_main_call3_v1_apply, val_main_call3_cst_0_apply, rowMax_apply]
  simp only [Ideal.maximumf_def, Ideal.ofBits_def, Cert.Spec.ofBits_neg_inf]
  exact max_bot_left _

/-- An entry less its row's maximum. -/
theorem shifted_apply (z1 z2 : Cert.Spec.Rows) (i j : Fin 8192) :
    val_main_call3_v5 (F := Ideal) z1 z2 (ix2 i j)
      = Cert.Spec.refLogit (embOf z1 z2) i j - Cert.Spec.refTop (embOf z1 z2) i := by
  have e : idx_main_call3_v3 (idx_main_call3_v4 (ix2 i j)) = ix1 i :=
    funext fun a => Fin.ext (by match a with | ⟨0, _⟩ => rfl)
  rw [val_main_call3_v5_apply, val_main_call3_v4_apply, val_main_call3_v3_apply, e, top_apply, logit_apply]
  rfl

/-- A row's sum, from zero, of the exponentials of its entries less its maximum. -/
theorem mass_apply (z1 z2 : Cert.Spec.Rows) (i : Fin 8192) :
    val_main_call3_v7 (F := Ideal) z1 z2 (ix1 i)
      = ∑ j : Fin 8192, Ideal.exp (Cert.Spec.refLogit (embOf z1 z2) i j - Cert.Spec.refTop (embOf z1 z2) i) := by
  rw [val_main_call3_v7_apply, val_main_call3_cst_1_apply]
  simp only [Ideal.ofBits_def, Ideal.ofBits_zero_f32, zero_add]
  refine Finset.sum_congr rfl fun k _ => ?_
  have e : idx_main_call3_v7 (ix1 i) k = ix2 i k :=
    funext fun a => Fin.ext (by match a with | ⟨0, _⟩ => rfl | ⟨1, _⟩ => rfl)
  rw [e, val_main_call3_v6_apply, shifted_apply]
  rfl

/-- The log-softmax at `(i, j)`. -/
theorem logp_apply (z1 z2 : Cert.Spec.Rows) (i j : Fin 8192) :
    val_main_v26 (F := Ideal) z1 z2 (ix2 i j) = Cert.Spec.refLogp (embOf z1 z2) i j := by
  have e : idx_main_call3_v8 (idx_main_call3_v10 (ix2 i j)) = ix1 i :=
    funext fun a => Fin.ext (by match a with | ⟨0, _⟩ => rfl)
  rw [val_main_v26_apply, val_main_call3_v10_apply, val_main_call3_v9_apply, val_main_call3_v8_apply, e, mass_apply,
    shifted_apply]
  rfl

end Cert.RefLoss

end
-- ==== Proof.RefLoss.lean ====
/-
  The reference's result.

  The gathered entries — the log-softmax at each row and its partner — are summed from zero over the 8192 rows, the sum
  divided by 8192 and negated. With the stages read index by index this is the specification's `refLoss` of the two
  arguments' normalised blocks.
-/
import proofs.«106151_j12463995093382_1_alg».proof.Proof.RefGather
import proofs.«106151_j12463995093382_1_alg».proof.Proof.RefLogits

noncomputable section

open scoped BigOperators

namespace Cert.RefLoss

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A vector of 8192 entries is indexed by its one coordinate … -/
def idxEquiv1 : (⟨1, ![8192]⟩ : Shape).Idx ≃ Fin 8192 where
  toFun i := i 0
  invFun r := ix1 r
  left_inv i := (eq_ix1 i).symm
  right_inv _ := rfl

/-- … so a sum over its indices is the sum over the coordinate. -/
theorem sum_idx1 {M : Type*} [AddCommMonoid M] (f : (⟨1, ![8192]⟩ : Shape).Idx → M) :
    ∑ i, f i = ∑ r : Fin 8192, f (ix1 r) :=
  (Equiv.sum_comp idxEquiv1.symm f).symm

/-- The reference's last stage, as a function of the two argument arrays, is `refLoss` of their normalised blocks at
    every (the one) index. -/
theorem result_val (z1 z2 : Cert.Spec.Rows) :
    val_main_v44 (F := Ideal) z1 z2
      = fun _ => Cert.Spec.refLoss (Cert.Spec.normRows eps z1) (Cert.Spec.normRows eps z2) := by
  funext s
  rw [val_main_v44_apply, val_main_v43_apply, val_main_v42_apply, val_main_cst_9_apply, val_main_cst_8_apply, sum_idx1]
  simp only [Ideal.hostNegf_def, Ideal.negf_def, Ideal.hostDivf_def, Ideal.ofBits_def, Ideal.ofBits_zero_f32, zero_add,
    Cert.Spec.ofBits_8192]
  unfold Cert.Spec.refLoss
  refine congrArg (fun x : EReal => -(Ideal.div x ((8192 : ℝ) : EReal))) ?_
  refine Finset.sum_congr rfl fun r _ => ?_
  rw [gathered_apply, logp_apply]

/-- The reference run's result term is `refLoss` of the normalised blocks of the two arguments' launch contents. -/
theorem result_eq (m : (ℓ : Loc nD τ sig) → Buf (Elt Ideal) ℓ) (c : Dev nD) :
    Cert.ReferenceIdeal.Value.res_out0 m c
      = fun _ => Cert.Spec.refLoss (Cert.Spec.normRows eps (m ((c.tc : Thread nD τ).loc main_arg0)))
          (Cert.Spec.normRows eps (m ((c.tc : Thread nD τ).loc main_arg1))) :=
  (val_main_v44_eq m c).trans (result_val _ _)

end Cert.RefLoss

end
-- ==== Proof.Claims.lean ====
/-
  The five claims.

  Both kernel programs' frames come from the run of @main with the region launched on its shared input array. The reference
  is host operations only: its frame is its run with the result dropped. The one rewrite of the ideal pass names the mask
  fill −∞, and its statement is that rule's. For the value claim: with finite inputs the kernel program's result is the
  loss of the two normalised blocks in its running-maximum form, the reference's is the same loss in its two-pass form,
  the two forms are equal for real rows, and the two runs start from memories that agree on the inputs.
-/
import proofs.«106151_j12463995093382_1_alg».proof.Defs
import proofs.«106151_j12463995093382_1_alg».proof.Proof.Gen.Kernel
import proofs.«106151_j12463995093382_1_alg».proof.Proof.Gen.KernelIdeal
import proofs.«106151_j12463995093382_1_alg».proof.Proof.Gen.ReferenceIdeal
import proofs.«106151_j12463995093382_1_alg».proof.Proof.Gen.Pre_finite_inputs
import proofs.«106151_j12463995093382_1_alg».proof.Proof.KResult
import proofs.«106151_j12463995093382_1_alg».proof.Proof.KRunMain
import proofs.«106151_j12463995093382_1_alg».proof.Proof.RefLoss
import Idealize.ShloMosaic.PureOps.IdealRules

noncomputable section

namespace Cert.Proof.Claims

open Idealize.ShloMosaic Idealize.ShloMosaic.TcCoe Idealize.SL.Sem

theorem frame_p : Cert.frame_Kernel := fun m ρ _ => Cert.Kernel.Lse.frame (F := Bits) m ρ

theorem frame_pi : Cert.frame_KernelIdeal := fun m ρ _ => Cert.KernelIdeal.Lse.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The mask fill is named −∞: the table gives the name that value, and the printed constant is that value at Ideal. -/
theorem preserves : Cert.preserves_Kernel_KernelIdeal :=
  IdealRules.named_const.statement Cert.KernelIdeal.κ "neg_big" .f32 0xFF333332#32 ⊥ rfl

theorem algebraic : Cert.algebraic_KernelIdeal_ReferenceIdeal := by
  intro m ρ m' ρ' hpre hagree
  have hreal := fun c : Dev Cert.KernelIdeal.nD => Cert.PreReal.reals_of_pre _ _ (hpre c)
  refine ⟨fun c => fun _ => Cert.Spec.loss
      (Cert.Spec.normRows Cert.RefLoss.eps (m ((c.tc : Thread Cert.KernelIdeal.nD Cert.KernelIdeal.τ).loc Cert.KernelIdeal.main_arg0)))
      (Cert.Spec.normRows Cert.RefLoss.eps (m ((c.tc : Thread Cert.KernelIdeal.nD Cert.KernelIdeal.τ).loc Cert.KernelIdeal.main_arg1))), ?_, ?_⟩
  · refine (θ_run Cert.KernelIdeal.defs _ _).mono (fun _ h c => ⟨?_, ?_, ?_⟩) (Cert.KernelIdeal.Lse.run_main (F := Ideal) m ρ)
    · exact ((h c).2 Cert.KernelIdeal.main_v21 Cert.KernelIdeal.Lse.v21_rest).trans (Cert.KernelIdeal.Lse.kernel_result m c (hreal c).1 (hreal c).2)
    · exact ((h c).2 Cert.KernelIdeal.main_arg0 Cert.KernelIdeal.Lse.arg0_rest).trans (Cert.KernelIdeal.Lse.tail_arg0 m c)
    · exact ((h c).2 Cert.KernelIdeal.main_arg1 Cert.KernelIdeal.Lse.arg1_rest).trans (Cert.KernelIdeal.Lse.tail_arg1 m c)
  · refine (θ_run Cert.ReferenceIdeal.defs _ _).mono (fun _ h c => ⟨(h c).1.trans ?_, (h c).2⟩)
      (Cert.ReferenceIdeal.Value.run (F := Ideal) m' ρ')
    refine (Cert.RefLoss.result_eq m' c).trans ?_
    rw [(hagree c).1, (hagree c).2]
    funext _
    exact Cert.Spec.refLoss_eq_loss _ _
      (Cert.Spec.normRows_real _ Cert.Spec.eps_pos _ (hreal c).1) (Cert.Spec.normRows_real _ Cert.Spec.eps_pos _ (hreal c).2)

end Cert.Proof.Claims

end
-- ==== Proof.lean ====
/-
  The NT-Xent loss by a running-maximum kernel against the two-pass reference.

  The kernel program normalises the rows of its two inputs, stacks them, and hands the stacked array TWICE to one
  kernel region: as 16 row tiles of 512 rows and as 8 column tiles of 1024 rows. At grid point (row tile, column tile) the
  body forms the tile of inner products, doubles it, puts −∞ on the diagonal of the full similarity matrix, and absorbs
  the tile into a running row maximum and a running row sum of exponentials kept in two scratch buffers across the
  column tiles; after the last column tile it stores the maximum plus the logarithm of the sum. The host then subtracts
  the partner's scaled similarity, computed as the row-wise inner product of the two normalised inputs, and takes the
  mean. The reference builds the whole similarity matrix, divides by one half, applies a log-softmax, reads the
  partner's column and negates the mean. Over the extended reals, for finite inputs, the two are one number.

  The modules: the specification (Spec) and its laws (LossReal, LossOnline, LossForms, NormReal, PreReal); the reference's
  run read operation by operation (RefRun, RefRead, RefNorm … RefLoss); the kernel programs' frames (FrameRuns, FrameRunA-C,
  Frame, RunMain and their word-level twins KFrame…, over the launch of a region whose input windows share an array:
  LibSharedInputs, SharedDeal0); the body's arithmetic at an index (PayEnds, PayLogits, PayMax, PaySum) and what the
  region leaves (Pieces, KScratch, KBlocks, KFinal, KInduct, KEntry, KTail, KResult); the claims (Claims).
-/
import proofs.«106151_j12463995093382_1_alg».proof.Defs
import proofs.«106151_j12463995093382_1_alg».proof.Proof.Gen.Kernel
import proofs.«106151_j12463995093382_1_alg».proof.Proof.Gen.KernelIdeal
import proofs.«106151_j12463995093382_1_alg».proof.Proof.Gen.ReferenceIdeal
import proofs.«106151_j12463995093382_1_alg».proof.Proof.Gen.Pre_finite_inputs
import proofs.«106151_j12463995093382_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, Cert.Proof.Claims.preserves,
    Cert.Proof.Claims.algebraic⟩

end Cert.Proof

end
